-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x64 .f32) (main_arg3 : FVec F S64 .f32) (main_arg4 : FVec F S64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 81
  | .vmem => 19
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S1x64, .f32⟩
  | .hbm, ⟨65, _⟩ => ⟨S1x64, .f32⟩
  | .hbm, ⟨66, _⟩ => ⟨S1x64, .f32⟩
  | .hbm, ⟨67, _⟩ => ⟨S1x64, .f32⟩
  | .hbm, ⟨68, _⟩ => ⟨S_, .f32⟩
  | .hbm, ⟨69, _⟩ => ⟨S1x64, .f32⟩
  | .hbm, ⟨70, _⟩ => ⟨S1x64, .f32⟩
  | .hbm, ⟨71, _⟩ => ⟨S_, .f32⟩
  | .hbm, ⟨72, _⟩ => ⟨S1x64, .f32⟩
  | .hbm, ⟨73, _⟩ => ⟨S1x64, .f32⟩
  | .hbm, ⟨74, _⟩ => ⟨S1x64, .f32⟩
  | .hbm, ⟨75, _⟩ => ⟨S1x64, .f32⟩
  | .hbm, ⟨76, _⟩ => ⟨S_, .f32⟩
  | .hbm, ⟨77, _⟩ => ⟨S1x64, .f32⟩
  | .hbm, ⟨78, _⟩ => ⟨S1x64, .f32⟩
  | .hbm, ⟨79, _⟩ => ⟨S1x64, .f32⟩
  | .hbm, ⟨80, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S10000x64, .f32⟩
  | .local _ .vmem, ⟨18, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47_0 : Ref sig .tc := ⟨.hbm, 66, rfl⟩
abbrev main_v47_1 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S10000x64_S10000x64 : S10000x64.ShapeCasts S10000x64
  shapeCasts_S1x64_S1x64 : S1x64.ShapeCasts S1x64
  broadcasts_S1x64_S10000x64 : S1x64.Broadcasts S10000x64
  reduces_S10000x64_S64 : S10000x64.Reduces [0] S64
  bcast_S_S1x64 : S_.BroadcastsInDim S1x64 (![] : Fin 0 → Fin S1x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x64.size a ≤ S100000x64.size a
  hwx2_6 : ∀ i : grid2.Coords, EltTy.bits .f32 = 32 ∨ (Rect.block (s := S100000x64) S10000x64.size (cc2_transform_6 i) (hinb2_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47_0) S1x64.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47_1) S1x64.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v43) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v57) S10000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 99
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S64, .f32⟩
  | .hbm, ⟨68, _⟩ => ⟨S_, .f32⟩
  | .hbm, ⟨69, _⟩ => ⟨S64, .f32⟩
  | .hbm, ⟨70, _⟩ => ⟨S64, .f32⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S_, .f32⟩
  | .hbm, ⟨76, _⟩ => ⟨S64, .f32⟩
  | .hbm, ⟨77, _⟩ => ⟨S_, .f32⟩
  | .hbm, ⟨78, _⟩ => ⟨S64, .f32⟩
  | .hbm, ⟨79, _⟩ => ⟨S64, .f32⟩
  | .hbm, ⟨80, _⟩ => ⟨S1x64, .f32⟩
  | .hbm, ⟨81, _⟩ => ⟨S100000x64, .f32⟩
  | .hbm, ⟨82, _⟩ => ⟨S100000x64, .f32⟩
  | .hbm, ⟨83, _⟩ => ⟨S_, .f32⟩
  | .hbm, ⟨84, _⟩ => ⟨S64, .f32⟩
  | .hbm, ⟨85, _⟩ => ⟨S64, .f32⟩
  | .hbm, ⟨86, _⟩ => ⟨S64, .f32⟩
  | .hbm, ⟨87, _⟩ => ⟨S1x64, .f32⟩
  | .hbm, ⟨88, _⟩ => ⟨S100000x64, .f32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | .hbm, ⟨93, _⟩ => ⟨S1x64, .f32⟩
  | .hbm, ⟨94, _⟩ => ⟨S100000x64, .f32⟩
  | .hbm, ⟨95, _⟩ => ⟨S100000x64, .f32⟩
  | .hbm, ⟨96, _⟩ => ⟨S_, .f32⟩
  | .hbm, ⟨97, _⟩ => ⟨S100000x64, .f32⟩
  | .hbm, ⟨98, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_13 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_call1_cst : Ref sig .tc := ⟨.hbm, 96, rfl⟩
abbrev main_call1_v0 : Ref sig .tc := ⟨.hbm, 97, rfl⟩
abbrev main_v72 : Ref sig .tc := ⟨.hbm, 98, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run with its RESULT named: every weakly fair execution of @main ends with the result
  array main_v57 at the contents of the last segment boundary (region 2's exit: its output array at what the
  region's write-backs leave, every other buffer as the region found it), and the six argument arrays unchanged.
  The run is the launch of @main's eight segments (five stretches of host operations, three pipelined regions);
  the last thread state holds every unscoped buffer at the last boundary's contents, and reading it against the
  final memory gives the result buffer beside the arguments.
-/
import proofs.«165885_j29437705847123_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main, the result buffer read off the last boundary's contents. -/
theorem run_result : θ_run defs (onTc (τ := τ) (main (F := F))) ⟨m, fun _ => 0, ρ⟩ (fun r => ∀ c : Dev nD,
      r.2.mem ((c.tc : Thread nD τ).loc main_v57) = W8 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v57 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Run

end
-- ==== Proof.HostChain.lean ====
/-
  The host operations of the idealized kernel's @main, stretch by stretch, read as array-level functions.

  @main's host operations come in five stretches around the three pipelined regions. For a stretch and a buffer it
  writes, the buffer's contents after the stretch are the operations' composed function of the contents before it; a
  buffer the stretch does not write keeps its contents. Each statement is over an arbitrary valuation of the buffers
  before the stretch, so that the run can instantiate it at each boundary in turn.

  Up to the aggregation (the edge list split into sources and targets, the self loops appended, the degree by a
  scatter-add of ones, its inverse square root where positive, the edge weights by two gathers, the gather of the
  transformed rows, their scaling and the scatter-add into the aggregate) the kernel's host operations are, one for
  one, the reference's: those stretches are stated with the reference's own stage functions on the right, the
  transformed features entering as a hypothesis. The last stretch (mean, mean of squares, variance, inverse standard
  deviation) is the kernel's own.
-/
import proofs.«165885_j29437705847123_1_alg».proof.Proof.Gen.KernelIdeal.Launch
import proofs.«165885_j29437705847123_1_alg».proof.Proof.RefReadP
import Idealize.ShloMosaic.Lib.StableHlo.Run

noncomputable section

namespace Cert.KernelIdeal.HostChain

open Cert.KernelIdeal Cert.KernelIdeal.Gen
open Idealize.ShloMosaic Idealize.ShloMosaic.TcCoe Idealize.SL.Sem Idealize.ShloMosaic.StableHlo
open Cert.ReferenceIdeal.ReadP

variable {F : FTy → Type} [FloatOps F]
variable (Wv : Valuation τ sig (Elt F))

/-! ## Before the first region: sources, targets, and the degree's pieces -/

theorem s0_v5 : after (hostOps0 (F := F)) Wv (Proc.devRef .tc main_v5) = val_main_v5 (F := F) (Wv (Proc.devRef .tc main_arg1)) := by
  after_results_simp <;> rfl
theorem s0_v6 : after (hostOps0 (F := F)) Wv (Proc.devRef .tc main_v6) = val_main_v6 (F := F) (Wv (Proc.devRef .tc main_arg1)) := by
  after_results_simp <;> rfl
theorem s0_v12 : after (hostOps0 (F := F)) Wv (Proc.devRef .tc main_v12) = val_main_v12 (F := F) (Wv (Proc.devRef .tc main_arg1)) := by
  after_results_simp <;> rfl
theorem s0_v13 : after (hostOps0 (F := F)) Wv (Proc.devRef .tc main_v13) = val_main_v13 (F := F) (Wv (Proc.devRef .tc main_arg1)) := by
  after_results_simp <;> rfl
theorem s0_cst_2 : after (hostOps0 (F := F)) Wv (Proc.devRef .tc main_cst_2) = val_main_cst_2 (F := F) := by
  after_results_simp <;> rfl
theorem s0_arg (b : Ref sig .tc) (hb : b = main_arg0 ∨ b = main_arg1 ∨ b = main_arg2 ∨ b = main_arg3 ∨ b = main_arg4 ∨ b = main_arg5) :
    after (hostOps0 (F := F)) Wv (Proc.devRef .tc b) = Wv (Proc.devRef .tc b) := by
  rcases hb with rfl | rfl | rfl | rfl | rfl | rfl <;> after_results_simp

/-! ## The outlined select: the inverse square root of the degree where it is positive, zero elsewhere -/

theorem s01_v14 (x1 : (⟨Cert.ReferenceIdeal.S2x1600000, .i32⟩ : BufTy).Contents (Elt F))
    (h12 : Wv (Proc.devRef .tc main_v12) = val_main_v12 (F := F) x1) (h13 : Wv (Proc.devRef .tc main_v13) = val_main_v13 (F := F) x1)
    (hc : Wv (Proc.devRef .tc main_cst_2) = val_main_cst_2 (F := F)) :
    after (hostOps0_1 (F := F)) Wv (Proc.devRef .tc main_v14) = val_main_v14 (F := F) x1 := by
  after_results_simp
  rw [h12, h13, hc]
  rfl
theorem s01_keep (b : Ref sig .tc) (hb : b = main_v5 ∨ b = main_v6 ∨ b = main_arg0 ∨ b = main_arg1 ∨ b = main_arg2 ∨ b = main_arg3 ∨ b = main_arg4 ∨ b = main_arg5) :
    after (hostOps0_1 (F := F)) Wv (Proc.devRef .tc b) = Wv (Proc.devRef .tc b) := by
  rcases hb with rfl | rfl | rfl | rfl | rfl | rfl | rfl | rfl <;> after_results_simp

/-! ## The edge weights: the product of the two gathered inverse square roots -/

theorem s02_v29 (x1 : (⟨Cert.ReferenceIdeal.S2x1600000, .i32⟩ : BufTy).Contents (Elt F))
    (h14 : Wv (Proc.devRef .tc main_v14) = val_main_v14 (F := F) x1) (h5 : Wv (Proc.devRef .tc main_v5) = val_main_v5 (F := F) x1)
    (h6 : Wv (Proc.devRef .tc main_v6) = val_main_v6 (F := F) x1) :
    after (hostOps0_2 (F := F)) Wv (Proc.devRef .tc main_v29) = val_main_v29 (F := F) x1 := by
  after_results_simp
  rw [h14, h5, h6]
  rfl
theorem s02_keep (b : Ref sig .tc) (hb : b = main_v5 ∨ b = main_v6 ∨ b = main_arg0 ∨ b = main_arg1 ∨ b = main_arg2 ∨ b = main_arg3 ∨ b = main_arg4 ∨ b = main_arg5) :
    after (hostOps0_2 (F := F)) Wv (Proc.devRef .tc b) = Wv (Proc.devRef .tc b) := by
  rcases hb with rfl | rfl | rfl | rfl | rfl | rfl | rfl | rfl <;> after_results_simp

/-! ## Between the first and the second region: the aggregate, and the three parameter rows -/

theorem s1_v43 (x0 : (⟨Cert.ReferenceIdeal.S100000x64, .f32⟩ : BufTy).Contents (Elt F))
    (x1 : (⟨Cert.ReferenceIdeal.S2x1600000, .i32⟩ : BufTy).Contents (Elt F))
    (x2 : (⟨Cert.ReferenceIdeal.S64x64, .f32⟩ : BufTy).Contents (Elt F))
    (h30 : Wv (Proc.devRef .tc main_v30) = val_main_v30 (F := F) x0 x2) (h5 : Wv (Proc.devRef .tc main_v5) = val_main_v5 (F := F) x1)
    (h6 : Wv (Proc.devRef .tc main_v6) = val_main_v6 (F := F) x1) (h29 : Wv (Proc.devRef .tc main_v29) = val_main_v29 (F := F) x1) :
    after (hostOps1 (F := F)) Wv (Proc.devRef .tc main_v43) = val_main_v43 (F := F) x0 x1 x2 := by
  after_results_simp
  rw [h30, h5, h6, h29]
  rfl
theorem s1_v44 : after (hostOps1 (F := F)) Wv (Proc.devRef .tc main_v44) = shapeCast _ (Wv (Proc.devRef .tc main_arg3)) shapeCasts_S64_S1x64 := by
  after_results_simp <;> rfl
theorem s1_v45 : after (hostOps1 (F := F)) Wv (Proc.devRef .tc main_v45) = shapeCast _ (Wv (Proc.devRef .tc main_arg4)) shapeCasts_S64_S1x64 := by
  after_results_simp <;> rfl
theorem s1_v46 : after (hostOps1 (F := F)) Wv (Proc.devRef .tc main_v46) = shapeCast _ (Wv (Proc.devRef .tc main_arg5)) shapeCasts_S64_S1x64 := by
  after_results_simp <;> rfl

/-! ## Between the second and the third region: mean, variance, inverse standard deviation -/

/-- The row of the count, `1.0e5` broadcast. -/
abbrev countRow : (⟨S1x64, .f32⟩ : BufTy).Contents (Elt F) :=
  broadcastInDim S1x64 ![] bcast_S_S1x64 (constant (F := F) S_ .f32 0x47C35000#32)
/-- The row of the epsilon, `1.0e-5` rounded, broadcast. -/
abbrev epsRow : (⟨S1x64, .f32⟩ : BufTy).Contents (Elt F) :=
  broadcastInDim S1x64 ![] bcast_S_S1x64 (constant (F := F) S_ .f32 0x3727C5AC#32)

theorem s2_v49 : after (hostOps2 (F := F)) Wv (Proc.devRef .tc main_v49) = Host.divf (Wv (Proc.devRef .tc main_v47_0)) (countRow (F := F)) := by
  after_results_simp <;> rfl
theorem s2_v56 : after (hostOps2 (F := F)) Wv (Proc.devRef .tc main_v56)
    = Host.rsqrt (addf (subf (Host.divf (Wv (Proc.devRef .tc main_v47_1)) (countRow (F := F)))
        (mulf (Host.divf (Wv (Proc.devRef .tc main_v47_0)) (countRow (F := F))) (Host.divf (Wv (Proc.devRef .tc main_v47_0)) (countRow (F := F)))))
        (epsRow (F := F))) := by
  after_results_simp <;> rfl
theorem s2_keep (b : Ref sig .tc) (hb : b = main_v43 ∨ b = main_v44 ∨ b = main_v45 ∨ b = main_v46) :
    after (hostOps2 (F := F)) Wv (Proc.devRef .tc b) = Wv (Proc.devRef .tc b) := by
  rcases hb with rfl | rfl | rfl | rfl <;> after_results_simp

end Cert.KernelIdeal.HostChain

end
-- ==== Proof.Boundaries.lean ====
/-
  What the buffers hold at the boundaries of @main's segments, for the buffers the three regions read.

  The run's boundary contents are a fold through @main: a stretch of host operations rewrites the buffers it writes, a
  region leaves its arrays at what its write-backs leave and every other buffer as it found it. Walking the fold:
  the sources, the targets and the edge weights are the reference's stages of the edge list; with the transformed
  features entering the second stretch as the reference's product x · W, the aggregate is the reference's aggregate;
  the three parameter rows are the parameter vectors reshaped; an input array of a region is unchanged by the region.
-/
import proofs.«165885_j29437705847123_1_alg».proof.Proof.Gen.KernelIdeal.Frame
import proofs.«165885_j29437705847123_1_alg».proof.Proof.HostChain
import Idealize.ShloMosaic.Lib.Pipeline.Value

noncomputable section

namespace Cert.KernelIdeal.Boundaries

open Cert.KernelIdeal Cert.KernelIdeal.Gen Cert.KernelIdeal.HostChain
open Idealize.ShloMosaic Idealize.ShloMosaic.TcCoe Idealize.SL.Sem Idealize.ShloMosaic.StableHlo
open Idealize.ShloMosaic.Pipeline (Dat)
open Cert.ReferenceIdeal.ReadP

variable (m : (ℓ : Loc nD τ sig) → Buf (Elt Ideal) ℓ) (ρ : Dev nD → PrngReg) (c : Dev nD)

/-- The argument arrays as launched. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)

/-! ## After the first stretch -/

theorem w1_v5 : W1 m ρ c (Proc.devRef .tc main_v5) = val_main_v5 (F := Ideal) (a1 m c) := s0_v5 (W0 m ρ c)
theorem w1_v6 : W1 m ρ c (Proc.devRef .tc main_v6) = val_main_v6 (F := Ideal) (a1 m c) := s0_v6 (W0 m ρ c)
theorem w1_v12 : W1 m ρ c (Proc.devRef .tc main_v12) = val_main_v12 (F := Ideal) (a1 m c) := s0_v12 (W0 m ρ c)
theorem w1_v13 : W1 m ρ c (Proc.devRef .tc main_v13) = val_main_v13 (F := Ideal) (a1 m c) := s0_v13 (W0 m ρ c)
theorem w1_cst_2 : W1 m ρ c (Proc.devRef .tc main_cst_2) = val_main_cst_2 (F := Ideal) := s0_cst_2 (W0 m ρ c)
theorem w1_arg (b : Ref sig .tc) (hb : b = main_arg0 ∨ b = main_arg1 ∨ b = main_arg2 ∨ b = main_arg3 ∨ b = main_arg4 ∨ b = main_arg5) :
    W1 m ρ c (Proc.devRef .tc b) = m ((c : Thread nD τ).loc b) := s0_arg (W0 m ρ c) b hb

/-! ## After the outlined select -/

theorem w2_v14 : W2 m ρ c (Proc.devRef .tc main_v14) = val_main_v14 (F := Ideal) (a1 m c) :=
  s01_v14 (W1 m ρ c) (a1 m c) (w1_v12 m ρ c) (w1_v13 m ρ c) (w1_cst_2 m ρ c)
theorem w2_v5 : W2 m ρ c (Proc.devRef .tc main_v5) = val_main_v5 (F := Ideal) (a1 m c) :=
  (s01_keep (W1 m ρ c) main_v5 (.inl rfl)).trans (w1_v5 m ρ c)
theorem w2_v6 : W2 m ρ c (Proc.devRef .tc main_v6) = val_main_v6 (F := Ideal) (a1 m c) :=
  (s01_keep (W1 m ρ c) main_v6 (.inr (.inl rfl))).trans (w1_v6 m ρ c)
theorem w2_arg (b : Ref sig .tc) (hb : b = main_arg0 ∨ b = main_arg1 ∨ b = main_arg2 ∨ b = main_arg3 ∨ b = main_arg4 ∨ b = main_arg5) :
    W2 m ρ c (Proc.devRef .tc b) = m ((c : Thread nD τ).loc b) :=
  (s01_keep (W1 m ρ c) b (.inr (.inr hb))).trans (w1_arg m ρ c b hb)

/-! ## At the first region's entry -/

theorem w3_v29 : W3 m ρ c (Proc.devRef .tc main_v29) = val_main_v29 (F := Ideal) (a1 m c) :=
  s02_v29 (W2 m ρ c) (a1 m c) (w2_v14 m ρ c) (w2_v5 m ρ c) (w2_v6 m ρ c)
theorem w3_v5 : W3 m ρ c (Proc.devRef .tc main_v5) = val_main_v5 (F := Ideal) (a1 m c) :=
  (s02_keep (W2 m ρ c) main_v5 (.inl rfl)).trans (w2_v5 m ρ c)
theorem w3_v6 : W3 m ρ c (Proc.devRef .tc main_v6) = val_main_v6 (F := Ideal) (a1 m c) :=
  (s02_keep (W2 m ρ c) main_v6 (.inr (.inl rfl))).trans (w2_v6 m ρ c)
theorem w3_arg (b : Ref sig .tc) (hb : b = main_arg0 ∨ b = main_arg1 ∨ b = main_arg2 ∨ b = main_arg3 ∨ b = main_arg4 ∨ b = main_arg5) :
    W3 m ρ c (Proc.devRef .tc b) = m ((c : Thread nD τ).loc b) :=
  (s02_keep (W2 m ρ c) b (.inr (.inr hb))).trans (w2_arg m ρ c b hb)

/-! ## At the first region's exit: everything but its output as it was -/

theorem w4_v5 : W4 m ρ c (Proc.devRef .tc main_v5) = val_main_v5 (F := Ideal) (a1 m c) :=
  (W4_of_ne m ρ c main_v5 (by decide)).trans (w3_v5 m ρ c)
theorem w4_v6 : W4 m ρ c (Proc.devRef .tc main_v6) = val_main_v6 (F := Ideal) (a1 m c) :=
  (W4_of_ne m ρ c main_v6 (by decide)).trans (w3_v6 m ρ c)
theorem w4_v29 : W4 m ρ c (Proc.devRef .tc main_v29) = val_main_v29 (F := Ideal) (a1 m c) :=
  (W4_of_ne m ρ c main_v29 (by decide)).trans (w3_v29 m ρ c)
theorem w4_arg3 : W4 m ρ c (Proc.devRef .tc main_arg3) = a3 m c :=
  (W4_of_ne m ρ c main_arg3 (by decide)).trans (w3_arg m ρ c main_arg3 (by decide))
theorem w4_arg4 : W4 m ρ c (Proc.devRef .tc main_arg4) = a4 m c :=
  (W4_of_ne m ρ c main_arg4 (by decide)).trans (w3_arg m ρ c main_arg4 (by decide))
theorem w4_arg5 : W4 m ρ c (Proc.devRef .tc main_arg5) = a5 m c :=
  (W4_of_ne m ρ c main_arg5 (by decide)).trans (w3_arg m ρ c main_arg5 (by decide))
/-- The first region's output array is what its write-backs leave. -/
theorem w4_v30 : W4 m ρ c (Proc.devRef .tc main_v30) = (dat0 (V3 m ρ) c).arrAt 2 cfg0.N := W4_arr m ρ c 2

/-! ## At the second region's entry, the first region's output being the product x · W -/

section
variable (h30 : W4 m ρ c (Proc.devRef .tc main_v30) = val_main_v30 (F := Ideal) (a0 m c) (a2 m c))
include h30

theorem w5_v43 : W5 m ρ c (Proc.devRef .tc main_v43) = val_main_v43 (F := Ideal) (a0 m c) (a1 m c) (a2 m c) :=
  s1_v43 (W4 m ρ c) (a0 m c) (a1 m c) (a2 m c) h30 (w4_v5 m ρ c) (w4_v6 m ρ c) (w4_v29 m ρ c)

end

theorem w5_v44 : W5 m ρ c (Proc.devRef .tc main_v44) = shapeCast _ (a3 m c) shapeCasts_S64_S1x64 := by
  rw [← w4_arg3 m ρ c]; exact s1_v44 (W4 m ρ c)
theorem w5_v45 : W5 m ρ c (Proc.devRef .tc main_v45) = shapeCast _ (a4 m c) shapeCasts_S64_S1x64 := by
  rw [← w4_arg4 m ρ c]; exact s1_v45 (W4 m ρ c)
theorem w5_v46 : W5 m ρ c (Proc.devRef .tc main_v46) = shapeCast _ (a5 m c) shapeCasts_S64_S1x64 := by
  rw [← w4_arg5 m ρ c]; exact s1_v46 (W4 m ρ c)

/-! ## At the second region's exit: its inputs and the other rows as they were, its outputs what the write-backs leave -/

theorem w6_v43 : W6 m ρ c (Proc.devRef .tc main_v43) = W5 m ρ c (Proc.devRef .tc main_v43) :=
  (W6_arr m ρ c 0).trans (((dat1 (V5 m ρ) c).arrAt_in 0 rfl _).trans (A_eq1 (V5 m ρ) c 0))
theorem w6_v44 : W6 m ρ c (Proc.devRef .tc main_v44) = W5 m ρ c (Proc.devRef .tc main_v44) :=
  (W6_arr m ρ c 1).trans (((dat1 (V5 m ρ) c).arrAt_in 1 rfl _).trans (A_eq1 (V5 m ρ) c 1))
theorem w6_v45 : W6 m ρ c (Proc.devRef .tc main_v45) = W5 m ρ c (Proc.devRef .tc main_v45) := W6_of_ne m ρ c main_v45 (by decide)
theorem w6_v46 : W6 m ρ c (Proc.devRef .tc main_v46) = W5 m ρ c (Proc.devRef .tc main_v46) := W6_of_ne m ρ c main_v46 (by decide)
theorem w6_v47_0 : W6 m ρ c (Proc.devRef .tc main_v47_0) = (dat1 (V5 m ρ) c).arrAt 2 cfg1.N := W6_arr m ρ c 2
theorem w6_v47_1 : W6 m ρ c (Proc.devRef .tc main_v47_1) = (dat1 (V5 m ρ) c).arrAt 3 cfg1.N := W6_arr m ρ c 3

/-! ## At the third region's entry -/

theorem w7_v43 : W7 m ρ c (Proc.devRef .tc main_v43) = W5 m ρ c (Proc.devRef .tc main_v43) :=
  (s2_keep (W6 m ρ c) main_v43 (.inl rfl)).trans (w6_v43 m ρ c)
theorem w7_v44 : W7 m ρ c (Proc.devRef .tc main_v44) = W5 m ρ c (Proc.devRef .tc main_v44) :=
  (s2_keep (W6 m ρ c) main_v44 (.inr (.inl rfl))).trans (w6_v44 m ρ c)
theorem w7_v45 : W7 m ρ c (Proc.devRef .tc main_v45) = W5 m ρ c (Proc.devRef .tc main_v45) :=
  (s2_keep (W6 m ρ c) main_v45 (.inr (.inr (.inl rfl)))).trans (w6_v45 m ρ c)
theorem w7_v46 : W7 m ρ c (Proc.devRef .tc main_v46) = W5 m ρ c (Proc.devRef .tc main_v46) :=
  (s2_keep (W6 m ρ c) main_v46 (.inr (.inr (.inr rfl)))).trans (w6_v46 m ρ c)
/-- The second region's first output, the column sums, as a row. -/
abbrev sumRow : FVec Ideal S1x64 .f32 := W6 m ρ c (Proc.devRef .tc main_v47_0)
/-- The second region's second output, the column sums of squares, as a row. -/
abbrev sumsqRow : FVec Ideal S1x64 .f32 := W6 m ρ c (Proc.devRef .tc main_v47_1)

theorem w7_v49 : (W7 m ρ c (Proc.devRef .tc main_v49) : FVec Ideal S1x64 .f32) = Host.divf (sumRow m ρ c) (countRow (F := Ideal)) := s2_v49 (W6 m ρ c)
theorem w7_v56 : (W7 m ρ c (Proc.devRef .tc main_v56) : FVec Ideal S1x64 .f32)
    = Host.rsqrt (addf (subf (Host.divf (sumsqRow m ρ c) (countRow (F := Ideal)))
        (mulf (Host.divf (sumRow m ρ c) (countRow (F := Ideal))) (Host.divf (sumRow m ρ c) (countRow (F := Ideal)))))
        (epsRow (F := Ideal))) := s2_v56 (W6 m ρ c)

/-! ## At the return: the result array is what the third region's write-backs leave -/

theorem w8_v57 : W8 m ρ c (Proc.devRef .tc main_v57) = (dat2 (V7 m ρ) c).arrAt 6 cfg2.N := W8_arr m ρ c 6

end Cert.KernelIdeal.Boundaries

end
-- ==== Proof.StatsRegion.lean ====
/-
  The statistics region (region 1) read as plain sums. The region walks the [100000,64] array `agg` in ten row
  blocks of 10000 rows; at each block it adds, into two [1,64] accumulators, the column sums of `v = agg + b` and of
  `v * v` over the block's rows; the accumulators are set to zero at the first block and written back after the last.
  Read at the extended reals: the accumulator after block `n` is `0 + s_0 + … + s_n` of the block sums, and since
  `0 + x = x` and `+` is commutative and associative there, after the last block it is the sum over all 100000
  rows (row `10000 * t + r` is row `r` of block `t`).
-/
import proofs.«165885_j29437705847123_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.StatsRegion

open Cert.KernelIdeal Cert.KernelIdeal.Gen

/-! ## Sums over the rows, taken block by block (no program in this part) -/

section Sums
variable {M : Type*} [AddCommMonoid M]

/-- A sum over `m * n` rows is the sum over `m` blocks of the sums over each block's `n` rows (row `n * t + r`). -/
theorem sum_blocks (m n : ℕ) (f : Fin (m * n) → M) :
    ∑ t : Fin m, ∑ r : Fin n, f (finProdFinEquiv (t, r)) = ∑ i, f i := by
  rw [← Equiv.sum_comp finProdFinEquiv f, Fintype.sum_prod_type]

/-- A function of the 100000 rows read at a natural row number (zero past the last row). -/
def rowAt (f : Fin 100000 → M) (k : ℕ) : M := if h : k < 100000 then f ⟨k, h⟩ else 0

theorem rowAt_of_lt (f : Fin 100000 → M) (k : ℕ) (h : k < 100000) : rowAt f k = f ⟨k, h⟩ := dif_pos h

/-- The ten block sums of 10000 rows each, added up, are the sum over all rows. -/
theorem sum_range_blocks (f : Fin 100000 → M) :
    ∑ s ∈ Finset.range 10, ∑ r : Fin 10000, rowAt f (10000 * s + r.val) = ∑ i, f i := by
  rw [Finset.sum_range (fun s => ∑ r : Fin 10000, rowAt f (10000 * s + r.val))]
  refine Eq.trans ?_ (sum_blocks 10 10000 f)
  refine Finset.sum_congr rfl fun t _ => Finset.sum_congr rfl fun r _ => ?_
  have h : 10000 * t.val + r.val < 100000 := by omega
  rw [rowAt_of_lt f _ h]
  exact congrArg f (Fin.ext (by rw [finProdFinEquiv_apply_val]; show 10000 * t.val + r.val = r.val + 10000 * t.val; omega))

/-- A running value that starts at `0 + a 0` and at each later step adds `a (n + 1)` to what the step before left
    is the sum of the addends so far: `0 + x = x` and `+` is associative. -/
theorem chain_eq_sum {N : ℕ} (f : (n : ℕ) → n < N → M) (a : ℕ → M)
    (h0 : ∀ h : 0 < N, f 0 h = 0 + a 0)
    (hs : ∀ (n : ℕ) (h : n + 1 < N), f (n + 1) h = f n (Nat.lt_of_succ_lt h) + a (n + 1)) :
    ∀ (n : ℕ) (h : n < N), f n h = ∑ s ∈ Finset.range (n + 1), a s
  | 0, h => by rw [h0 h, zero_add, Finset.sum_range_one]
  | n + 1, h => by rw [hs n h, chain_eq_sum f a h0 hs n (Nat.lt_of_succ_lt h), Finset.sum_range_succ _ (n + 1)]

end Sums

/-! ## What each case of the body leaves in the two accumulators, as the stores' payloads -/

theorem hz : (![0, 0] : Fin 2 → Nat) = fun _ => 0 := funext fun a => by fin_cases a <;> rfl

section Pieces
variable {F : FTy → Type} [FloatOps F]

/-- First block, sums: the accumulator is zeroed, read back, and the block's column sums are added to it. -/
theorem out_A_2 (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : cond1_0 i)
    (x0 : Vec F S10000x64 .f32) (x1 : Vec F S1x64 .f32) :
    out1_A_2 c i a1 h1 a2 h2 a3 h3 a4 h4 hc x0 x1 = k1_pay4 x0 x1 k1_pay1 := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S1x64) hz, View.readCov_unit_zero (S := S1x64) _ hz]
  simp only [View.readAt_eq_ld, h1.read_unread, h2.read_unread, View.ld_unit_zero (S := S10000x64) hz,
    View.ld_unit_zero (S := S1x64) hz]

/-- First block, sums of squares: likewise. -/
theorem out_A_3 (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : cond1_0 i)
    (x0 : Vec F S10000x64 .f32) (x1 : Vec F S1x64 .f32) :
    out1_A_3 c i a1 h1 a2 h2 a3 h3 a4 h4 hc x0 x1 = k1_pay5 x0 x1 k1_pay2 := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x64) hz, View.readCov_unit_zero (S := S1x64) _ hz]
  simp only [View.readAt_eq_ld, h1.read_unread, h2.read_unread, View.ld_unit_zero (S := S10000x64) hz,
    View.ld_unit_zero (S := S1x64) hz]

/-- A later block, sums: the block's column sums are added to what the accumulator held. -/
theorem out_B_2 (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : ¬cond1_0 i)
    (x0 : Vec F S10000x64 .f32) (x1 xo2 xo3 : Vec F S1x64 .f32) :
    out1_B_2 c i a1 h1 a2 h2 a3 h3 a4 h4 hc x0 x1 xo2 xo3 = k1_pay4 x0 x1 xo2 := by
  unfold out1_B_2
  rw [View.read_writes_eq_canon _ _ _ (cover1_B_2 c i a1 h1 a2 h2 a3 h3 a4 h4 hc x0 x1 xo2 xo3)]
  unfold kernelRun1_B
  dsimp only
  sl_unfold_words
  rw [View.canon_unit_zero (S := S1x64) hz]
  simp only [View.readAt_eq_ld, h1.read_unread, h2.read_unread, h3.read_unread, View.ld_unit_zero (S := S10000x64) hz,
    View.ld_unit_zero (S := S1x64) hz]

/-- A later block, sums of squares: likewise. -/
theorem out_B_3 (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : ¬cond1_0 i)
    (x0 : Vec F S10000x64 .f32) (x1 xo2 xo3 : Vec F S1x64 .f32) :
    out1_B_3 c i a1 h1 a2 h2 a3 h3 a4 h4 hc x0 x1 xo2 xo3 = k1_pay5 x0 x1 xo3 := by
  unfold out1_B_3
  rw [View.read_writes_eq_canon _ _ _ (cover1_B_3 c i a1 h1 a2 h2 a3 h3 a4 h4 hc x0 x1 xo2 xo3)]
  unfold kernelRun1_B
  dsimp only
  sl_unfold_words
  rw [View.canon_unit_zero (S := S1x64) hz]
  simp only [View.readAt_eq_ld, h1.read_unread, h2.read_unread, h4.read_unread, View.ld_unit_zero (S := S10000x64) hz,
    View.ld_unit_zero (S := S1x64) hz]

end Pieces

/-! ## The payloads at an index, over the extended reals -/

section AtIdeal

/-- The reset value of the sums is the zero row. -/
theorem pay1_apply (j : S1x64.Idx) : k1_pay1 (F := Ideal) j = 0 := by
  unfold k1_pay1
  exact Ideal.ofBits_zero_f32

/-- The reset value of the sums of squares is the zero row. -/
theorem pay2_apply (j : S1x64.Idx) : k1_pay2 (F := Ideal) j = 0 := by
  unfold k1_pay2
  exact Ideal.ofBits_zero_f32

/-- `v = x + b`: the block plus the bias row on every row. -/
theorem pay3_apply (x0 : Vec Ideal S10000x64 .f32) (x1 : Vec Ideal S1x64 .f32) (r : Fin 10000) (d : Fin 64) :
    k1_pay3 x0 x1 (ix2 r d) = x0 (ix2 r d) + x1 (ix2 0 d) := by
  unfold k1_pay3
  simp only [shapeCast_self]
  rw [addf_apply, broadcastTo_1b_ab_apply]

/-- The index the reduction over the rows inserts at column `d` is `(k, d)`. -/
theorem lift_eq (d : Fin 64) (k : Fin 10000) : reduces_S10000x64_S64.lift (ix1 d) k = ix2 k d := by
  funext a
  match a with
  | ⟨0, _⟩ => exact Fin.ext rfl
  | ⟨1, _⟩ => exact Fin.ext rfl

/-- The new sum at column `d`: the old one plus the block's column sum of `v`. -/
theorem pay4_apply (x0 : Vec Ideal S10000x64 .f32) (x1 xo : Vec Ideal S1x64 .f32) (d : Fin 64) :
    k1_pay4 x0 x1 xo (ix2 0 d) = xo (ix2 0 d) + ∑ r : Fin 10000, (x0 (ix2 r d) + x1 (ix2 0 d)) := by
  unfold k1_pay4
  simp only [shapeCast_self]
  rw [addf_apply, shapeCast_a_1a_apply]
  refine congrArg (xo (ix2 0 d) + ·) ?_
  refine (Ideal.multiReduction_add_single (k1_pay3 x0 x1) _ reduces_S10000x64_S64 _ _ (ix1 d)).trans ?_
  exact Finset.sum_congr rfl fun k _ => (congrArg (k1_pay3 x0 x1) (lift_eq d k)).trans (pay3_apply x0 x1 k d)

/-- The new sum of squares at column `d`: the old one plus the block's column sum of `v * v`. -/
theorem pay5_apply (x0 : Vec Ideal S10000x64 .f32) (x1 xo : Vec Ideal S1x64 .f32) (d : Fin 64) :
    k1_pay5 x0 x1 xo (ix2 0 d)
      = xo (ix2 0 d) + ∑ r : Fin 10000, (x0 (ix2 r d) + x1 (ix2 0 d)) * (x0 (ix2 r d) + x1 (ix2 0 d)) := by
  unfold k1_pay5
  simp only [shapeCast_self]
  rw [addf_apply, shapeCast_a_1a_apply]
  refine congrArg (xo (ix2 0 d) + ·) ?_
  refine (Ideal.multiReduction_add_single (mulf (k1_pay3 x0 x1) (k1_pay3 x0 x1)) _ reduces_S10000x64_S64 _ _ (ix1 d)).trans ?_
  exact Finset.sum_congr rfl fun k _ =>
    (congrArg (mulf (k1_pay3 x0 x1) (k1_pay3 x0 x1)) (lift_eq d k)).trans
      ((mulf_apply (k1_pay3 x0 x1) (k1_pay3 x0 x1) (ix2 k d)).trans
        (congrArg₂ (· * ·) (pay3_apply x0 x1 k d) (pay3_apply x0 x1 k d)))

end AtIdeal

/-! ## The blocks the windows read -/

section Blocks
variable {F : FTy → Type} [FloatOps F]
variable (V : (c : Dev nD) → (b : Ref sig .tc) → Buf (Elt F) ((c : Thread nD τ).loc b))

theorem arr0 : Pipeline.arrRef spec1 0 = main_v43 := rfl
theorem arr1 : Pipeline.arrRef spec1 1 = main_v44 := rfl
theorem arr2 : Pipeline.arrRef spec1 2 = main_v47_0 := rfl
theorem arr3 : Pipeline.arrRef spec1 3 = main_v47_1 := rfl

theorem index1_0 : ∀ t : Fin cfg1.N, win1_0.index t 0 = t.val ∧ win1_0.index t 1 = 0 :=
  (by decide +kernel : ∀ t : Fin grid1.N, win1_0.index t 0 = t.val ∧ win1_0.index t 1 = 0)

theorem index1_1 : ∀ t : Fin cfg1.N, win1_1.index t 0 = 0 ∧ win1_1.index t 1 = 0 :=
  (by decide +kernel : ∀ t : Fin grid1.N, win1_1.index t 0 = 0 ∧ win1_1.index t 1 = 0)

/-- Row `r` of block `t` of the [100000,64] array is its row `10000 * t + r`. -/
theorem iblk0_apply (c : Dev nD) (t : Fin cfg1.N) (r : Fin 10000) (d : Fin 64) (h : 10000 * t.val + r.val < 100000) :
    (iblk1 V c 0 t : Vec F S10000x64 .f32) (ix2 r d) = V c main_v43 (ix2 ⟨10000 * t.val + r.val, h⟩ d) := by
  have hi := index1_0 t
  unfold iblk1
  rw [View.read_apply]
  show V c main_v43 _ = V c main_v43 _
  congr 1
  funext a
  apply Fin.ext
  match a with
  | ⟨0, _⟩ => show win1_0.index t 0 * 10000 + 1 * r.val = 10000 * t.val + r.val; rw [hi.1]; omega
  | ⟨1, _⟩ => show win1_0.index t 1 * 64 + 1 * d.val = d.val; rw [hi.2]; omega

/-- The one block of the [1,64] bias row is the row. -/
theorem iblk1_apply (c : Dev nD) (t : Fin cfg1.N) (d : Fin 64) :
    (iblk1 V c 1 t : Vec F S1x64 .f32) (ix2 0 d) = V c main_v44 (ix2 0 d) := by
  have hi := index1_1 t
  unfold iblk1
  rw [View.read_apply]
  show V c main_v44 _ = V c main_v44 _
  congr 1
  funext a
  apply Fin.ext
  match a with
  | ⟨0, _⟩ => show win1_1.index t 0 * 1 + 1 * 0 = 0; rw [hi.1]
  | ⟨1, _⟩ => show win1_1.index t 1 * 64 + 1 * d.val = d.val; rw [hi.2]; omega

end Blocks

/-! ## The accumulators after each block, and what is written back -/

section Run
variable {F : FTy → Type} [FloatOps F]
variable (V : (c : Dev nD) → (b : Ref sig .tc) → Buf (Elt F) ((c : Thread nD τ).loc b))

/-- After the first block: zero plus the block's sums. -/
theorem outs_A (c : Dev nD) (t : Fin cfg1.N) (h0 : t.val % 10 = 0) :
    outsAt1 V c t.val t.isLt
      = (k1_pay4 (iblk1 V c 0 t) (iblk1 V c 1 t) k1_pay1, k1_pay5 (iblk1 V c 0 t) (iblk1 V c 1 t) k1_pay2) := by
  rw [outsAt1_A V c t h0]
  (try dsimp only)
  exact congrArg₂ Prod.mk
    (out_A_2 c (grid1.coords t) (ms1_0 t) (hs1_0 t) (ms1_1 t) (hs1_1 t) (ms1_2 t) (hs1_2 t) (ms1_3 t) (hs1_3 t) ((hcond1_0 t).mpr h0) (iblk1 V c 0 t) (iblk1 V c 1 t))
    (out_A_3 c (grid1.coords t) (ms1_0 t) (hs1_0 t) (ms1_1 t) (hs1_1 t) (ms1_2 t) (hs1_2 t) (ms1_3 t) (hs1_3 t) ((hcond1_0 t).mpr h0) (iblk1 V c 0 t) (iblk1 V c 1 t))

/-- After a later block: what the block before left plus the block's sums. -/
theorem outs_B (c : Dev nD) (t : Fin cfg1.N) (h0 : ¬t.val % 10 = 0) :
    outsAt1 V c t.val t.isLt
      = (k1_pay4 (iblk1 V c 0 t) (iblk1 V c 1 t) (outsAt1 V c (t.val - 1) (Nat.lt_of_le_of_lt (Nat.sub_le _ _) t.isLt)).1,
         k1_pay5 (iblk1 V c 0 t) (iblk1 V c 1 t) (outsAt1 V c (t.val - 1) (Nat.lt_of_le_of_lt (Nat.sub_le _ _) t.isLt)).2) := by
  rw [outsAt1_B V c t h0]
  (try dsimp only)
  exact congrArg₂ Prod.mk
    (out_B_2 c (grid1.coords t) (ms1_0 t) (hs1_0 t) (ms1_1 t) (hs1_1 t) (ms1_2 t) (hs1_2 t) (ms1_3 t) (hs1_3 t) (fun h => h0 ((hcond1_0 t).mp h)) (iblk1 V c 0 t) (iblk1 V c 1 t)
      (outsAt1 V c (t.val - 1) (Nat.lt_of_le_of_lt (Nat.sub_le _ _) t.isLt)).1
      (outsAt1 V c (t.val - 1) (Nat.lt_of_le_of_lt (Nat.sub_le _ _) t.isLt)).2)
    (out_B_3 c (grid1.coords t) (ms1_0 t) (hs1_0 t) (ms1_1 t) (hs1_1 t) (ms1_2 t) (hs1_2 t) (ms1_3 t) (hs1_3 t) (fun h => h0 ((hcond1_0 t).mp h)) (iblk1 V c 0 t) (iblk1 V c 1 t)
      (outsAt1 V c (t.val - 1) (Nat.lt_of_le_of_lt (Nat.sub_le _ _) t.isLt)).1
      (outsAt1 V c (t.val - 1) (Nat.lt_of_le_of_lt (Nat.sub_le _ _) t.isLt)).2)

theorem last_lt : 9 < cfg1.N := by rw [show cfg1.N = 10 from N_1]; decide

/-- The sums after the last block, as contents of their [1,64] array (its one block is the array). -/
abbrev result2 (c : Dev nD) : Buf (Elt F) ((c : Thread nD τ).loc main_v47_0) := (outsAt1 V c 9 last_lt).1
/-- The sums of squares after the last block, likewise. -/
abbrev result3 (c : Dev nD) : Buf (Elt F) ((c : Thread nD τ).loc main_v47_1) := (outsAt1 V c 9 last_lt).2

/-- Only the last point writes the sums back, and it writes the accumulator: block (0, 0) of the [1,64] array read
    through zero offsets is the array. -/
theorem flushed_eq_2 (c : Dev nD) (t : Fin cfg1.N) (hf : (cfg1.win 2).flush t = true) :
    (dat1 V c).flushed 2 t = ((cfg1.win 2).blk t).view.read (Elt F) (result2 V c) := by
  have hN : cfg1.N = 10 := N_1
  have h9 : t.val = 9 := by have := (flush1_2 t).mp hf; have := t.isLt; omega
  obtain rfl : t = t1_9 := Fin.ext h9
  show (cfg1.win 2).cut (grid1.coords t1_9) ((dat1 V c).after 2 t1_9) = _
  rw [after1_2]
  have hz' : (fun a => win1_2.index t1_9 a * main_v47_0.ty.shape.size a) = fun _ => 0 := funext fun a => by fin_cases a <;> decide
  exact (Memref.read_access_unit_zero (Elt F) main_v47_0 hz' (fun a => by rw [congrFun hz' a]; simp) (result2 V c)).symm

theorem flushed_eq_3 (c : Dev nD) (t : Fin cfg1.N) (hf : (cfg1.win 3).flush t = true) :
    (dat1 V c).flushed 3 t = ((cfg1.win 3).blk t).view.read (Elt F) (result3 V c) := by
  have hN : cfg1.N = 10 := N_1
  have h9 : t.val = 9 := by have := (flush1_3 t).mp hf; have := t.isLt; omega
  obtain rfl : t = t1_9 := Fin.ext h9
  show (cfg1.win 3).cut (grid1.coords t1_9) ((dat1 V c).after 3 t1_9) = _
  rw [after1_3]
  have hz' : (fun a => win1_3.index t1_9 a * main_v47_1.ty.shape.size a) = fun _ => 0 := funext fun a => by fin_cases a <;> decide
  exact (Memref.read_access_unit_zero (Elt F) main_v47_1 hz' (fun a => by rw [congrFun hz' a]; simp) (result3 V c)).symm

/-- So the sums' array ends holding the accumulator after the last block: the last point's block covers every index. -/
theorem final_2 (c : Dev nD) : (dat1 V c).arrAt 2 cfg1.N = result2 V c :=
  (dat1 V c).arrAt_eq_of_cover 2 (result2 V c) (flushed_eq_2 V c) fun i =>
    ⟨t1_9, (flush1_2 t1_9).mpr rfl, by
      show i ∈ ((View.whole main_v47_0).slice (win1_2.rect t1_9)).set
      rw [View.set_slice_whole, Rect.mem_set_unit]
      intro a
      have h0 : (i 0 : Nat) < 1 := (i 0).isLt
      have h1 : (i 1 : Nat) < 64 := (i 1).isLt
      match a with
      | ⟨0, _⟩ => show win1_2.index t1_9 0 * win1_2.size 0 ≤ (i 0 : Nat) ∧ (i 0 : Nat) < win1_2.index t1_9 0 * win1_2.size 0 + win1_2.xsize (grid1.coords t1_9) 0
                  rw [show win1_2.index t1_9 0 * win1_2.size 0 = 0 from by decide +kernel, show win1_2.xsize (grid1.coords t1_9) 0 = 1 from by decide +kernel]; omega
      | ⟨1, _⟩ => show win1_2.index t1_9 1 * win1_2.size 1 ≤ (i 1 : Nat) ∧ (i 1 : Nat) < win1_2.index t1_9 1 * win1_2.size 1 + win1_2.xsize (grid1.coords t1_9) 1
                  rw [show win1_2.index t1_9 1 * win1_2.size 1 = 0 from by decide +kernel, show win1_2.xsize (grid1.coords t1_9) 1 = 64 from by decide +kernel]; omega⟩

theorem final_3 (c : Dev nD) : (dat1 V c).arrAt 3 cfg1.N = result3 V c :=
  (dat1 V c).arrAt_eq_of_cover 3 (result3 V c) (flushed_eq_3 V c) fun i =>
    ⟨t1_9, (flush1_3 t1_9).mpr rfl, by
      show i ∈ ((View.whole main_v47_1).slice (win1_3.rect t1_9)).set
      rw [View.set_slice_whole, Rect.mem_set_unit]
      intro a
      have h0 : (i 0 : Nat) < 1 := (i 0).isLt
      have h1 : (i 1 : Nat) < 64 := (i 1).isLt
      match a with
      | ⟨0, _⟩ => show win1_3.index t1_9 0 * win1_3.size 0 ≤ (i 0 : Nat) ∧ (i 0 : Nat) < win1_3.index t1_9 0 * win1_3.size 0 + win1_3.xsize (grid1.coords t1_9) 0
                  rw [show win1_3.index t1_9 0 * win1_3.size 0 = 0 from by decide +kernel, show win1_3.xsize (grid1.coords t1_9) 0 = 1 from by decide +kernel]; omega
      | ⟨1, _⟩ => show win1_3.index t1_9 1 * win1_3.size 1 ≤ (i 1 : Nat) ∧ (i 1 : Nat) < win1_3.index t1_9 1 * win1_3.size 1 + win1_3.xsize (grid1.coords t1_9) 1
                  rw [show win1_3.index t1_9 1 * win1_3.size 1 = 0 from by decide +kernel, show win1_3.xsize (grid1.coords t1_9) 1 = 64 from by decide +kernel]; omega⟩

end Run

/-! ## The two arrays when the region is left, as sums over all rows -/

section Value
variable (V : (c : Dev nD) → (b : Ref sig .tc) → Buf (Elt Ideal) ((c : Thread nD τ).loc b))

/-- An entry of `v = agg + b` in block `t`, row `r`, is the entry of row `10000 * t + r`. -/
theorem blk_add (c : Dev nD) (A : S100000x64.Idx → EReal) (B : S1x64.Idx → EReal)
    (hA : V c main_v43 = A) (hB : V c main_v44 = B) (t : Fin cfg1.N) (r : Fin 10000) (d : Fin 64)
    (x0 : Vec Ideal S10000x64 .f32) (x1 : Vec Ideal S1x64 .f32) (h0 : x0 = iblk1 V c 0 t) (h1 : x1 = iblk1 V c 1 t) :
    x0 (ix2 r d) + x1 (ix2 0 d)
      = rowAt (fun i : Fin 100000 => A (ix2 i d) + B (ix2 0 d)) (10000 * t.val + r.val) := by
  subst h0 h1
  have hN : t.val < 10 := lt_of_lt_of_eq t.isLt (show cfg1.N = 10 from N_1)
  have h : 10000 * t.val + r.val < 100000 := by omega
  rw [rowAt_of_lt _ _ h, iblk0_apply V c t r d h, iblk1_apply V c t d, hA, hB]

/-- One block's step of the sums at column `d`. -/
theorem sum_step (c : Dev nD) (A : S100000x64.Idx → EReal) (B : S1x64.Idx → EReal)
    (hA : V c main_v43 = A) (hB : V c main_v44 = B) (d : Fin 64) (t : Fin cfg1.N) (xo : Vec Ideal S1x64 .f32) :
    k1_pay4 (iblk1 V c 0 t) (iblk1 V c 1 t) xo (ix2 0 d)
      = xo (ix2 0 d) + ∑ r : Fin 10000, rowAt (fun i : Fin 100000 => A (ix2 i d) + B (ix2 0 d)) (10000 * t.val + r.val) :=
  (pay4_apply (iblk1 V c 0 t) (iblk1 V c 1 t) xo d).trans
    (congrArg (xo (ix2 0 d) + ·) (Finset.sum_congr rfl fun r _ => blk_add V c A B hA hB t r d (iblk1 V c 0 t) (iblk1 V c 1 t) rfl rfl))

/-- One block's step of the sums of squares at column `d`. -/
theorem sumsq_step (c : Dev nD) (A : S100000x64.Idx → EReal) (B : S1x64.Idx → EReal)
    (hA : V c main_v43 = A) (hB : V c main_v44 = B) (d : Fin 64) (t : Fin cfg1.N) (xo : Vec Ideal S1x64 .f32) :
    k1_pay5 (iblk1 V c 0 t) (iblk1 V c 1 t) xo (ix2 0 d)
      = xo (ix2 0 d) + ∑ r : Fin 10000,
          rowAt (fun i : Fin 100000 => (A (ix2 i d) + B (ix2 0 d)) * (A (ix2 i d) + B (ix2 0 d))) (10000 * t.val + r.val) := by
  have hN : t.val < 10 := lt_of_lt_of_eq t.isLt (show cfg1.N = 10 from N_1)
  refine (pay5_apply (iblk1 V c 0 t) (iblk1 V c 1 t) xo d).trans
    (congrArg (xo (ix2 0 d) + ·) (Finset.sum_congr rfl fun r _ => ?_))
  have h : 10000 * t.val + r.val < 100000 := by omega
  have e := blk_add V c A B hA hB t r d (iblk1 V c 0 t) (iblk1 V c 1 t) rfl rfl
  rw [rowAt_of_lt _ _ h] at e
  rw [rowAt_of_lt _ _ h, e]

/-- The sums after block `n`: the block sums `s_0 + … + s_n`. -/
theorem run_sum (c : Dev nD) (A : S100000x64.Idx → EReal) (B : S1x64.Idx → EReal)
    (hA : V c main_v43 = A) (hB : V c main_v44 = B) (d : Fin 64) : ∀ (n : ℕ) (h : n < cfg1.N),
    (outsAt1 V c n h).1 (ix2 0 d)
      = ∑ s ∈ Finset.range (n + 1), ∑ r : Fin 10000, rowAt (fun i : Fin 100000 => A (ix2 i d) + B (ix2 0 d)) (10000 * s + r.val) :=
  chain_eq_sum (fun n h => (outsAt1 V c n h).1 (ix2 0 d))
    (fun s => ∑ r : Fin 10000, rowAt (fun i : Fin 100000 => A (ix2 i d) + B (ix2 0 d)) (10000 * s + r.val))
    (fun h => by
      show (outsAt1 V c (⟨0, h⟩ : Fin cfg1.N).val (⟨0, h⟩ : Fin cfg1.N).isLt).1 (ix2 0 d) = _
      rw [outs_A V c ⟨0, h⟩ rfl]
      show k1_pay4 (iblk1 V c 0 ⟨0, h⟩) (iblk1 V c 1 ⟨0, h⟩) (k1_pay1 (F := Ideal)) (ix2 0 d) = _
      rw [sum_step V c A B hA hB d ⟨0, h⟩ (k1_pay1 (F := Ideal)), pay1_apply])
    (fun n h => by
      have hN : cfg1.N = 10 := N_1
      have hB' : ¬(⟨n + 1, h⟩ : Fin cfg1.N).val % 10 = 0 := by dsimp only; omega
      show (outsAt1 V c (⟨n + 1, h⟩ : Fin cfg1.N).val (⟨n + 1, h⟩ : Fin cfg1.N).isLt).1 (ix2 0 d) = _
      rw [outs_B V c ⟨n + 1, h⟩ hB']
      exact sum_step V c A B hA hB d ⟨n + 1, h⟩ (outsAt1 V c n (Nat.lt_of_succ_lt h)).1)

/-- The sums of squares after block `n`, likewise. -/
theorem run_sumsq (c : Dev nD) (A : S100000x64.Idx → EReal) (B : S1x64.Idx → EReal)
    (hA : V c main_v43 = A) (hB : V c main_v44 = B) (d : Fin 64) : ∀ (n : ℕ) (h : n < cfg1.N),
    (outsAt1 V c n h).2 (ix2 0 d)
      = ∑ s ∈ Finset.range (n + 1), ∑ r : Fin 10000,
          rowAt (fun i : Fin 100000 => (A (ix2 i d) + B (ix2 0 d)) * (A (ix2 i d) + B (ix2 0 d))) (10000 * s + r.val) :=
  chain_eq_sum (fun n h => (outsAt1 V c n h).2 (ix2 0 d))
    (fun s => ∑ r : Fin 10000,
      rowAt (fun i : Fin 100000 => (A (ix2 i d) + B (ix2 0 d)) * (A (ix2 i d) + B (ix2 0 d))) (10000 * s + r.val))
    (fun h => by
      show (outsAt1 V c (⟨0, h⟩ : Fin cfg1.N).val (⟨0, h⟩ : Fin cfg1.N).isLt).2 (ix2 0 d) = _
      rw [outs_A V c ⟨0, h⟩ rfl]
      show k1_pay5 (iblk1 V c 0 ⟨0, h⟩) (iblk1 V c 1 ⟨0, h⟩) (k1_pay2 (F := Ideal)) (ix2 0 d) = _
      rw [sumsq_step V c A B hA hB d ⟨0, h⟩ (k1_pay2 (F := Ideal)), pay2_apply])
    (fun n h => by
      have hN : cfg1.N = 10 := N_1
      have hB' : ¬(⟨n + 1, h⟩ : Fin cfg1.N).val % 10 = 0 := by dsimp only; omega
      show (outsAt1 V c (⟨n + 1, h⟩ : Fin cfg1.N).val (⟨n + 1, h⟩ : Fin cfg1.N).isLt).2 (ix2 0 d) = _
      rw [outs_B V c ⟨n + 1, h⟩ hB']
      exact sumsq_step V c A B hA hB d ⟨n + 1, h⟩ (outsAt1 V c n (Nat.lt_of_succ_lt h)).2)

/-- the column sums of agg + b over all 100000 rows -/
theorem sum_final (c : Dev nD) (A : S100000x64.Idx → EReal) (B : S1x64.Idx → EReal)
    (hA : V c main_v43 = A) (hB : V c main_v44 = B) (d : Fin 64) :
    ((dat1 (F := Ideal) V c).arrAt 2 cfg1.N : S1x64.Idx → EReal) (ix2 0 d) = ∑ r : Fin 100000, (A (ix2 r d) + B (ix2 0 d)) :=
  (congrFun (final_2 V c) (ix2 0 d)).trans
    ((run_sum V c A B hA hB d 9 last_lt).trans
      (sum_range_blocks (fun i : Fin 100000 => A (ix2 i d) + B (ix2 0 d))))

/-- the column sums of (agg + b)^2 -/
theorem sumsq_final (c : Dev nD) (A : S100000x64.Idx → EReal) (B : S1x64.Idx → EReal)
    (hA : V c main_v43 = A) (hB : V c main_v44 = B) (d : Fin 64) :
    ((dat1 (F := Ideal) V c).arrAt 3 cfg1.N : S1x64.Idx → EReal) (ix2 0 d) = ∑ r : Fin 100000, (A (ix2 r d) + B (ix2 0 d)) * (A (ix2 r d) + B (ix2 0 d)) :=
  (congrFun (final_3 V c) (ix2 0 d)).trans
    ((run_sumsq V c A B hA hB d 9 last_lt).trans
      (sum_range_blocks (fun i : Fin 100000 => (A (ix2 i d) + B (ix2 0 d)) * (A (ix2 i d) + B (ix2 0 d)))))

end Value

end Cert.KernelIdeal.StatsRegion

end
-- ==== Proof.MatmulRegion.lean ====
import proofs.«165885_j29437705847123_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.DenseRegions

open Cert.KernelIdeal Cert.KernelIdeal.Gen

/-! # Region 0: the matrix product

The first pipelined region multiplies the [100000,64] array `x` by the [64,64] array `W`, ten blocks of 10000 rows,
one block per grid point. Read in the extended reals the two narrowings to bf16 are the identity and the product
accumulates into zero, so the block a point writes back is the block of ONE function of the two arrays: entry (r, j) is
`∑ k, x (r, k) * W (k, j)`. The ten blocks tile the rows, so when the region is left the output array is that function. -/

variable (V : (c : Dev nD) → (b : Ref sig .tc) → Buf (Elt Ideal) ((c : Thread nD τ).loc b))

/-- Zero offsets on both axes, as the generated rectangles spell them. -/
theorem zeroOffsets2 : (![0, 0] : Fin 2 → Nat) = fun _ => 0 := funext fun a => by fin_cases a <;> rfl

/-- The row of an entry of the [100000,64] array. -/
def mmRow (i : S100000x64.Idx) : Fin 100000 := ⟨(i 0).val, (i 0).isLt⟩
/-- The column of an entry of the [100000,64] array. -/
def mmCol (i : S100000x64.Idx) : Fin 64 := ⟨(i 1).val, (i 1).isLt⟩

/-- The matrix product `x · W`, entry by entry. -/
def matmulOf (X : S100000x64.Idx → EReal) (Wt : S64x64.Idx → EReal) : S100000x64.Idx → EReal :=
  fun i => ∑ k : Fin 64, X (ix2 (mmRow i) k) * Wt (ix2 k (mmCol i))

theorem matmulOf_apply (X : S100000x64.Idx → EReal) (Wt : S64x64.Idx → EReal) (r : Fin 100000) (j : Fin 64) :
    matmulOf X Wt (ix2 r j) = ∑ k : Fin 64, X (ix2 r k) * Wt (ix2 k j) := rfl

/-! ## The block product at an entry -/

/-- The left operand's row is the output's row … -/
theorem lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … and its column the contracted coordinate; -/
theorem lhs_contr (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- the right operand's row is the contracted coordinate … -/
theorem rhs_contr (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- … and its column the output's column. -/
theorem rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- What the body stores, at entry `y` of the block: the sum over `k` of the row block's (y₀, k) times `W`'s (k, y₁). -/
theorem block_product_apply (x0 : Vec Ideal S10000x64 .f32) (x1 : Vec Ideal S64x64 .f32) (y : S10000x64.Idx) :
    (k0_pay1 x0 x1 : S10000x64.Idx → EReal) y
      = ∑ k : Fin 64, x0 (ix2 (⟨(y 0).val, (y 0).isLt⟩ : Fin 10000) k) * x1 (ix2 k (⟨(y 1).val, (y 1).isLt⟩ : Fin 64)) := by
  unfold k0_pay1
  show FloatOps.matmul dot_S10000x64_S64x64_S10000x64_1_0_0_1_n_n none (truncf .bf16 x0 bitsLt_bf16_f32) (truncf .bf16 x1 bitsLt_bf16_f32) (constant (F := Ideal) S10000x64 .f32 0x00000000#32) y = _
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx y ((contrEquiv1 dot_S10000x64_S64x64_S10000x64_1_0_0_1_n_n 64 rfl rfl).symm k) = ix2 (⟨(y 0).val, (y 0).isLt⟩ : Fin 10000) k := funext fun a => Fin.ext (by
    match a with
    | ⟨0, _⟩ => exact lhs_row _ _
    | ⟨1, _⟩ => exact (lhs_contr _ _).trans hk)
  have er : dot_S10000x64_S64x64_S10000x64_1_0_0_1_n_n.rhsIdx y ((contrEquiv1 dot_S10000x64_S64x64_S10000x64_1_0_0_1_n_n 64 rfl rfl).symm k) = ix2 k (⟨(y 1).val, (y 1).isLt⟩ : Fin 64) := funext fun a => Fin.ext (by
    match a with
    | ⟨0, _⟩ => exact (rhs_contr _ _).trans hk
    | ⟨1, _⟩ => exact rhs_col _ _)
  rw [el, er]
  rfl

/-! ## From the ten blocks to the array -/

/-- Where each window's block sits at grid point `t` (decided over the ten points): the two row-blocked windows at
    block row `t`, `W` whole at every point. -/
theorem block_rows : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays as the region finds them. -/
theorem product_flushed (c : Dev nD) (X : S100000x64.Idx → EReal) (Wt : S64x64.Idx → EReal)
    (hX : V c main_arg0 = X) (hW : V c main_arg2 = Wt) (t : Fin cfg0.N) :
    (dat0 (F := Ideal) V c).flushed 2 t = ((cfg0.win 2).blk t).view.read (Elt Ideal) (matmulOf X Wt) := by
  show (cfg0.win 2).cut (grid0.coords t) ((dat0 V c).after 2 t) = _
  rw [after0_2]
  unfold out0_2
  rw [View.canon_unit_zero zeroOffsets2]
  simp only [View.ld_unit_zero (S := S10000x64) zeroOffsets2, View.ld_unit_zero (S := S64x64) zeroOffsets2]
  obtain ⟨e0, e1, e2, e3, e4, e5⟩ := block_rows t
  refine funext fun (y : S10000x64.Idx) => ?_
  show (k0_pay1 (iblk0 V c 0 t) (iblk0 V c 1 t) : S10000x64.Idx → EReal) y
    = matmulOf X Wt (((cfg0.win 2).blk t).view.emb y)
  rw [block_product_apply (iblk0 V c 0 t) (iblk0 V c 1 t) y]
  unfold matmulOf
  refine Finset.sum_congr rfl fun k _ => ?_
  have h0 : ((cfg0.win 0).blk t).view.emb (ix2 (⟨(y 0).val, (y 0).isLt⟩ : Fin 10000) k)
      = ix2 (mmRow (((cfg0.win 2).blk t).view.emb y)) k := by
    funext a; apply Fin.ext
    match a with
    | ⟨0, _⟩ => show win0_0.index t (0 : Fin 2) * 10000 + 1 * (y 0).val = win0_2.index t (0 : Fin 2) * 10000 + 1 * (y 0).val; omega
    | ⟨1, _⟩ => show win0_0.index t (1 : Fin 2) * 64 + 1 * k.val = k.val; omega
  have h1 : ((cfg0.win 1).blk t).view.emb (ix2 k (⟨(y 1).val, (y 1).isLt⟩ : Fin 64))
      = ix2 k (mmCol (((cfg0.win 2).blk t).view.emb y)) := by
    funext a; apply Fin.ext
    match a with
    | ⟨0, _⟩ => show win0_1.index t (0 : Fin 2) * 64 + 1 * k.val = k.val; omega
    | ⟨1, _⟩ => show win0_1.index t (1 : Fin 2) * 64 + 1 * (y 1).val = win0_2.index t (1 : Fin 2) * 64 + 1 * (y 1).val; omega
  have a0 : (iblk0 V c 0 t : Vec Ideal S10000x64 .f32) (ix2 (⟨(y 0).val, (y 0).isLt⟩ : Fin 10000) k)
      = X (ix2 (mmRow (((cfg0.win 2).blk t).view.emb y)) k) :=
    (congrArg (V c main_arg0) h0).trans (congrFun hX _)
  have a1 : (iblk0 V c 1 t : Vec Ideal S64x64 .f32) (ix2 k (⟨(y 1).val, (y 1).isLt⟩ : Fin 64))
      = Wt (ix2 k (mmCol (((cfg0.win 2).blk t).view.emb y))) :=
    (congrArg (V c main_arg2) h1).trans (congrFun hW _)
  exact congrArg₂ (fun a b : EReal => a * b) a0 a1

/-- An entry of the array is in point `t`'s block iff each coordinate is in the block's range on its axis. -/
theorem mem_product_block (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- Row `r` lies in the block of point `r / 10000`: the ten blocks cover the array. -/
theorem product_cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 10000 :=
    ⟨⟨(i 0).val / 10000, by rw [show cfg0.N = 10 from N_0]; omega⟩, rfl⟩
  obtain ⟨-, -, -, -, e4, e5⟩ := block_rows t
  refine ⟨t, flush0_2 t, ?_⟩
  rw [mem_product_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- When the region is left its output array is the product of the two arrays it found. -/
theorem matmul_array (c : Dev nD) (X : S100000x64.Idx → EReal) (Wt : S64x64.Idx → EReal)
    (hX : V c main_arg0 = X) (hW : V c main_arg2 = Wt) :
    (dat0 (F := Ideal) V c).arrAt 2 cfg0.N = matmulOf X Wt :=
  (dat0 V c).arrAt_eq_of_cover 2 (matmulOf X Wt) (fun t _ => product_flushed V c X Wt hX hW t) product_cover

/-- region 0: the matrix product x · W, row by row (the bf16 truncations are the identity at Ideal, the matmul accumulates into zero) -/
theorem matmul_final (c : Dev nD) (X : S100000x64.Idx → EReal) (Wt : S64x64.Idx → EReal)
    (hX : V c main_arg0 = X) (hW : V c main_arg2 = Wt) (r : Fin 100000) (j : Fin 64) :
    ((dat0 (F := Ideal) V c).arrAt 2 cfg0.N : S100000x64.Idx → EReal) (ix2 r j) = ∑ k : Fin 64, X (ix2 r k) * Wt (ix2 k j) := by
  rw [matmul_array V c X Wt hX hW]
  rfl

end Cert.KernelIdeal.DenseRegions
-- ==== Proof.NormRegion.lean ====
import proofs.«165885_j29437705847123_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.DenseRegions

open Cert.KernelIdeal Cert.KernelIdeal.Gen

/-! # Region 2: normalize, scale, shift, clamp at zero

The last pipelined region reads the aggregated [100000,64] array `a` in ten blocks of 10000 rows and five [1,64] rows
— the bias `b`, the column means `μ`, the inverse standard deviations `s`, the scale `γ` and the shift `β` —, each row
whole at every grid point and spread over the block's 10000 rows. The block a point writes back is the block of ONE
function of the six arrays: entry (r, j) is `max ((((a (r, j) + b j) - μ j) * s j) * γ j + β j) 0`. The ten blocks tile
the rows, so when the region is left the output array is that function. -/

variable (V : (c : Dev nD) → (b : Ref sig .tc) → Buf (Elt Ideal) ((c : Thread nD τ).loc b))

/-- Zero offsets on both axes, as the generated rectangles spell them. -/
theorem normZeroOffsets : (![0, 0] : Fin 2 → Nat) = fun _ => 0 := funext fun a => by fin_cases a <;> rfl

/-- The column of an entry of the [100000,64] array. -/
def nrCol (i : S100000x64.Idx) : Fin 64 := ⟨(i 1).val, (i 1).isLt⟩

/-- The normalized, scaled, shifted and clamped array, entry by entry. -/
def normOf (A : S100000x64.Idx → EReal) (B Mu Iv Ga Be : S1x64.Idx → EReal) : S100000x64.Idx → EReal :=
  fun i => max ((((A i + B (ix2 (0 : Fin 1) (nrCol i))) - Mu (ix2 (0 : Fin 1) (nrCol i))) * Iv (ix2 (0 : Fin 1) (nrCol i)))
    * Ga (ix2 (0 : Fin 1) (nrCol i)) + Be (ix2 (0 : Fin 1) (nrCol i))) 0

theorem normOf_apply (A : S100000x64.Idx → EReal) (B Mu Iv Ga Be : S1x64.Idx → EReal) (r : Fin 100000) (j : Fin 64) :
    normOf A B Mu Iv Ga Be (ix2 r j)
      = max ((((A (ix2 r j) + B (ix2 0 j)) - Mu (ix2 0 j)) * Iv (ix2 0 j)) * Ga (ix2 0 j) + Be (ix2 0 j)) 0 := rfl

/-! ## The block's payload at an entry -/

/-- A [1,64] row, cast to its own shape and spread over 10000 rows, reads at (p, q) the row's entry q. -/
theorem row_over_block (v : Vec Ideal S1x64 .f32) (p : Fin 10000) (q : Fin 64) :
    (broadcastTo S10000x64 (shapeCast S1x64 v shapeCasts_S1x64_S1x64) broadcasts_S1x64_S10000x64 : Vec Ideal S10000x64 .f32) (ix2 p q)
      = v (ix2 (0 : Fin 1) q) := by
  rw [shapeCast_self]
  exact broadcastTo_1b_ab_apply v broadcasts_S1x64_S10000x64 p q

/-- What the body stores, at entry (p, q) of the block. -/
theorem block_norm_apply (x0 : Vec Ideal S10000x64 .f32) (x1 x2 x3 x4 x5 : Vec Ideal S1x64 .f32) (p : Fin 10000) (q : Fin 64) :
    (k2_pay1 x0 x1 x2 x3 x4 x5 : S10000x64.Idx → EReal) (ix2 p q)
      = max ((((x0 (ix2 p q) + x1 (ix2 (0 : Fin 1) q)) - x2 (ix2 (0 : Fin 1) q)) * x3 (ix2 (0 : Fin 1) q))
          * x4 (ix2 (0 : Fin 1) q) + x5 (ix2 (0 : Fin 1) q)) 0 := by
  unfold k2_pay1
  show max ((((shapeCast S10000x64 x0 shapeCasts_S10000x64_S10000x64 (ix2 p q)
      + broadcastTo S10000x64 (shapeCast S1x64 x1 shapeCasts_S1x64_S1x64) broadcasts_S1x64_S10000x64 (ix2 p q))
      - broadcastTo S10000x64 (shapeCast S1x64 x2 shapeCasts_S1x64_S1x64) broadcasts_S1x64_S10000x64 (ix2 p q))
      * broadcastTo S10000x64 (shapeCast S1x64 x3 shapeCasts_S1x64_S1x64) broadcasts_S1x64_S10000x64 (ix2 p q))
      * broadcastTo S10000x64 (shapeCast S1x64 x4 shapeCasts_S1x64_S1x64) broadcasts_S1x64_S10000x64 (ix2 p q)
      + broadcastTo S10000x64 (shapeCast S1x64 x5 shapeCasts_S1x64_S1x64) broadcasts_S1x64_S10000x64 (ix2 p q))
      (Ideal.ofBits .f32 0x00000000#32) = _
  rw [shapeCast_self, row_over_block x1, row_over_block x2, row_over_block x3, row_over_block x4, row_over_block x5,
    Ideal.ofBits_zero_f32]

/-! ## From the ten blocks to the array -/

/-- Where each window's block sits at grid point `t` (decided over the ten points): the two row-blocked windows at
    block row `t`, the five rows whole at every point. -/
theorem norm_block_rows : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- What point `t` writes back is block `t` of the normalized array of the six arrays as the region finds them. -/
theorem norm_flushed (c : Dev nD) (A : S100000x64.Idx → EReal) (B Mu Iv Ga Be : S1x64.Idx → EReal)
    (hA : V c main_v43 = A) (hB : V c main_v44 = B) (hMu : V c main_v49 = Mu) (hIv : V c main_v56 = Iv)
    (hGa : V c main_v45 = Ga) (hBe : V c main_v46 = Be) (t : Fin cfg2.N) :
    (dat2 (F := Ideal) V c).flushed 6 t = ((cfg2.win 6).blk t).view.read (Elt Ideal) (normOf A B Mu Iv Ga Be) := by
  show (cfg2.win 6).cut (grid2.coords t) ((dat2 V c).after 6 t) = _
  rw [after2_6]
  unfold out2_6
  rw [View.canon_unit_zero normZeroOffsets]
  simp only [View.ld_unit_zero (S := S10000x64) normZeroOffsets, View.ld_unit_zero (S := S1x64) normZeroOffsets]
  obtain ⟨e00, e01, e10, e11, e20, e21, e30, e31, e40, e41, e50, e51, e60, e61⟩ := norm_block_rows t
  refine funext fun (y : S10000x64.Idx) => ?_
  obtain ⟨p, q, rfl⟩ : ∃ (p : Fin 10000) (q : Fin 64), y = ix2 p q := ⟨y 0, y 1, eq_ix2 y⟩
  show (k2_pay1 (iblk2 V c 0 t) (iblk2 V c 1 t) (iblk2 V c 2 t) (iblk2 V c 3 t) (iblk2 V c 4 t) (iblk2 V c 5 t) : S10000x64.Idx → EReal) (ix2 p q)
    = normOf A B Mu Iv Ga Be (((cfg2.win 6).blk t).view.emb (ix2 p q))
  rw [block_norm_apply (iblk2 V c 0 t) (iblk2 V c 1 t) (iblk2 V c 2 t) (iblk2 V c 3 t) (iblk2 V c 4 t) (iblk2 V c 5 t) p q]
  unfold normOf
  have h0 : ((cfg2.win 0).blk t).view.emb (ix2 p q) = ((cfg2.win 6).blk t).view.emb (ix2 p q) := by
    funext a; apply Fin.ext
    match a with
    | ⟨0, _⟩ => show win2_0.index t (0 : Fin 2) * 10000 + 1 * p.val = win2_6.index t (0 : Fin 2) * 10000 + 1 * p.val; omega
    | ⟨1, _⟩ => show win2_0.index t (1 : Fin 2) * 64 + 1 * q.val = win2_6.index t (1 : Fin 2) * 64 + 1 * q.val; omega
  have h1 : ((cfg2.win 1).blk t).view.emb (ix2 (0 : Fin 1) q) = ix2 (0 : Fin 1) (nrCol (((cfg2.win 6).blk t).view.emb (ix2 p q))) := by
    funext a; apply Fin.ext
    match a with
    | ⟨0, _⟩ => show win2_1.index t (0 : Fin 2) * 1 + 1 * 0 = 0; omega
    | ⟨1, _⟩ => show win2_1.index t (1 : Fin 2) * 64 + 1 * q.val = win2_6.index t (1 : Fin 2) * 64 + 1 * q.val; omega
  have h2 : ((cfg2.win 2).blk t).view.emb (ix2 (0 : Fin 1) q) = ix2 (0 : Fin 1) (nrCol (((cfg2.win 6).blk t).view.emb (ix2 p q))) := by
    funext a; apply Fin.ext
    match a with
    | ⟨0, _⟩ => show win2_2.index t (0 : Fin 2) * 1 + 1 * 0 = 0; omega
    | ⟨1, _⟩ => show win2_2.index t (1 : Fin 2) * 64 + 1 * q.val = win2_6.index t (1 : Fin 2) * 64 + 1 * q.val; omega
  have h3 : ((cfg2.win 3).blk t).view.emb (ix2 (0 : Fin 1) q) = ix2 (0 : Fin 1) (nrCol (((cfg2.win 6).blk t).view.emb (ix2 p q))) := by
    funext a; apply Fin.ext
    match a with
    | ⟨0, _⟩ => show win2_3.index t (0 : Fin 2) * 1 + 1 * 0 = 0; omega
    | ⟨1, _⟩ => show win2_3.index t (1 : Fin 2) * 64 + 1 * q.val = win2_6.index t (1 : Fin 2) * 64 + 1 * q.val; omega
  have h4 : ((cfg2.win 4).blk t).view.emb (ix2 (0 : Fin 1) q) = ix2 (0 : Fin 1) (nrCol (((cfg2.win 6).blk t).view.emb (ix2 p q))) := by
    funext a; apply Fin.ext
    match a with
    | ⟨0, _⟩ => show win2_4.index t (0 : Fin 2) * 1 + 1 * 0 = 0; omega
    | ⟨1, _⟩ => show win2_4.index t (1 : Fin 2) * 64 + 1 * q.val = win2_6.index t (1 : Fin 2) * 64 + 1 * q.val; omega
  have h5 : ((cfg2.win 5).blk t).view.emb (ix2 (0 : Fin 1) q) = ix2 (0 : Fin 1) (nrCol (((cfg2.win 6).blk t).view.emb (ix2 p q))) := by
    funext a; apply Fin.ext
    match a with
    | ⟨0, _⟩ => show win2_5.index t (0 : Fin 2) * 1 + 1 * 0 = 0; omega
    | ⟨1, _⟩ => show win2_5.index t (1 : Fin 2) * 64 + 1 * q.val = win2_6.index t (1 : Fin 2) * 64 + 1 * q.val; omega
  have a0 : (iblk2 V c 0 t : Vec Ideal S10000x64 .f32) (ix2 p q) = A (((cfg2.win 6).blk t).view.emb (ix2 p q)) :=
    (congrArg (V c main_v43) h0).trans (congrFun hA _)
  have a1 : (iblk2 V c 1 t : Vec Ideal S1x64 .f32) (ix2 (0 : Fin 1) q) = B (ix2 (0 : Fin 1) (nrCol (((cfg2.win 6).blk t).view.emb (ix2 p q)))) :=
    (congrArg (V c main_v44) h1).trans (congrFun hB _)
  have a2 : (iblk2 V c 2 t : Vec Ideal S1x64 .f32) (ix2 (0 : Fin 1) q) = Mu (ix2 (0 : Fin 1) (nrCol (((cfg2.win 6).blk t).view.emb (ix2 p q)))) :=
    (congrArg (V c main_v49) h2).trans (congrFun hMu _)
  have a3 : (iblk2 V c 3 t : Vec Ideal S1x64 .f32) (ix2 (0 : Fin 1) q) = Iv (ix2 (0 : Fin 1) (nrCol (((cfg2.win 6).blk t).view.emb (ix2 p q)))) :=
    (congrArg (V c main_v56) h3).trans (congrFun hIv _)
  have a4 : (iblk2 V c 4 t : Vec Ideal S1x64 .f32) (ix2 (0 : Fin 1) q) = Ga (ix2 (0 : Fin 1) (nrCol (((cfg2.win 6).blk t).view.emb (ix2 p q)))) :=
    (congrArg (V c main_v45) h4).trans (congrFun hGa _)
  have a5 : (iblk2 V c 5 t : Vec Ideal S1x64 .f32) (ix2 (0 : Fin 1) q) = Be (ix2 (0 : Fin 1) (nrCol (((cfg2.win 6).blk t).view.emb (ix2 p q)))) :=
    (congrArg (V c main_v46) h5).trans (congrFun hBe _)
  exact congrArg (fun z : EReal => max z 0)
    (congrArg₂ (fun a b : EReal => a + b)
      (congrArg₂ (fun a b : EReal => a * b)
        (congrArg₂ (fun a b : EReal => a * b)
          (congrArg₂ (fun a b : EReal => a - b) (congrArg₂ (fun a b : EReal => a + b) a0 a1) a2) a3) a4) a5)

/-- An entry of the array is in point `t`'s block iff each coordinate is in the block's range on its axis. -/
theorem mem_norm_block (t : Fin cfg2.N) (i : S100000x64.Idx) :
    i ∈ ((cfg2.win 6).blk t).view.set ↔ ∀ a : Fin 2, win2_6.index t a * S10000x64.size a ≤ (i a).val ∧ (i a).val < win2_6.index t a * S10000x64.size a + S10000x64.size a := by
  show i ∈ ((View.whole main_v57).slice (win2_6.rect t)).set ↔ _
  rw [View.set_slice_whole, Rect.mem_set_unit]
  exact Iff.rfl

/-- Row `r` lies in the block of point `r / 10000`: the ten blocks cover the array. -/
theorem norm_cover (i : S100000x64.Idx) :
    ∃ t : Fin cfg2.N, (cfg2.win 6).flush t = true ∧ i ∈ ((cfg2.win 6).blk t).view.set := by
  have hi0 : (i 0).val < 100000 := (i 0).isLt
  have hi1 : (i 1).val < 64 := (i 1).isLt
  obtain ⟨t, ht⟩ : ∃ t : Fin cfg2.N, t.val = (i 0).val / 10000 :=
    ⟨⟨(i 0).val / 10000, by rw [show cfg2.N = 10 from N_2]; omega⟩, rfl⟩
  obtain ⟨-, -, -, -, -, -, -, -, -, -, -, -, e60, e61⟩ := norm_block_rows t
  refine ⟨t, flush2_6 t, ?_⟩
  rw [mem_norm_block]
  intro a
  match a with
  | ⟨0, _⟩ => show win2_6.index t (0 : Fin 2) * 10000 ≤ (i 0).val ∧ (i 0).val < win2_6.index t (0 : Fin 2) * 10000 + 10000; omega
  | ⟨1, _⟩ => show win2_6.index t (1 : Fin 2) * 64 ≤ (i 1).val ∧ (i 1).val < win2_6.index t (1 : Fin 2) * 64 + 64; omega

/-- When the region is left its output array is the normalized array of the six arrays it found. -/
theorem norm_array (c : Dev nD) (A : S100000x64.Idx → EReal) (B Mu Iv Ga Be : S1x64.Idx → EReal)
    (hA : V c main_v43 = A) (hB : V c main_v44 = B) (hMu : V c main_v49 = Mu) (hIv : V c main_v56 = Iv)
    (hGa : V c main_v45 = Ga) (hBe : V c main_v46 = Be) :
    (dat2 (F := Ideal) V c).arrAt 6 cfg2.N = normOf A B Mu Iv Ga Be :=
  (dat2 V c).arrAt_eq_of_cover 6 (normOf A B Mu Iv Ga Be)
    (fun t _ => norm_flushed V c A B Mu Iv Ga Be hA hB hMu hIv hGa hBe t) norm_cover

/-- region 2: normalize, scale, shift, clamp at zero -/
theorem norm_final (c : Dev nD) (A : S100000x64.Idx → EReal) (B Mu Iv Ga Be : S1x64.Idx → EReal)
    (hA : V c main_v43 = A) (hB : V c main_v44 = B) (hMu : V c main_v49 = Mu) (hIv : V c main_v56 = Iv)
    (hGa : V c main_v45 = Ga) (hBe : V c main_v46 = Be) (r : Fin 100000) (j : Fin 64) :
    ((dat2 (F := Ideal) V c).arrAt 6 cfg2.N : S100000x64.Idx → EReal) (ix2 r j)
      = max ((((A (ix2 r j) + B (ix2 0 j)) - Mu (ix2 0 j)) * Iv (ix2 0 j)) * Ga (ix2 0 j) + Be (ix2 0 j)) 0 := by
  rw [norm_array V c A B Mu Iv Ga Be hA hB hMu hIv hGa hBe]
  rfl

end Cert.KernelIdeal.DenseRegions
-- ==== Proof.LibFinite.lean ====
/-
  Finite extended reals.

  An extended real is FINITE (here `IsReal`) when it is the image of a real number, equivalently when it is
  neither `⊤` nor `⊥`. The arithmetic of the extended reals is the arithmetic of the reals on the finite
  ones: sums, differences, products, finite sums, maxima and minima of finite values are finite, and so are a
  quotient by a finite divisor that is not zero, the exponential, and a power `r ^ (-1/2)` of a real `r ≥ 1`
  (which is moreover positive). Distributivity of the product over the sum FAILS on the extended reals at the
  infinities, so an algebraic law between two arrangements of a sum of products is proved on the reals and
  carried over; a part of this file is the toolkit for that: the coercion commutes with finite
  sums, and a family of finite extended reals is the coercion of a family of reals. The last part reads three
  stages of a network layer on finite values: min-max normalisation, the leaky activation, a column maximum or
  minimum.
-/
import Idealize.ShloMosaic.PureOps.Ideal
import Idealize.ShloMosaic.PureOps.Ideal.Laws
import Idealize.ShloMosaic.Lib.ValueIdx

noncomputable section

open scoped BigOperators

namespace Cert.Finite

open Idealize.ShloMosaic

/-! ## Finite extended reals -/

/-- `x` is (the coercion of) a real number. -/
def IsReal (x : EReal) : Prop := ∃ r : ℝ, x = (r : EReal)

/-- The coercion of a real is finite. -/
theorem isReal_coe (r : ℝ) : IsReal (r : EReal) := ⟨r, rfl⟩

/-- Finite means: neither infinity. -/
theorem isReal_iff_ne {x : EReal} : IsReal x ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

/-- An extended real that is neither infinity is finite. -/
theorem isReal_of_ne {x : EReal} (ht : x ≠ ⊤) (hb : x ≠ ⊥) : IsReal x := isReal_iff_ne.mpr ⟨ht, hb⟩

/-- A finite value is not `⊤`. -/
theorem IsReal.ne_top {x : EReal} (h : IsReal x) : x ≠ ⊤ := (isReal_iff_ne.mp h).1

/-- A finite value is not `⊥`. -/
theorem IsReal.ne_bot {x : EReal} (h : IsReal x) : x ≠ ⊥ := (isReal_iff_ne.mp h).2

/-- A finite extended real is the coercion of its real part. -/
theorem IsReal.coe_toReal {x : EReal} (h : IsReal x) : ((x.toReal : ℝ) : EReal) = x :=
  EReal.coe_toReal h.ne_top h.ne_bot

/-- A finite value is above `⊥`. -/
theorem IsReal.bot_lt {x : EReal} (h : IsReal x) : ⊥ < x := bot_lt_iff_ne_bot.mpr h.ne_bot

/-- A finite value is below `⊤`. -/
theorem IsReal.lt_top {x : EReal} (h : IsReal x) : x < ⊤ := lt_top_iff_ne_top.mpr h.ne_top

/-- `⊤` is not finite. -/
theorem not_isReal_top : ¬ IsReal ⊤ := fun h => h.ne_top rfl

/-- `⊥` is not finite. -/
theorem not_isReal_bot : ¬ IsReal ⊥ := fun h => h.ne_bot rfl

/-! ## Closure under the arithmetic -/

/-- Zero is finite. -/
theorem isReal_zero : IsReal 0 := ⟨0, EReal.coe_zero.symm⟩

/-- One is finite. -/
theorem isReal_one : IsReal 1 := ⟨1, EReal.coe_one.symm⟩

/-- The sum of two finite values is finite. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- The opposite of a finite value is finite. -/
theorem IsReal.neg {a : EReal} (ha : IsReal a) : IsReal (-a) := by
  obtain ⟨r, rfl⟩ := ha
  exact ⟨-r, (EReal.coe_neg r).symm⟩

/-- The difference of two finite values is finite. -/
theorem IsReal.sub {a b : EReal} (ha : IsReal a) (hb : IsReal b) : IsReal (a - b) := by
  obtain ⟨r, rfl⟩ := ha
  obtain ⟨s, rfl⟩ := hb
  exact ⟨r - s, (EReal.coe_sub r s).symm⟩

/-- The product of two finite values is finite. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- A finite sum of finite terms is finite. -/
theorem isReal_sum {ι : Type*} (s : Finset ι) (f : ι → EReal) (h : ∀ i ∈ s, IsReal (f i)) :
    IsReal (∑ i ∈ s, f i) :=
  Finset.sum_induction f IsReal (fun _ _ ha hb => ha.add hb) isReal_zero h

/-- The same over a whole finite type. -/
theorem isReal_sum_univ {ι : Type*} [Fintype ι] (f : ι → EReal) (h : ∀ i, IsReal (f i)) : IsReal (∑ i, f i) :=
  isReal_sum Finset.univ f fun i _ => h i

/-- A zero accumulator plus a finite sum of finite terms is finite. -/
theorem isReal_zero_add_sum {ι : Type*} (s : Finset ι) (f : ι → EReal) (h : ∀ i ∈ s, IsReal (f i)) :
    IsReal (0 + ∑ i ∈ s, f i) :=
  isReal_zero.add (isReal_sum s f h)

/-- A finite accumulator plus a finite sum of finite terms is finite. -/
theorem isReal_add_sum {ι : Type*} (s : Finset ι) (f : ι → EReal) {a : EReal} (ha : IsReal a)
    (h : ∀ i ∈ s, IsReal (f i)) : IsReal (a + ∑ i ∈ s, f i) :=
  ha.add (isReal_sum s f h)

/-! ## Maxima and minima -/

/-- The larger of two finite values is finite. -/
theorem IsReal.max {a b : EReal} (ha : IsReal a) (hb : IsReal b) : IsReal (max a b) := by
  rcases max_choice a b with h | h <;> rw [h] <;> assumption

/-- The smaller of two finite values is finite. -/
theorem IsReal.min {a b : EReal} (ha : IsReal a) (hb : IsReal b) : IsReal (min a b) := by
  rcases min_choice a b with h | h <;> rw [h] <;> assumption

/-- If every member of a family is finite, any value the family takes is finite: however a maximum or a
    minimum over the family is presented, once it is known to be attained it is finite. -/
theorem isReal_of_eq_apply {ι : Sort*} {f : ι → EReal} (h : ∀ i, IsReal (f i)) {m : EReal} (hm : ∃ i, m = f i) :
    IsReal m := by
  obtain ⟨i, rfl⟩ := hm
  exact h i

/-- The same over a finite set of indices. -/
theorem isReal_of_eq_apply_mem {ι : Type*} {s : Finset ι} {f : ι → EReal} (h : ∀ i ∈ s, IsReal (f i)) {m : EReal}
    (hm : ∃ i ∈ s, m = f i) : IsReal m := by
  obtain ⟨i, hi, rfl⟩ := hm
  exact h i hi

/-- The maximum of finitely many finite values, over a nonempty set of indices, is finite. -/
theorem isReal_sup' {ι : Type*} (s : Finset ι) (hs : s.Nonempty) (f : ι → EReal) (h : ∀ i ∈ s, IsReal (f i)) :
    IsReal (s.sup' hs f) := by
  obtain ⟨i, hi, he⟩ := Finset.exists_mem_eq_sup' hs f
  rw [he]
  exact h i hi

/-- The minimum of finitely many finite values, over a nonempty set of indices, is finite. -/
theorem isReal_inf' {ι : Type*} (s : Finset ι) (hs : s.Nonempty) (f : ι → EReal) (h : ∀ i ∈ s, IsReal (f i)) :
    IsReal (s.inf' hs f) := by
  obtain ⟨i, hi, he⟩ := Finset.exists_mem_eq_inf' hs f
  rw [he]
  exact h i hi

/-- The maximum of a family of finite values over a nonempty finite type is finite. -/
theorem isReal_univ_sup' {ι : Type*} [Fintype ι] [Nonempty ι] (f : ι → EReal) (h : ∀ i, IsReal (f i)) :
    IsReal (Finset.univ.sup' Finset.univ_nonempty f) :=
  isReal_sup' _ _ f fun i _ => h i

/-- The minimum of a family of finite values over a nonempty finite type is finite. -/
theorem isReal_univ_inf' {ι : Type*} [Fintype ι] [Nonempty ι] (f : ι → EReal) (h : ∀ i, IsReal (f i)) :
    IsReal (Finset.univ.inf' Finset.univ_nonempty f) :=
  isReal_inf' _ _ f fun i _ => h i

/-- A fold of `max` from a starting value is the starting value or one of the folded values. -/
theorem fold_max_eq_or {ι : Type*} (s : Finset ι) (b : EReal) (f : ι → EReal) :
    s.fold max b f = b ∨ ∃ i ∈ s, s.fold max b f = f i := by
  classical
  refine Finset.induction_on s (Or.inl (Finset.fold_empty)) ?_
  intro a t ha ih
  rw [Finset.fold_insert ha]
  rcases max_choice (f a) (t.fold max b f) with h | h
  · exact Or.inr ⟨a, Finset.mem_insert_self a t, h⟩
  · rw [h]
    rcases ih with ih | ⟨i, hi, ih⟩
    · exact Or.inl ih
    · exact Or.inr ⟨i, Finset.mem_insert_of_mem hi, ih⟩

/-- A fold of `min` from a starting value is the starting value or one of the folded values. -/
theorem fold_min_eq_or {ι : Type*} (s : Finset ι) (b : EReal) (f : ι → EReal) :
    s.fold min b f = b ∨ ∃ i ∈ s, s.fold min b f = f i := by
  classical
  refine Finset.induction_on s (Or.inl (Finset.fold_empty)) ?_
  intro a t ha ih
  rw [Finset.fold_insert ha]
  rcases min_choice (f a) (t.fold min b f) with h | h
  · exact Or.inr ⟨a, Finset.mem_insert_self a t, h⟩
  · rw [h]
    rcases ih with ih | ⟨i, hi, ih⟩
    · exact Or.inl ih
    · exact Or.inr ⟨i, Finset.mem_insert_of_mem hi, ih⟩

/-- A fold of `max` from a finite starting value over finite values is finite. -/
theorem isReal_fold_max {ι : Type*} (s : Finset ι) {b : EReal} (f : ι → EReal) (hb : IsReal b)
    (h : ∀ i ∈ s, IsReal (f i)) : IsReal (s.fold max b f) := by
  rcases fold_max_eq_or s b f with e | ⟨i, hi, e⟩ <;> rw [e]
  · exact hb
  · exact h i hi

/-- A fold of `min` from a finite starting value over finite values is finite. -/
theorem isReal_fold_min {ι : Type*} (s : Finset ι) {b : EReal} (f : ι → EReal) (hb : IsReal b)
    (h : ∀ i ∈ s, IsReal (f i)) : IsReal (s.fold min b f) := by
  rcases fold_min_eq_or s b f with e | ⟨i, hi, e⟩ <;> rw [e]
  · exact hb
  · exact h i hi

/-- A fold of `max` from `⊥` (the neutral element of a maximum) over finite values, on a nonempty set of
    indices, is finite: it is above one of them, hence not `⊥`, hence one of them. -/
theorem isReal_fold_max_bot {ι : Type*} (s : Finset ι) (hs : s.Nonempty) (f : ι → EReal)
    (h : ∀ i ∈ s, IsReal (f i)) : IsReal (s.fold max ⊥ f) := by
  rcases fold_max_eq_or s ⊥ f with e | ⟨i, hi, e⟩
  · obtain ⟨i, hi⟩ := hs
    have hle : f i ≤ s.fold max ⊥ f := (Finset.le_fold_max (f i)).mpr (Or.inr ⟨i, hi, le_rfl⟩)
    rw [e] at hle
    exact absurd (le_bot_iff.mp hle) (h i hi).ne_bot
  · rw [e]
    exact h i hi

/-- A fold of `min` from `⊤` (the neutral element of a minimum) over finite values, on a nonempty set of
    indices, is finite. -/
theorem isReal_fold_min_top {ι : Type*} (s : Finset ι) (hs : s.Nonempty) (f : ι → EReal)
    (h : ∀ i ∈ s, IsReal (f i)) : IsReal (s.fold min ⊤ f) := by
  rcases fold_min_eq_or s ⊤ f with e | ⟨i, hi, e⟩
  · obtain ⟨i, hi⟩ := hs
    have hle : s.fold min ⊤ f ≤ f i := (Finset.fold_min_le (f i)).mpr (Or.inr ⟨i, hi, le_rfl⟩)
    rw [e] at hle
    exact absurd (top_le_iff.mp hle) (h i hi).ne_top
  · rw [e]
    exact h i hi

/-! ## Quotient, exponential, power -/

/-- The quotient of two reals, the divisor not zero, is the real quotient. -/
theorem div_coe_coe (r : ℝ) {s : ℝ} (hs : s ≠ 0) : Ideal.div (r : EReal) (s : EReal) = ((r / s : ℝ) : EReal) := by
  rw [Ideal.div_coe hs, ← EReal.coe_mul, mul_one_div]

/-- The quotient of a finite value by a finite divisor that is not zero is finite. -/
theorem IsReal.div {a b : EReal} (ha : IsReal a) (hb : IsReal b) (hb0 : b ≠ 0) : IsReal (Ideal.div a b) := by
  obtain ⟨r, rfl⟩ := ha
  obtain ⟨s, rfl⟩ := hb
  have hs : s ≠ 0 := fun h0 => hb0 (by rw [h0, EReal.coe_zero])
  exact ⟨r / s, div_coe_coe r hs⟩

/-- The exponential of a real is a positive real. -/
theorem exp_coe_isReal (r : ℝ) : IsReal (Ideal.exp (r : EReal)) := ⟨Real.exp r, Ideal.exp_coe r⟩

/-- The exponential of a real is positive. -/
theorem exp_coe_pos (r : ℝ) : 0 < Ideal.exp (r : EReal) := by
  rw [Ideal.exp_coe]
  exact EReal.coe_pos.mpr (Real.exp_pos r)

/-- The exponential of a finite value is finite and positive. -/
theorem IsReal.exp {a : EReal} (ha : IsReal a) : IsReal (Ideal.exp a) ∧ 0 < Ideal.exp a := by
  obtain ⟨r, rfl⟩ := ha
  exact ⟨exp_coe_isReal r, exp_coe_pos r⟩

/-- A power of a positive real by a real exponent is a positive real. -/
theorem pow_coe_coe_of_pos {r : ℝ} (hr : 0 < r) (y : ℝ) :
    IsReal (Ideal.pow (r : EReal) (y : EReal)) ∧ 0 < Ideal.pow (r : EReal) (y : EReal) := by
  rw [Ideal.pow_coe_coe]
  exact ⟨isReal_coe _, EReal.coe_pos.mpr (Real.rpow_pos_of_pos hr y)⟩

/-- A real `r ≥ 1` to the power `-1/2` is a positive real. -/
theorem pow_neg_half_of_one_le {r : ℝ} (hr : 1 ≤ r) :
    IsReal (Ideal.pow (r : EReal) ((-(1 / 2) : ℝ) : EReal)) ∧ 0 < Ideal.pow (r : EReal) ((-(1 / 2) : ℝ) : EReal) :=
  pow_coe_coe_of_pos (lt_of_lt_of_le one_pos hr) _

/-- The same, naming the real value: `r ^ (-1/2) = (√r)⁻¹` for `r ≥ 0`. -/
theorem pow_neg_half_eq {r : ℝ} (hr : 0 ≤ r) :
    Ideal.pow (r : EReal) ((-(1 / 2) : ℝ) : EReal) = (((Real.sqrt r)⁻¹ : ℝ) : EReal) := by
  rw [Ideal.pow_coe_coe]
  congr 1
  show r ^ (-(1 / 2) : ℝ) = (Real.sqrt r)⁻¹
  rw [Real.rpow_neg hr, Real.sqrt_eq_rpow]

/-- The f32 pattern `0xBF000000` is the real `-1/2`. -/
theorem ofBits_neg_half_f32 : Ideal.ofBits .f32 0xBF000000#32 = ((-(1 / 2) : ℝ) : EReal) := by
  simp [Ideal.ofBits, Ideal.ieee, -EReal.coe_mul, -EReal.coe_neg]; norm_num

/-- A finite value `a ≥ 1` to the power written as the f32 pattern `0xBF000000` (that is `-1/2`) is finite and
    positive. -/
theorem IsReal.pow_neg_half {a : EReal} (ha : IsReal a) (h1 : 1 ≤ a) :
    IsReal (Ideal.pow a (Ideal.ofBits .f32 0xBF000000#32)) ∧ 0 < Ideal.pow a (Ideal.ofBits .f32 0xBF000000#32) := by
  obtain ⟨r, rfl⟩ := ha
  rw [ofBits_neg_half_f32]
  exact pow_neg_half_of_one_le (by exact_mod_cast h1)

/-- A finite value raised to at least one, `max a 1`, to the power `-1/2` (the f32 pattern `0xBF000000`) is finite
    and positive: the inverse square root of a degree clamped below by one. -/
theorem isReal_pow_neg_half_max_one {a : EReal} (ha : IsReal a) :
    IsReal (Ideal.pow (max a 1) (Ideal.ofBits .f32 0xBF000000#32))
      ∧ 0 < Ideal.pow (max a 1) (Ideal.ofBits .f32 0xBF000000#32) :=
  (ha.max isReal_one).pow_neg_half (le_max_right a 1)

/-! ## From finite extended reals to reals -/

/-- The coercion commutes with finite sums. -/
@[norm_cast]
theorem coe_sum {ι : Type*} (s : Finset ι) (f : ι → ℝ) : ((∑ i ∈ s, f i : ℝ) : EReal) = ∑ i ∈ s, (f i : EReal) := by
  classical
  refine Finset.induction_on s (by simp) ?_
  intro a t ha ih
  rw [Finset.sum_insert ha, Finset.sum_insert ha, EReal.coe_add, ih]

/-- A family of finite extended reals is the coercion of a family of reals. -/
theorem exists_real_fun {ι : Sort*} (f : ι → EReal) (h : ∀ i, IsReal (f i)) : ∃ g : ι → ℝ, ∀ i, f i = (g i : EReal) := by
  choose g hg using h
  exact ⟨g, hg⟩

/-- The same for a family with two indices. -/
theorem exists_real_fun₂ {ι κ : Sort*} (f : ι → κ → EReal) (h : ∀ i k, IsReal (f i k)) :
    ∃ g : ι → κ → ℝ, ∀ i k, f i k = (g i k : EReal) := by
  choose g hg using h
  exact ⟨g, hg⟩

/-- As an equation of functions, ready for substitution. -/
theorem exists_real_fun_eq {ι : Sort*} (f : ι → EReal) (h : ∀ i, IsReal (f i)) :
    ∃ g : ι → ℝ, f = fun i => (g i : EReal) := by
  obtain ⟨g, hg⟩ := exists_real_fun f h
  exact ⟨g, funext hg⟩

/-- As an equation of functions, two indices. -/
theorem exists_real_fun₂_eq {ι κ : Sort*} (f : ι → κ → EReal) (h : ∀ i k, IsReal (f i k)) :
    ∃ g : ι → κ → ℝ, f = fun i k => (g i k : EReal) := by
  obtain ⟨g, hg⟩ := exists_real_fun₂ f h
  exact ⟨g, funext fun i => funext fun k => hg i k⟩

/-! ## Stages of a layer on finite values

Min-max normalisation, the leaky activation, and a column maximum or minimum keep finite values finite. -/

/-- Min-max normalisation of reals: `(a - r) / (s - r)` when `r < s`. -/
theorem minmax_coe (a : ℝ) {r s : ℝ} (h : r < s) :
    Ideal.div ((a : EReal) - (r : EReal)) ((s : EReal) - (r : EReal)) = (((a - r) / (s - r) : ℝ) : EReal) := by
  rw [← EReal.coe_sub, ← EReal.coe_sub]
  exact div_coe_coe _ (sub_ne_zero.mpr (ne_of_gt h))

/-- Min-max normalisation of a finite value between finite bounds `mn < mx` is finite. -/
theorem isReal_minmax {x mn mx : EReal} (hx : IsReal x) (hmn : IsReal mn) (hmx : IsReal mx) (h : mn < mx) :
    IsReal (Ideal.div (x - mn) (mx - mn)) := by
  obtain ⟨a, rfl⟩ := hx
  obtain ⟨r, rfl⟩ := hmn
  obtain ⟨s, rfl⟩ := hmx
  rw [minmax_coe a (EReal.coe_lt_coe_iff.mp h)]
  exact isReal_coe _

/-- An f32 word whose exponent field is not all ones (neither an infinity nor a NaN pattern) denotes a real. -/
theorem isReal_ofBits_f32 (w : BitVec 32) (h : (w.extractLsb' 23 8).toNat ≠ 2 ^ 8 - 1) :
    IsReal (Ideal.ofBits .f32 w) := by
  show IsReal (Ideal.ieee 8 23 w)
  unfold Ideal.ieee
  simp only [if_neg h]
  split_ifs <;> exact isReal_coe _

/-- The f32 word `0x3C23D70A` (the slope `0.01` of the leaky activation, rounded) denotes a real. -/
theorem isReal_ofBits_slope : IsReal (Ideal.ofBits .f32 0x3C23D70A#32) :=
  isReal_ofBits_f32 _ (by decide)

/-- The f32 word `0xFF800000` is `-∞`. -/
theorem ofBits_neg_inf_f32 : Ideal.ofBits .f32 0xFF800000#32 = ⊥ := by simp [Ideal.ofBits, Ideal.ieee]

/-- The f32 word `0x7F800000` is `+∞`. -/
theorem ofBits_pos_inf_f32 : Ideal.ofBits .f32 0x7F800000#32 = ⊤ := by simp [Ideal.ofBits, Ideal.ieee]

/-- The comparison `y > 0` against the f32 zero word answers the bit one when `0 < y`. -/
theorem cmpf_ogt_zero_of_pos {y : Ideal .f32} (hy : 0 < y) :
    FloatOps.cmpf .ogt y (Ideal.ofBits .f32 0x00000000#32) = 1#1 := by
  rw [Ideal.cmpf_def, Ideal.ofBits_zero_f32]
  show BitVec.ofBool (decide ((0 : EReal) < y)) = 1#1
  rw [decide_eq_true hy]
  rfl

/-- The comparison `y > 0` against the f32 zero word answers the bit zero when not `0 < y`. -/
theorem cmpf_ogt_zero_of_not_pos {y : Ideal .f32} (hy : ¬ 0 < y) :
    FloatOps.cmpf .ogt y (Ideal.ofBits .f32 0x00000000#32) = 0#1 := by
  rw [Ideal.cmpf_def, Ideal.ofBits_zero_f32]
  show BitVec.ofBool (decide ((0 : EReal) < y)) = 0#1
  rw [decide_eq_false hy]
  rfl

/-- The leaky activation `if y > 0 then y else c * y` at a positive value is the value. -/
theorem leaky_of_pos (c : Ideal .f32) {y : Ideal .f32} (hy : 0 < y) :
    Scalar.select (FloatOps.cmpf .ogt y (Ideal.ofBits .f32 0x00000000#32)) y (c * y) = y := by
  rw [cmpf_ogt_zero_of_pos hy]
  exact if_pos rfl

/-- The leaky activation at a value that is not positive is the slope times the value. -/
theorem leaky_of_not_pos (c : Ideal .f32) {y : Ideal .f32} (hy : ¬ 0 < y) :
    Scalar.select (FloatOps.cmpf .ogt y (Ideal.ofBits .f32 0x00000000#32)) y (c * y) = c * y := by
  rw [cmpf_ogt_zero_of_not_pos hy]
  exact if_neg (by decide)

/-- The leaky activation of a finite value with a finite slope is finite. -/
theorem isReal_leaky {c y : Ideal .f32} (hc : IsReal c) (hy : IsReal y) :
    IsReal (Scalar.select (FloatOps.cmpf .ogt y (Ideal.ofBits .f32 0x00000000#32)) y (c * y)) := by
  by_cases h : 0 < y
  · rw [leaky_of_pos c h]
    exact hy
  · rw [leaky_of_not_pos c h]
    exact hc.mul hy

/-- The leaky activation with the slope word `0x3C23D70A` of a finite value is finite. -/
theorem isReal_leaky_slope {y : Ideal .f32} (hy : IsReal y) :
    IsReal (Scalar.select (FloatOps.cmpf .ogt y (Ideal.ofBits .f32 0x00000000#32)) y
      (Ideal.ofBits .f32 0x3C23D70A#32 * y)) :=
  isReal_leaky isReal_ofBits_slope hy

/-! ### A maximum or minimum over one axis -/

section Reduce

variable {s t u : Shape} {a : Fin s.rank} {φ : FTy}

/-- A reduction with a maximum body over one axis is, at `j`, the fold of `max` from the initial value over that
    axis's coordinates. -/
theorem hostReduce_maximumf_eq_fold (x : FVec Ideal s φ) (init : FVec Ideal u φ) (h' : s.ReducesTo [a] t)
    (h : s.Reduces [a] t) (hu : 0 < u.numel) (j : t.Idx) :
    Host.reduce FloatOps.maximumf x init h' hu j
      = (Finset.univ : Finset (Fin (s.size a))).fold max (init (Shape.Idx.first hu)) (x ∘ h.lift j) :=
  Host.reduce_eq_fold_single FloatOps.maximumf x init h' h hu j

/-- A reduction with a minimum body over one axis is, at `j`, the fold of `min` from the initial value over that
    axis's coordinates. -/
theorem hostReduce_minimumf_eq_fold (x : FVec Ideal s φ) (init : FVec Ideal u φ) (h' : s.ReducesTo [a] t)
    (h : s.Reduces [a] t) (hu : 0 < u.numel) (j : t.Idx) :
    Host.reduce FloatOps.minimumf x init h' hu j
      = (Finset.univ : Finset (Fin (s.size a))).fold min (init (Shape.Idx.first hu)) (x ∘ h.lift j) :=
  Host.reduce_eq_fold_single FloatOps.minimumf x init h' h hu j

/-- The maximum over a nonempty axis, from `-∞`, of finite values is finite. -/
theorem isReal_hostReduce_maximumf (x : FVec Ideal s φ) (init : FVec Ideal u φ) (h' : s.ReducesTo [a] t)
    (h : s.Reduces [a] t) (hu : 0 < u.numel) (hinit : init (Shape.Idx.first hu) = ⊥) (hpos : 0 < s.size a)
    (hx : ∀ i, IsReal (x i)) (j : t.Idx) : IsReal (Host.reduce (α := Ideal φ) FloatOps.maximumf x init h' hu j) := by
  rw [hostReduce_maximumf_eq_fold x init h' h hu j, hinit]
  exact isReal_fold_max_bot _ ⟨⟨0, hpos⟩, Finset.mem_univ _⟩ _ fun k _ => hx _

/-- The maximum over an axis is at least every value along it. -/
theorem le_hostReduce_maximumf (x : FVec Ideal s φ) (init : FVec Ideal u φ) (h' : s.ReducesTo [a] t)
    (h : s.Reduces [a] t) (hu : 0 < u.numel) (j : t.Idx) (k : Fin (s.size a)) :
    x (h.lift j k) ≤ Host.reduce FloatOps.maximumf x init h' hu j := by
  rw [hostReduce_maximumf_eq_fold x init h' h hu j]
  exact (Finset.le_fold_max _).mpr (Or.inr ⟨k, Finset.mem_univ _, le_rfl⟩)

/-- Every entry is at most the maximum at the index it reduces to. -/
theorem le_hostReduce_maximumf_drop (x : FVec Ideal s φ) (init : FVec Ideal u φ) (h' : s.ReducesTo [a] t)
    (h : s.Reduces [a] t) (hu : 0 < u.numel) (i : s.Idx) :
    x i ≤ Host.reduce FloatOps.maximumf x init h' hu (h.drop i) := by
  have e := le_hostReduce_maximumf x init h' h hu (h.drop i) (i a)
  rwa [h.lift_drop] at e

/-- The maximum over a nonempty axis, from `-∞`, of finite values is one of them. -/
theorem hostReduce_maximumf_attained (x : FVec Ideal s φ) (init : FVec Ideal u φ) (h' : s.ReducesTo [a] t)
    (h : s.Reduces [a] t) (hu : 0 < u.numel) (hinit : init (Shape.Idx.first hu) = ⊥) (hpos : 0 < s.size a)
    (hx : ∀ i, IsReal (x i)) (j : t.Idx) :
    ∃ k : Fin (s.size a), Host.reduce FloatOps.maximumf x init h' hu j = x (h.lift j k) := by
  have hr := isReal_hostReduce_maximumf x init h' h hu hinit hpos hx j
  rw [hostReduce_maximumf_eq_fold x init h' h hu j, hinit] at hr ⊢
  rcases fold_max_eq_or Finset.univ ⊥ (x ∘ h.lift j) with e | ⟨k, _, e⟩
  · rw [e] at hr
    exact absurd hr not_isReal_bot
  · exact ⟨k, e⟩

/-- The minimum over a nonempty axis, from `+∞`, of finite values is finite. -/
theorem isReal_hostReduce_minimumf (x : FVec Ideal s φ) (init : FVec Ideal u φ) (h' : s.ReducesTo [a] t)
    (h : s.Reduces [a] t) (hu : 0 < u.numel) (hinit : init (Shape.Idx.first hu) = ⊤) (hpos : 0 < s.size a)
    (hx : ∀ i, IsReal (x i)) (j : t.Idx) : IsReal (Host.reduce (α := Ideal φ) FloatOps.minimumf x init h' hu j) := by
  rw [hostReduce_minimumf_eq_fold x init h' h hu j, hinit]
  exact isReal_fold_min_top _ ⟨⟨0, hpos⟩, Finset.mem_univ _⟩ _ fun k _ => hx _

/-- The minimum over an axis is at most every value along it. -/
theorem hostReduce_minimumf_le (x : FVec Ideal s φ) (init : FVec Ideal u φ) (h' : s.ReducesTo [a] t)
    (h : s.Reduces [a] t) (hu : 0 < u.numel) (j : t.Idx) (k : Fin (s.size a)) :
    Host.reduce FloatOps.minimumf x init h' hu j ≤ x (h.lift j k) := by
  rw [hostReduce_minimumf_eq_fold x init h' h hu j]
  exact (Finset.fold_min_le _).mpr (Or.inr ⟨k, Finset.mem_univ _, le_rfl⟩)

/-- Every entry is at least the minimum at the index it reduces to. -/
theorem hostReduce_minimumf_drop_le (x : FVec Ideal s φ) (init : FVec Ideal u φ) (h' : s.ReducesTo [a] t)
    (h : s.Reduces [a] t) (hu : 0 < u.numel) (i : s.Idx) :
    Host.reduce FloatOps.minimumf x init h' hu (h.drop i) ≤ x i := by
  have e := hostReduce_minimumf_le x init h' h hu (h.drop i) (i a)
  rwa [h.lift_drop] at e

/-- The minimum over a nonempty axis, from `+∞`, of finite values is one of them. -/
theorem hostReduce_minimumf_attained (x : FVec Ideal s φ) (init : FVec Ideal u φ) (h' : s.ReducesTo [a] t)
    (h : s.Reduces [a] t) (hu : 0 < u.numel) (hinit : init (Shape.Idx.first hu) = ⊤) (hpos : 0 < s.size a)
    (hx : ∀ i, IsReal (x i)) (j : t.Idx) :
    ∃ k : Fin (s.size a), Host.reduce FloatOps.minimumf x init h' hu j = x (h.lift j k) := by
  have hr := isReal_hostReduce_minimumf x init h' h hu hinit hpos hx j
  rw [hostReduce_minimumf_eq_fold x init h' h hu j, hinit] at hr ⊢
  rcases fold_min_eq_or Finset.univ ⊤ (x ∘ h.lift j) with e | ⟨k, _, e⟩
  · rw [e] at hr
    exact absurd hr not_isReal_top
  · exact ⟨k, e⟩

end Reduce

/-! ### The column maximum and minimum of a matrix -/

section Column

open Idealize.ShloMosaic.ValueIdx

variable {R C : Nat}

/-- In a reduction of an `R × C` matrix over its rows, column `c` with row `k` put back is the entry `(k, c)`. -/
theorem lift_ix2 (h : (⟨2, ![R, C]⟩ : Shape).Reduces [0] (⟨1, ![C]⟩ : Shape)) (c : Fin C)
    (k : Fin ((⟨2, ![R, C]⟩ : Shape).size 0)) : h.lift (ix1 c) k = ix2 (⟨k.val, k.isLt⟩ : Fin R) c := by
  funext d
  apply Fin.ext
  fin_cases d <;> rfl

/-- The column maximum, from the word of `-∞`, of a matrix of finite values with at least one row is finite. -/
theorem isReal_colMax (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (hR : 0 < R) (hx : ∀ i, IsReal (x i)) (c : Fin C) :
    IsReal (Host.reduce (α := Ideal .f32) FloatOps.maximumf x (constant (⟨0, ![]⟩ : Shape) .f32 0xFF800000#32) h' hu (ix1 c)) :=
  isReal_hostReduce_maximumf x (constant (⟨0, ![]⟩ : Shape) .f32 0xFF800000#32) h' h hu ofBits_neg_inf_f32 hR hx (ix1 c)

/-- The column maximum is at least every entry of the column. -/
theorem le_colMax (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (r : Fin R) (c : Fin C) :
    x (ix2 r c) ≤ Host.reduce FloatOps.maximumf x (constant (⟨0, ![]⟩ : Shape) .f32 0xFF800000#32) h' hu (ix1 c) := by
  have e := le_hostReduce_maximumf x (constant (⟨0, ![]⟩ : Shape) .f32 0xFF800000#32) h' h hu (ix1 c) r
  rwa [lift_ix2 h c r] at e

/-- The column maximum of a matrix of finite values with at least one row is an entry of the column. -/
theorem colMax_attained (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (hR : 0 < R) (hx : ∀ i, IsReal (x i)) (c : Fin C) :
    ∃ r : Fin R,
      Host.reduce FloatOps.maximumf x (constant (⟨0, ![]⟩ : Shape) .f32 0xFF800000#32) h' hu (ix1 c) = x (ix2 r c) := by
  obtain ⟨k, e⟩ := hostReduce_maximumf_attained x (constant (⟨0, ![]⟩ : Shape) .f32 0xFF800000#32) h' h hu ofBits_neg_inf_f32 hR hx (ix1 c)
  exact ⟨⟨k.val, k.isLt⟩, by rw [e, lift_ix2 h c k]⟩

/-- The column minimum, from the word of `+∞`, of a matrix of finite values with at least one row is finite. -/
theorem isReal_colMin (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (hR : 0 < R) (hx : ∀ i, IsReal (x i)) (c : Fin C) :
    IsReal (Host.reduce (α := Ideal .f32) FloatOps.minimumf x (constant (⟨0, ![]⟩ : Shape) .f32 0x7F800000#32) h' hu (ix1 c)) :=
  isReal_hostReduce_minimumf x (constant (⟨0, ![]⟩ : Shape) .f32 0x7F800000#32) h' h hu ofBits_pos_inf_f32 hR hx (ix1 c)

/-- The column minimum is at most every entry of the column. -/
theorem colMin_le (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (r : Fin R) (c : Fin C) :
    Host.reduce FloatOps.minimumf x (constant (⟨0, ![]⟩ : Shape) .f32 0x7F800000#32) h' hu (ix1 c) ≤ x (ix2 r c) := by
  have e := hostReduce_minimumf_le x (constant (⟨0, ![]⟩ : Shape) .f32 0x7F800000#32) h' h hu (ix1 c) r
  rwa [lift_ix2 h c r] at e

/-- The column minimum of a matrix of finite values with at least one row is an entry of the column. -/
theorem colMin_attained (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (hR : 0 < R) (hx : ∀ i, IsReal (x i)) (c : Fin C) :
    ∃ r : Fin R,
      Host.reduce FloatOps.minimumf x (constant (⟨0, ![]⟩ : Shape) .f32 0x7F800000#32) h' hu (ix1 c) = x (ix2 r c) := by
  obtain ⟨k, e⟩ := hostReduce_minimumf_attained x (constant (⟨0, ![]⟩ : Shape) .f32 0x7F800000#32) h' h hu ofBits_pos_inf_f32 hR hx (ix1 c)
  exact ⟨⟨k.val, k.isLt⟩, by rw [e, lift_ix2 h c k]⟩

end Column

end Cert.Finite
-- ==== Proof.Algebra.lean ====
/-
  The law that joins the two programs' batch statistics, and the two float literals it needs.

  Both programs normalize a column of values v_1 … v_N (N = 100000) by its mean and its biased variance. One computes the
  variance as the mean of the squares minus the square of the mean, the other as the mean of the squared deviations from
  the mean. On real numbers these are one number:
      (∑ v²)/n − ((∑ v)/n)² = (∑ (v − (∑ v)/n)²)/n        when n is the number of terms,
  because ∑ (v − μ)² = ∑ v² − 2 μ ∑ v + n μ² and μ = (∑ v)/n. On the extended reals the identity fails at an infinite
  entry, so it is stated for columns whose entries are real, and the sums, quotients, differences and products of the
  statement are then the real ones, coerced.
-/
import Idealize.ShloMosaic.PureOps.Ideal
import Idealize.ShloMosaic.Lib.ValueIdx
import proofs.«165885_j29437705847123_1_alg».proof.Proof.LibFinite

noncomputable section

namespace Cert.BatchStats

open Idealize.ShloMosaic Cert.Finite

/-- The literal `1.0e5` denotes the real 100000, the number of rows. -/
theorem ofBits_count : Ideal.ofBits .f32 0x47C35000#32 = ((100000 : ℝ) : EReal) := by
  simp [Ideal.ofBits, Ideal.ieee, -EReal.coe_mul]; norm_num

/-- The literal `+0.0` denotes 0. -/
theorem ofBits_zero : Ideal.ofBits .f32 0x00000000#32 = 0 := by
  simp [Ideal.ofBits, Ideal.ieee]

/-- Mean of squares minus squared mean is the mean of squared deviations, over the reals. -/
theorem var_real {ι : Type*} [Fintype ι] (a : ι → ℝ) (n : ℝ) (hn : n ≠ 0) (hcard : (Fintype.card ι : ℝ) = n) :
    (∑ k, a k * a k) / n - (∑ k, a k) / n * ((∑ k, a k) / n)
      = (∑ k, (a k - (∑ k, a k) / n) * (a k - (∑ k, a k) / n)) / n := by
  set S : ℝ := ∑ k, a k with hS
  have hdev : ∀ k, (a k - S / n) * (a k - S / n) = a k * a k - 2 * (S / n) * a k + S / n * (S / n) := fun k => by ring
  have hsum : ∑ k, (a k - S / n) * (a k - S / n) = (∑ k, a k * a k) - 2 * (S / n) * S + n * (S / n * (S / n)) := by
    simp only [hdev, Finset.sum_add_distrib, Finset.sum_sub_distrib, ← Finset.mul_sum, Finset.sum_const, Finset.card_univ,
      nsmul_eq_mul, hcard, ← hS]
    ring
  rw [hsum]
  field_simp
  ring

/-- The same on the extended reals, for a column of real entries: the operations are the exact ones of the ideal
    reading (a quotient by the real `n ≠ 0`). -/
theorem var_law {ι : Type*} [Fintype ι] (f : ι → EReal) (hf : ∀ k, IsReal (f k)) (n : ℝ) (hn : n ≠ 0)
    (hcard : (Fintype.card ι : ℝ) = n) :
    Ideal.div (∑ k, f k * f k) (n : EReal) - Ideal.div (∑ k, f k) (n : EReal) * Ideal.div (∑ k, f k) (n : EReal)
      = Ideal.div (∑ k, (f k - Ideal.div (∑ k, f k) (n : EReal)) * (f k - Ideal.div (∑ k, f k) (n : EReal))) (n : EReal) := by
  obtain ⟨a, rfl⟩ := exists_real_fun_eq f hf
  simp only [← EReal.coe_mul, ← coe_sum, div_coe_coe _ hn, ← EReal.coe_sub]
  exact congrArg _ (var_real a n hn hcard)

/-- The mean of a column of real entries is real. -/
theorem mean_isReal {ι : Type*} [Fintype ι] (f : ι → EReal) (hf : ∀ k, IsReal (f k)) (n : ℝ) (hn : n ≠ 0) :
    IsReal (Ideal.div (∑ k, f k) (n : EReal)) := by
  obtain ⟨a, rfl⟩ := exists_real_fun_eq f hf
  simp only [← coe_sum, div_coe_coe _ hn]
  exact isReal_coe _

/-! ## The batch normalization both programs compute, as functions of the matrix of aggregated values

A matrix `v` of N = 100000 rows and 64 columns; per column its mean, its biased variance in either form, and the
normalized, scaled, shifted and clamped entry. The count and the epsilon are the programs' float literals. -/

open Idealize.ShloMosaic.ValueIdx

/-- A matrix of 100000 rows and 64 columns of extended reals. -/
abbrev Mat : Type := (⟨2, ![100000, 64]⟩ : Shape).Idx → EReal

/-- The number of rows, as the literal `1.0e5`. -/
def cnt : EReal := Ideal.ofBits .f32 0x47C35000#32
/-- The epsilon, as the literal both programs add to the variance. -/
def eps : EReal := Ideal.ofBits .f32 0x3727C5AC#32

theorem cnt_eq : cnt = ((100000 : ℝ) : EReal) := ofBits_count

/-- The mean of column `j`. -/
def mean (v : Mat) (j : Fin 64) : EReal := Ideal.div (∑ k : Fin 100000, v (ix2 k j)) cnt
/-- The variance of column `j` as the mean of the squared deviations from the mean. -/
def varDev (v : Mat) (j : Fin 64) : EReal :=
  Ideal.div (∑ k : Fin 100000, (v (ix2 k j) - mean v j) * (v (ix2 k j) - mean v j)) cnt
/-- The variance of column `j` as the mean of the squares minus the square of the mean. -/
def varSq (v : Mat) (j : Fin 64) : EReal :=
  Ideal.div (∑ k : Fin 100000, v (ix2 k j) * v (ix2 k j)) cnt - mean v j * mean v j

/-- On a matrix of real entries the two variances are one number. -/
theorem varSq_eq_varDev (v : Mat) (hv : ∀ i, IsReal (v i)) (j : Fin 64) : varSq v j = varDev v j := by
  unfold varSq varDev mean
  rw [cnt_eq]
  exact var_law (fun k : Fin 100000 => v (ix2 k j)) (fun k => hv _) 100000 (by norm_num) (by simp)

/-- The entry at row `r`, column `j`: the deviation from the mean, times the inverse square root of the variance plus
    epsilon, times the scale, plus the shift, clamped at zero. -/
def out (v : Mat) (var : Fin 64 → EReal) (g b : Fin 64 → EReal) (r : Fin 100000) (j : Fin 64) : EReal :=
  max (((v (ix2 r j) - mean v j) * Ideal.rsqrt (var j + eps)) * g j + b j) 0

/-- So on a matrix of real entries the entry does not depend on which form of the variance is used. -/
theorem out_varSq_eq (v : Mat) (hv : ∀ i, IsReal (v i)) (g b : Fin 64 → EReal) (r : Fin 100000) (j : Fin 64) :
    out v (varSq v) g b r j = out v (varDev v) g b r j := by
  unfold out
  rw [varSq_eq_varDev v hv j]

end Cert.BatchStats

end
-- ==== Proof.RefValue.lean ====
/-
  The reference's result, element by element, over the matrix of aggregated values.

  The reference adds the bias to the aggregate, and from that matrix `v` takes per column the mean (a sum over the
  100000 rows divided by the count), the mean of the squared deviations from it, the inverse square root of that
  variance plus epsilon, and returns the deviation times that factor times the scale plus the shift, clamped at zero.
  Each stage is read at an index from the stage before it; the matrix `v` itself is never opened.
-/
import proofs.«165885_j29437705847123_1_alg».proof.Proof.RefReadP
import proofs.«165885_j29437705847123_1_alg».proof.Proof.Algebra

noncomputable section

namespace Cert.ReferenceIdeal.RefValue

open Cert.ReferenceIdeal Cert.ReferenceIdeal.ReadP
open Idealize.ShloMosaic Idealize.ShloMosaic.ValueIdx Cert.BatchStats

variable (x0 : (⟨S100000x64, .f32⟩ : BufTy).Contents (Elt Ideal)) (x1 : (⟨S2x1600000, .i32⟩ : BufTy).Contents (Elt Ideal))
  (x2 : (⟨S64x64, .f32⟩ : BufTy).Contents (Elt Ideal)) (x3 x4 x5 : (⟨S64, .f32⟩ : BufTy).Contents (Elt Ideal))

/-- The aggregate plus the bias, as a matrix. -/
abbrev vmat : Mat := val_main_v46 (F := Ideal) x0 x1 x2 x3

/-- A parameter vector as a function of the column. -/
abbrev col (x : (⟨S64, .f32⟩ : BufTy).Contents (Elt Ideal)) : Fin 64 → EReal := fun j => x (ix1 j)

/-- The reference's column mean is the mean of the matrix's column. -/
theorem mean_ref (j : Fin 64) : val_main_v49 (F := Ideal) x0 x1 x2 x3 (ix1 j) = mean (vmat x0 x1 x2 x3) j := by
  unfold vmat
  rw [val_main_v49_apply, val_main_v47_apply, val_main_v48_apply, val_main_cst_10_apply, val_main_cst_9_apply]
  generalize val_main_v46 (F := Ideal) x0 x1 x2 x3 = v
  have hi : ∀ k : Fin 100000, idx_main_v47 (ix1 j) k = ix2 k j := fun k =>
    funext fun a => Fin.ext (by match a with | ⟨0, _⟩ => rfl | ⟨1, _⟩ => rfl)
  simp only [hi, Ideal.hostDivf_def, Ideal.ofBits_def, ofBits_zero, zero_add]
  unfold mean cnt
  rfl

/-- The reference's column variance is the mean of the squared deviations. -/
theorem var_ref (j : Fin 64) : val_main_v56 (F := Ideal) x0 x1 x2 x3 (ix1 j) = varDev (vmat x0 x1 x2 x3) j := by
  unfold vmat
  rw [val_main_v56_apply, val_main_v54_apply, val_main_v55_apply, val_main_cst_12_apply, val_main_cst_11_apply]
  have hterm : ∀ k : Fin 100000, val_main_v53 (F := Ideal) x0 x1 x2 x3 (idx_main_v54 (ix1 j) k)
      = ((val_main_v46 (F := Ideal) x0 x1 x2 x3 (ix2 k j) : EReal) - mean (val_main_v46 (F := Ideal) x0 x1 x2 x3) j) * ((val_main_v46 (F := Ideal) x0 x1 x2 x3 (ix2 k j) : EReal) - mean (val_main_v46 (F := Ideal) x0 x1 x2 x3) j) := fun k => by
    have hi : idx_main_v54 (ix1 j) k = ix2 k j :=
      funext fun a => Fin.ext (by match a with | ⟨0, _⟩ => rfl | ⟨1, _⟩ => rfl)
    have hm : idx_main_v50 (idx_main_v51 (ix2 k j)) = ix1 j :=
      funext fun a => Fin.ext (by match a with | ⟨0, _⟩ => rfl)
    rw [hi, val_main_v53_apply, val_main_v52_apply, val_main_v51_apply, val_main_v50_apply, hm, mean_ref]
    rfl
  rw [Finset.sum_congr rfl (fun k _ => hterm k)]
  generalize val_main_v46 (F := Ideal) x0 x1 x2 x3 = v
  simp only [Ideal.hostDivf_def, Ideal.ofBits_def, ofBits_zero, zero_add]
  unfold varDev cnt
  rfl

/-- The reference's result at row `r`, column `j`. -/
theorem result_ref (r : Fin 100000) (j : Fin 64) :
    val_main_v72 (F := Ideal) x0 x1 x2 x3 x4 x5 (ix2 r j)
      = out (vmat x0 x1 x2 x3) (varDev (vmat x0 x1 x2 x3)) (col x4) (col x5) r j := by
  unfold vmat
  have e1 : idx_main_v57 (idx_main_v58 (ix2 r j)) = ix1 j := funext fun a => Fin.ext (by match a with | ⟨0, _⟩ => rfl)
  have e2 : idx_main_v63 (idx_main_v64 (ix2 r j)) = ix1 j := funext fun a => Fin.ext (by match a with | ⟨0, _⟩ => rfl)
  have e3 : idx_main_v66 (idx_main_v67 (ix2 r j)) = ix1 j := funext fun a => Fin.ext (by match a with | ⟨0, _⟩ => rfl)
  have e4 : idx_main_v69 (idx_main_v70 (ix2 r j)) = ix1 j := funext fun a => Fin.ext (by match a with | ⟨0, _⟩ => rfl)
  rw [val_main_v72_apply, val_main_call1_v0_apply, val_main_call1_cst_apply, val_main_v71_apply, val_main_v70_apply,
    val_main_v69_apply, val_main_v68_apply, val_main_v67_apply, val_main_v66_apply, val_main_v65_apply, val_main_v64_apply,
    val_main_v63_apply, val_main_v62_apply, val_main_v61_apply, val_main_v60_apply, val_main_cst_13_apply, val_main_v59_apply,
    val_main_v58_apply, val_main_v57_apply, e1, e2, e3, e4, mean_ref, var_ref]
  unfold vmat
  generalize val_main_v46 (F := Ideal) x0 x1 x2 x3 = v
  simp only [Ideal.maximumf_def, Ideal.addf_def, Ideal.mulf_def, Ideal.subf_def, Ideal.hostUnary_rsqrt_def, Ideal.ofBits_def,
    ofBits_zero]
  unfold out eps col
  rfl

end Cert.ReferenceIdeal.RefValue

end
-- ==== Proof.LibRowOps.lean ====
/-
  Rows moved by index. Two StableHLO operations read at one element:

  * the gather that takes whole rows of a two-dimensional array, `x[idx]` for `x : [N, W]` and `idx : [E]` (carried as
    `[E, 1]`): element `(e, c)` of the result is `x` at row `idx[e]`, read as a signed integer and clamped into
    `[0, N − 1]`, column `c`;
  * the scatter with an `add` body that accumulates whole rows, `segment_sum(upd, idx, N)` for `upd : [E, W]`: element
    `(r, c)` of the result is the operand's plus the sum of `upd[e, c]` over the `e` whose index `idx[e]`, read as a
    signed integer and NOT clamped, is exactly `r` (an index outside `[0, N − 1]` lands nowhere); and the same for a
    flat operand `[N]` and updates `[E]`.

  Every statement is over abstract extents `N`, `E`, `W`; nothing here enumerates an index set.
-/
import Idealize.ShloMosaic.PureOps.Ideal
import Idealize.ShloMosaic.Lib.ValueIdx

noncomputable section

open scoped BigOperators

namespace Cert.RowOps

open Idealize.ShloMosaic Idealize.ShloMosaic.ValueIdx

/-! ## The row an index word names -/

/-- The row a gather reads for the start index `w`: `w` as a signed integer, clamped into `[0, N − 1]`. -/
def gatherRow (N : Nat) (hN : 0 < N) (w : BitVec 32) : Fin N := ⟨min w.toInt.toNat (N - 1), by omega⟩

/-- The row a scatter writes for the scatter index `w`: `w` as a signed integer when that is a row of the operand,
    none otherwise (the update is dropped; no clamping). -/
def scatterRow (N : Nat) (w : BitVec 32) : Option (Fin N) :=
  if h : 0 ≤ w.toInt ∧ w.toInt < (N : Int) then some ⟨w.toInt.toNat, by omega⟩ else none

/-- `scatterRow` names row `r` exactly when the index, read signed, is `r`. -/
theorem scatterRow_eq_some_iff {N : Nat} (w : BitVec 32) (r : Fin N) :
    scatterRow N w = some r ↔ w.toInt = (r.val : Int) := by
  unfold scatterRow
  constructor
  · intro h
    split at h
    · rename_i hw
      have := congrArg Fin.val (Option.some.inj h)
      simp only at this
      omega
    · exact absurd h (by simp)
  · intro h
    have hr := r.isLt
    rw [dif_pos (by omega)]
    exact congrArg some (Fin.ext (by simp only; omega))

/-! ## The gather of rows -/

section Gather
variable {α : Type}

/-- The dimension numbers of a gather of rows: operand `[N, W]`, start indices `[E, 1]`, result `[E, W]`; the result's
    axis 1 is the offset axis, operand axis 0 is collapsed and is the one the start index names, slices are `1 × W`. -/
abbrev rowGatherDims (N E W : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- The row coordinate of the operand index that result index `(e, c)` reads: the clamped start index. -/
theorem rowGather_operandIdx_zero {N E W : Nat} (hN : 0 < N)
    (wf : GatherDims.WF ⟨2, ![N, W]⟩ ⟨2, ![E, 1]⟩ ⟨2, ![E, W]⟩ [1] [0] [] [0] [] 1 ![1, W])
    (idx : IVec ⟨2, ![E, 1]⟩ 32) (e : Fin E) (c : Fin W) :
    (rowGatherDims N E W wf).operandIdx (ix2 e c) idx 0 = gatherRow N hN (idx (ix2 e 0)) := by
  refine Fin.ext ?_
  show (rowGatherDims N E W wf).start (ix2 e c) idx 0 + (rowGatherDims N E W wf).batchCoord (ix2 e c) 0
    + (rowGatherDims N E W wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E W wf).startIndexMap from List.mem_singleton.mpr rfl)]
  have hsi : (rowGatherDims N E W wf).siIdx (ix2 e c) ⟨List.idxOf (0 : Fin 2) (rowGatherDims N E W wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The column coordinate of the operand index that result index `(e, c)` reads: `c` itself. -/
theorem rowGather_operandIdx_one {N E W : Nat}
    (wf : GatherDims.WF ⟨2, ![N, W]⟩ ⟨2, ![E, 1]⟩ ⟨2, ![E, W]⟩ [1] [0] [] [0] [] 1 ![1, W])
    (idx : IVec ⟨2, ![E, 1]⟩ 32) (e : Fin E) (c : Fin W) :
    (rowGatherDims N E W wf).operandIdx (ix2 e c) idx 1 = c := by
  refine Fin.ext ?_
  show (rowGatherDims N E W wf).start (ix2 e c) idx 1 + (rowGatherDims N E W wf).batchCoord (ix2 e c) 1
    + (rowGatherDims N E W wf).offCoord (ix2 e c) 1 = _
  rw [GatherDims.batchCoord_eq_zero _ _ _ List.not_mem_nil]
  have hst : (rowGatherDims N E W wf).start (ix2 e c) idx 1 = 0 := by
    unfold GatherDims.start
    rw [dif_neg (show (1 : Fin 2) ∉ ([0] : List (Fin 2)) by decide)]
  rw [hst]
  simp only [Nat.zero_add, Nat.add_zero]
  unfold GatherDims.offCoord
  rw [dif_pos ((GatherDims.mem_sKept _ _).mpr ⟨(show (1 : Fin 2) ∉ ([0] : List (Fin 2)) by decide), List.not_mem_nil⟩)]
  rfl

/-- The gather of rows at `(e, c)`, for the literal dimension numbers `rowGatherDims`. -/
theorem gather_rowDims_apply {N E W : Nat} (hN : 0 < N)
    (wf : GatherDims.WF ⟨2, ![N, W]⟩ ⟨2, ![E, 1]⟩ ⟨2, ![E, W]⟩ [1] [0] [] [0] [] 1 ![1, W])
    (x : (⟨2, ![N, W]⟩ : Shape).Idx → α) (idx : IVec ⟨2, ![E, 1]⟩ 32) (e : Fin E) (c : Fin W) :
    Host.gather (rowGatherDims N E W wf) x idx (ix2 e c) = x (ix2 (gatherRow N hN (idx (ix2 e 0))) c) := by
  unfold Host.gather
  refine congrArg x ((eq_ix2 _).trans ?_)
  rw [rowGather_operandIdx_zero hN wf idx e c, rowGather_operandIdx_one wf idx e c]
  rfl

/-- THE GATHER OF ROWS READ AT `(e, c)`: for any dimension numbers `d` whose fields are those of a gather of rows
    (each hypothesis is `rfl` at a program's record), the result at `(e, c)` is the operand at row
    `gatherRow N _ (idx[e])` — the start index read signed and clamped into `[0, N − 1]` — and column `c`. -/
theorem gather_rows_apply {N E W : Nat} (hN : 0 < N)
    (d : GatherDims ⟨2, ![N, W]⟩ ⟨2, ![E, 1]⟩ ⟨2, ![E, W]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, W])
    (x : (⟨2, ![N, W]⟩ : Shape).Idx → α) (idx : IVec ⟨2, ![E, 1]⟩ 32) (e : Fin E) (c : Fin W) :
    Host.gather d x idx (ix2 e c) = x (ix2 (gatherRow N hN (idx (ix2 e 0))) c) := by
  obtain ⟨od, cd, ob, sb, sm, iv, ss, wf⟩ := d
  simp only at hod hcd hob hsb hsm hiv hss
  subst hod hcd hob hsb hsm hiv hss
  exact gather_rowDims_apply hN wf x idx e c

end Gather

/-! ## The scatter-add of rows -/

section Scatter

/-- An axis of the operand is kept by a scatter exactly when it is not an inserted window axis. -/
theorem mem_scatter_sKept {s si u : Shape} (d : ScatterDims s si u) (a : Fin s.rank) :
    a ∈ d.sKept ↔ a ∉ d.insertedWindowDims := by
  simp [ScatterDims.sKept, Shape.kept, List.mem_filter, List.mem_finRange]

/-- The dimension numbers of a scatter of rows: operand `[N, W]`, scatter indices `[E, 1]`, updates `[E, W]`; the
    updates' axis 1 is the window axis, operand axis 0 is inserted and is the one the scatter index names. -/
abbrev rowScatterDims (N E W : Nat)
    (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

variable {N E W : Nat} (wf : ScatterDims.WF ⟨2, ![N, W]⟩ ⟨2, ![E, 1]⟩ ⟨2, ![E, W]⟩ [1] [0] [0] 1)
  (idx : IVec ⟨2, ![E, 1]⟩ 32) (j : (⟨2, ![E, W]⟩ : Shape).Idx)

/-- On the row axis the window of update `j` starts at its scatter index `idx[j₀]` read signed, and has no extent. -/
theorem rowScatter_pos_zero :
    (rowScatterDims N E W wf).start j idx 0 + ((rowScatterDims N E W wf).window j 0 : Int)
      = (idx (ix2 (j 0) 0)).toInt := by
  have hw : (rowScatterDims N E W wf).window j 0 = 0 := by
    unfold ScatterDims.window
    rw [dif_neg (fun h => ((mem_scatter_sKept _ _).mp h) (List.mem_singleton.mpr rfl))]
  have hs : (rowScatterDims N E W wf).start j idx 0 = (idx (ix2 (j 0) 0)).toInt := by
    unfold ScatterDims.start
    rw [dif_pos (show (0 : Fin 2) ∈ (rowScatterDims N E W wf).scatterDimsToOperandDims from List.mem_singleton.mpr rfl)]
    have hsi : (rowScatterDims N E W wf).siIdx j ⟨List.idxOf (0 : Fin 2) (rowScatterDims N E W wf).scatterDimsToOperandDims,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  rw [hw, hs]; simp

/-- On the column axis the window of update `j` starts at `0` and the update sits at its own column `j₁`. -/
theorem rowScatter_pos_one :
    (rowScatterDims N E W wf).start j idx 1 + ((rowScatterDims N E W wf).window j 1 : Int) = ((j 1).val : Int) := by
  have hs : (rowScatterDims N E W wf).start j idx 1 = 0 := by
    unfold ScatterDims.start
    rw [dif_neg (show (1 : Fin 2) ∉ ([0] : List (Fin 2)) by decide)]
  have hw : (rowScatterDims N E W wf).window j 1 = (j 1).val := by
    unfold ScatterDims.window
    rw [dif_pos ((mem_scatter_sKept _ _).mpr (show (1 : Fin 2) ∉ ([0] : List (Fin 2)) by decide))]
    rfl
  rw [hw, hs]; simp

/-- WHERE AN UPDATE LANDS: update `j = (e, c')` lands on element `(r, c)` exactly when its scatter index names row `r`
    and `c' = c`. -/
theorem rowScatter_resultIdx?_eq_some_iff (r : Fin N) (c : Fin W) :
    (rowScatterDims N E W wf).resultIdx? j idx = some (ix2 r c)
      ↔ scatterRow N (idx (ix2 (j 0) 0)) = some r ∧ j 1 = c := by
  rw [scatterRow_eq_some_iff]
  have h0 := rowScatter_pos_zero wf idx j
  have h1 := rowScatter_pos_one wf idx j
  have hr := r.isLt
  have hj1 : (j 1).val < W := (j 1).isLt
  unfold ScatterDims.resultIdx?
  constructor
  · intro h
    split at h
    · rename_i hall
      have h' := Option.some.inj h
      have e0 := congrArg (fun f : (⟨2, ![N, W]⟩ : Shape).Idx => (f 0).val) h'
      have e1 := congrArg (fun f : (⟨2, ![N, W]⟩ : Shape).Idx => (f 1).val) h'
      have a0 := (hall 0).1
      simp only at e0 e1
      rw [h0] at e0 a0
      rw [h1] at e1
      refine ⟨?_, Fin.ext ?_⟩
      · have : ((ix2 r c : (⟨2, ![N, W]⟩ : Shape).Idx) 0).val = r.val := rfl
        omega
      · have : ((ix2 r c : (⟨2, ![N, W]⟩ : Shape).Idx) 1).val = c.val := rfl
        omega
    · exact absurd h (by simp)
  · rintro ⟨hz, hc⟩
    have hall : ∀ a : Fin (⟨2, ![N, W]⟩ : Shape).rank,
        0 ≤ (rowScatterDims N E W wf).start j idx a + ((rowScatterDims N E W wf).window j a : Int) ∧
        (rowScatterDims N E W wf).start j idx a + ((rowScatterDims N E W wf).window j a : Int)
          < ((⟨2, ![N, W]⟩ : Shape).size a : Int) := by
      refine Fin.forall_fin_two.mpr ⟨?_, ?_⟩
      · rw [h0, hz]
        exact ⟨by omega, by show (r.val : Int) < (N : Int); omega⟩
      · rw [h1]
        exact ⟨by omega, by show ((j 1).val : Int) < (W : Int); omega⟩
    rw [dif_pos hall]
    refine congrArg some ((eq_ix2 _).trans ?_)
    have c0 : (⟨((rowScatterDims N E W wf).start j idx 0 + ((rowScatterDims N E W wf).window j 0 : Int)).toNat,
        by have := hall 0; omega⟩ : Fin N) = r := Fin.ext (by simp only; omega)
    have c1 : (⟨((rowScatterDims N E W wf).start j idx 1 + ((rowScatterDims N E W wf).window j 1 : Int)).toNat,
        by have := hall 1; omega⟩ : Fin W) = c := Fin.ext (by simp only; rw [← hc]; omega)
    exact congrArg₂ ix2 c0 c1

end Scatter

section ScatterSum

/-- The scatter-add of rows at `(r, c)`, for the literal dimension numbers `rowScatterDims`: the updates that land on
    `(r, c)` are the `(e, c)` whose scatter index names row `r`, one for each such `e`. -/
theorem scatterAdd_rowDims_apply {N E W : Nat}
    (wf : ScatterDims.WF ⟨2, ![N, W]⟩ ⟨2, ![E, 1]⟩ ⟨2, ![E, W]⟩ [1] [0] [0] 1)
    (x : FVec Ideal ⟨2, ![N, W]⟩ .f32) (idx : IVec ⟨2, ![E, 1]⟩ 32) (upd : FVec Ideal ⟨2, ![E, W]⟩ .f32)
    (r : Fin N) (c : Fin W) [DecidablePred fun e : Fin E => scatterRow N (idx (ix2 e 0)) = some r] :
    Host.scatterAdd (F := Ideal) (rowScatterDims N E W wf) x idx upd (ix2 r c)
      = x (ix2 r c) + ∑ e ∈ Finset.univ.filter (fun e : Fin E => scatterRow N (idx (ix2 e 0)) = some r),
          upd (ix2 e c) := by
  show Ideal.hostScatterAdd (rowScatterDims N E W wf) x idx upd (ix2 r c) = _
  unfold Ideal.hostScatterAdd
  congr 1
  refine Finset.sum_nbij' (fun j : (⟨2, ![E, W]⟩ : Shape).Idx => (j 0 : Fin E)) (fun e : Fin E => ix2 e c) ?_ ?_ ?_ ?_ ?_
  · intro j hj
    exact Finset.mem_filter.mpr ⟨Finset.mem_univ _,
      ((rowScatter_resultIdx?_eq_some_iff wf idx j r c).mp (Finset.mem_filter.mp hj).2).1⟩
  · intro e he
    exact Finset.mem_filter.mpr ⟨Finset.mem_univ _,
      (rowScatter_resultIdx?_eq_some_iff wf idx (ix2 e c) r c).mpr ⟨(Finset.mem_filter.mp he).2, rfl⟩⟩
  · intro j hj
    have hc := ((rowScatter_resultIdx?_eq_some_iff wf idx j r c).mp (Finset.mem_filter.mp hj).2).2
    show ix2 (j 0) c = j
    rw [← hc]
    exact (eq_ix2 j).symm
  · intro e _
    rfl
  · intro j hj
    have hc := ((rowScatter_resultIdx?_eq_some_iff wf idx j r c).mp (Finset.mem_filter.mp hj).2).2
    show upd j = upd (ix2 (j 0) c)
    rw [← hc]
    exact congrArg upd (eq_ix2 j)

/-- THE SCATTER-ADD OF ROWS READ AT `(r, c)`: for any dimension numbers `d` whose fields are those of a scatter of rows
    (each hypothesis is `rfl` at a program's record), the result at `(r, c)` is the operand's element plus the sum, over
    the `e` whose scatter index `idx[e]` read signed is exactly `r`, of the update's element `(e, c)`. -/
theorem scatterAdd_rows_apply {N E W : Nat} (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hiv : d.indexVectorDim = 1)
    (x : FVec Ideal ⟨2, ![N, W]⟩ .f32) (idx : IVec ⟨2, ![E, 1]⟩ 32) (upd : FVec Ideal ⟨2, ![E, W]⟩ .f32)
    (r : Fin N) (c : Fin W) [DecidablePred fun e : Fin E => scatterRow N (idx (ix2 e 0)) = some r] :
    Host.scatterAdd (F := Ideal) d x idx upd (ix2 r c)
      = x (ix2 r c) + ∑ e ∈ Finset.univ.filter (fun e : Fin E => scatterRow N (idx (ix2 e 0)) = some r),
          upd (ix2 e c) := by
  obtain ⟨uw, iw, sd, iv, wf⟩ := d
  simp only at huw hiw hsd hiv
  subst huw hiw hsd hiv
  exact scatterAdd_rowDims_apply wf x idx upd r c

end ScatterSum

/-! ## The scatter-add into a flat array -/

section ScatterVec

/-- The dimension numbers of a scatter into a flat array: operand `[N]`, scatter indices `[E, 1]`, updates `[E]`; no
    window axis, the operand's one axis is inserted and is the one the scatter index names. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E : Nat} (wf : ScatterDims.WF ⟨1, ![N]⟩ ⟨2, ![E, 1]⟩ ⟨1, ![E]⟩ [] [0] [0] 1)
  (idx : IVec ⟨2, ![E, 1]⟩ 32) (j : (⟨1, ![E]⟩ : Shape).Idx)

/-- On the operand's one axis the window of update `j` starts at its scatter index `idx[j₀]` read signed, and has no
    extent. -/
theorem vecScatter_pos_zero :
    (vecScatterDims N E wf).start j idx 0 + ((vecScatterDims N E wf).window j 0 : Int)
      = (idx (ix2 (j 0) 0)).toInt := by
  have hw : (vecScatterDims N E wf).window j 0 = 0 := by
    unfold ScatterDims.window
    rw [dif_neg (fun h => ((mem_scatter_sKept _ _).mp h) (List.mem_singleton.mpr rfl))]
  have hs : (vecScatterDims N E wf).start j idx 0 = (idx (ix2 (j 0) 0)).toInt := by
    unfold ScatterDims.start
    rw [dif_pos (show (0 : Fin 1) ∈ (vecScatterDims N E wf).scatterDimsToOperandDims from List.mem_singleton.mpr rfl)]
    have hsi : (vecScatterDims N E wf).siIdx j ⟨List.idxOf (0 : Fin 1) (vecScatterDims N E wf).scatterDimsToOperandDims,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  rw [hw, hs]; simp

/-- WHERE AN UPDATE LANDS: update `j = (e)` lands on element `(r)` exactly when its scatter index names `r`. -/
theorem vecScatter_resultIdx?_eq_some_iff (r : Fin N) :
    (vecScatterDims N E wf).resultIdx? j idx = some (ix1 r) ↔ scatterRow N (idx (ix2 (j 0) 0)) = some r := by
  rw [scatterRow_eq_some_iff]
  have h0 := vecScatter_pos_zero wf idx j
  have hr := r.isLt
  unfold ScatterDims.resultIdx?
  constructor
  · intro h
    split at h
    · rename_i hall
      have h' := Option.some.inj h
      have e0 := congrArg (fun f : (⟨1, ![N]⟩ : Shape).Idx => (f 0).val) h'
      have a0 := (hall 0).1
      simp only at e0
      rw [h0] at e0 a0
      have : ((ix1 r : (⟨1, ![N]⟩ : Shape).Idx) 0).val = r.val := rfl
      omega
    · exact absurd h (by simp)
  · intro hz
    have hall : ∀ a : Fin (⟨1, ![N]⟩ : Shape).rank,
        0 ≤ (vecScatterDims N E wf).start j idx a + ((vecScatterDims N E wf).window j a : Int) ∧
        (vecScatterDims N E wf).start j idx a + ((vecScatterDims N E wf).window j a : Int)
          < ((⟨1, ![N]⟩ : Shape).size a : Int) := by
      intro a
      obtain rfl : a = 0 := Subsingleton.elim _ _
      rw [h0, hz]
      exact ⟨by omega, by show (r.val : Int) < (N : Int); omega⟩
    rw [dif_pos hall]
    refine congrArg some ((eq_ix1 _).trans ?_)
    have c0 : (⟨((vecScatterDims N E wf).start j idx 0 + ((vecScatterDims N E wf).window j 0 : Int)).toNat,
        by have := hall 0; omega⟩ : Fin N) = r := Fin.ext (by simp only; omega)
    exact congrArg ix1 c0

/-- The scatter-add into a flat array at `(r)`, for the literal dimension numbers `vecScatterDims`. -/
theorem scatterAdd_vecDims_apply
    (x : FVec Ideal ⟨1, ![N]⟩ .f32) (upd : FVec Ideal ⟨1, ![E]⟩ .f32)
    (r : Fin N) [DecidablePred fun e : Fin E => scatterRow N (idx (ix2 e 0)) = some r] :
    Host.scatterAdd (F := Ideal) (vecScatterDims N E wf) x idx upd (ix1 r)
      = x (ix1 r) + ∑ e ∈ Finset.univ.filter (fun e : Fin E => scatterRow N (idx (ix2 e 0)) = some r),
          upd (ix1 e) := by
  show Ideal.hostScatterAdd (vecScatterDims N E wf) x idx upd (ix1 r) = _
  unfold Ideal.hostScatterAdd
  congr 1
  refine Finset.sum_nbij' (fun j : (⟨1, ![E]⟩ : Shape).Idx => (j 0 : Fin E)) (fun e : Fin E => ix1 e) ?_ ?_ ?_ ?_ ?_
  · intro j hj
    exact Finset.mem_filter.mpr ⟨Finset.mem_univ _,
      (vecScatter_resultIdx?_eq_some_iff wf idx j r).mp (Finset.mem_filter.mp hj).2⟩
  · intro e he
    exact Finset.mem_filter.mpr ⟨Finset.mem_univ _,
      (vecScatter_resultIdx?_eq_some_iff wf idx (ix1 e) r).mpr (Finset.mem_filter.mp he).2⟩
  · intro j _
    exact (eq_ix1 j).symm
  · intro e _
    rfl
  · intro j _
    exact congrArg upd (eq_ix1 j)

/-- THE SCATTER-ADD INTO A FLAT ARRAY READ AT `(r)`: for any dimension numbers `d` whose fields are those of such a
    scatter (each hypothesis is `rfl` at a program's record), the result at `(r)` is the operand's element plus the sum,
    over the `e` whose scatter index `idx[e]` read signed is exactly `r`, of the update's element `(e)`. -/
theorem scatterAdd_vec_apply (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : FVec Ideal ⟨1, ![N]⟩ .f32) (idx : IVec ⟨2, ![E, 1]⟩ 32) (upd : FVec Ideal ⟨1, ![E]⟩ .f32)
    (r : Fin N) [DecidablePred fun e : Fin E => scatterRow N (idx (ix2 e 0)) = some r] :
    Host.scatterAdd (F := Ideal) d x idx upd (ix1 r)
      = x (ix1 r) + ∑ e ∈ Finset.univ.filter (fun e : Fin E => scatterRow N (idx (ix2 e 0)) = some r),
          upd (ix1 e) := by
  obtain ⟨uw, iw, sd, iv, wf⟩ := d
  simp only at huw hiw hsd hiv
  subst huw hiw hsd hiv
  exact scatterAdd_vecDims_apply wf idx x upd r

end ScatterVec

end Cert.RowOps

end
-- ==== Proof.LibVecGather.lean ====
/-
  Elements of a flat array moved by index. The StableHLO gather that takes single elements of a one-dimensional array,
  `x[idx]` for `x : [N]` and `idx : [E]` (carried as `[E, 1]`), read at one element: element `(e)` of the result is
  `x` at `idx[e]`, read as a signed integer and clamped into `[0, N − 1]`.

  Every statement is over abstract extents `N`, `E`; nothing here enumerates an index set.
-/
import Idealize.ShloMosaic.PureOps.Ideal
import Idealize.ShloMosaic.Lib.ValueIdx
import proofs.«165885_j29437705847123_1_alg».proof.Proof.LibRowOps

noncomputable section

namespace Cert.VecGather

open Idealize.ShloMosaic Idealize.ShloMosaic.ValueIdx Cert.RowOps

variable {α : Type}

/-- The dimension numbers of a gather of single elements: operand `[N]`, start indices `[E, 1]`, result `[E]`; the
    result has no offset axis, the operand's one axis is collapsed and is the one the start index names, slices have
    one element. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The one coordinate of the operand index that result index `(e)` reads: the clamped start index. -/
theorem vecGather_operandIdx_zero {N E : Nat} (hN : 0 < N)
    (wf : GatherDims.WF ⟨1, ![N]⟩ ⟨2, ![E, 1]⟩ ⟨1, ![E]⟩ [] [0] [] [0] [] 1 ![1])
    (idx : IVec ⟨2, ![E, 1]⟩ 32) (e : Fin E) :
    (vecGatherDims N E wf).operandIdx (ix1 e) idx 0 = gatherRow N hN (idx (ix2 e 0)) := by
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The gather of single elements at `(e)`, for the literal dimension numbers `vecGatherDims`. -/
theorem gather_vecDims_apply {N E : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ 32) (e : Fin E) :
    Host.gather (vecGatherDims N E wf) x idx (ix1 e) = x (ix1 (gatherRow N hN (idx (ix2 e 0)))) := by
  unfold Host.gather
  refine congrArg x ((eq_ix1 _).trans ?_)
  rw [vecGather_operandIdx_zero hN wf idx e]
  rfl

/-- THE GATHER OF SINGLE ELEMENTS READ AT `(e)`: for any dimension numbers `d` whose fields are those of a gather of
    single elements of a flat array (each hypothesis is `rfl` at a program's record), the result at `(e)` is the operand
    at `gatherRow N _ (idx[e])`: the start index read signed and clamped into `[0, N − 1]`. -/
theorem gather_vec_apply {N E : Nat} (hN : 0 < N)
    (d : GatherDims ⟨1, ![N]⟩ ⟨2, ![E, 1]⟩ ⟨1, ![E]⟩)
    (hod : d.offsetDims = []) (hcd : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![N]⟩ : Shape).Idx → α) (idx : IVec ⟨2, ![E, 1]⟩ 32) (e : Fin E) :
    Host.gather d x idx (ix1 e) = x (ix1 (gatherRow N hN (idx (ix2 e 0)))) := by
  obtain ⟨od, cd, ob, sb, sm, iv, ss, wf⟩ := d
  simp only at hod hcd hob hsb hsm hiv hss
  subst hod hcd hob hsb hsm hiv hss
  exact gather_vecDims_apply hN wf x idx e

end Cert.VecGather

end
-- ==== Proof.AggFinite.lean ====
/-
  Finiteness of the reference's "aggregate plus bias".

  The reference computes h = x W, the degree deg = 0 + (a sum of ones over the edges that end at a node), the
  normaliser dinv = (deg > 0 ? 1/√deg : 0), the edge weight norm = dinv[src] · dinv[dst], the messages
  h[src] · norm, their sum per destination node, and adds the bias. When x, W and the bias are entrywise real
  numbers every one of these arrays is entrywise a real number, whatever the edge list holds: a gather reads an
  entry of its operand at a clamped position, a scatter-add adds finitely many of its updates to an entry of its
  operand, and the only operation that could leave the reals, the inverse square root at 0, is taken only where
  the degree is positive.
-/
import proofs.«165885_j29437705847123_1_alg».proof.Proof.RefReadP
import proofs.«165885_j29437705847123_1_alg».proof.Proof.LibFinite
import proofs.«165885_j29437705847123_1_alg».proof.Proof.LibRowOps
import proofs.«165885_j29437705847123_1_alg».proof.Proof.LibVecGather
import Idealize.ShloMosaic.Lib.ValueIdx
import Idealize.ShloMosaic.PureOps.Ideal.Laws

noncomputable section

open Idealize.ShloMosaic Idealize.ShloMosaic.ValueIdx

namespace Cert.AggFinite

open Cert.ReferenceIdeal Cert.ReferenceIdeal.ReadP Cert.Finite

/-! ## Gathers and scatter-adds keep entrywise real arrays entrywise real -/

/-- A gather of single entries of a flat array of reals is an array of reals: each entry of the result is an entry
    of the operand. -/
theorem gather_vec_isReal {N E : Nat} (hN : 0 < N) (d : GatherDims ⟨1, ![N]⟩ ⟨2, ![E, 1]⟩ ⟨1, ![E]⟩)
    (hod : d.offsetDims = []) (hcd : d.collapsedSliceDims = [0]) (hob : d.operandBatchingDims = [])
    (hsb : d.startIndicesBatchingDims = []) (hsm : d.startIndexMap = [0]) (hiv : d.indexVectorDim = 1)
    (hss : d.sliceSizes = ![1])
    (x : FVec Ideal ⟨1, ![N]⟩ .f32) (idx : IVec ⟨2, ![E, 1]⟩ 32) (hx : ∀ i, IsReal (x i)) :
    ∀ i, IsReal (Host.gather d x idx i) := by
  intro i
  obtain ⟨e, rfl⟩ : ∃ e : Fin E, i = ix1 e := ⟨i 0, eq_ix1 i⟩
  rw [Cert.VecGather.gather_vec_apply hN d hod hcd hob hsb hsm hiv hss]
  exact hx _

/-- A gather of rows of a matrix of reals is a matrix of reals. -/
theorem gather_rows_isReal {N E W : Nat} (hN : 0 < N) (d : GatherDims ⟨2, ![N, W]⟩ ⟨2, ![E, 1]⟩ ⟨2, ![E, W]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, W])
    (x : FVec Ideal ⟨2, ![N, W]⟩ .f32) (idx : IVec ⟨2, ![E, 1]⟩ 32) (hx : ∀ i, IsReal (x i)) :
    ∀ i, IsReal (Host.gather d x idx i) := by
  intro i
  obtain ⟨e, c, rfl⟩ : ∃ (e : Fin E) (c : Fin W), i = ix2 e c := ⟨i 0, i 1, eq_ix2 i⟩
  rw [Cert.RowOps.gather_rows_apply hN d hod hcd hob hsb hsm hiv hss]
  exact hx _

/-- A scatter-add of real updates into a flat array of reals is an array of reals: an entry of the operand plus a
    finite sum of updates. -/
theorem scatterAdd_vec_isReal {N E : Nat} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : FVec Ideal ⟨1, ![N]⟩ .f32) (idx : IVec ⟨2, ![E, 1]⟩ 32) (upd : FVec Ideal ⟨1, ![E]⟩ .f32)
    (hx : ∀ i, IsReal (x i)) (hu : ∀ i, IsReal (upd i)) :
    ∀ i, IsReal (Host.scatterAdd (F := Ideal) d x idx upd i) := by
  intro i
  classical
  obtain ⟨r, rfl⟩ : ∃ r : Fin N, i = ix1 r := ⟨i 0, eq_ix1 i⟩
  rw [Cert.RowOps.scatterAdd_vec_apply d huw hiw hsd hiv]
  exact isReal_add_sum _ _ (hx _) fun e _ => hu _

/-- A scatter-add of real rows into a matrix of reals is a matrix of reals. -/
theorem scatterAdd_rows_isReal {N E W : Nat} (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hiv : d.indexVectorDim = 1)
    (x : FVec Ideal ⟨2, ![N, W]⟩ .f32) (idx : IVec ⟨2, ![E, 1]⟩ 32) (upd : FVec Ideal ⟨2, ![E, W]⟩ .f32)
    (hx : ∀ i, IsReal (x i)) (hu : ∀ i, IsReal (upd i)) :
    ∀ i, IsReal (Host.scatterAdd (F := Ideal) d x idx upd i) := by
  intro i
  classical
  obtain ⟨r, c, rfl⟩ : ∃ (r : Fin N) (c : Fin W), i = ix2 r c := ⟨i 0, i 1, eq_ix2 i⟩
  rw [Cert.RowOps.scatterAdd_rows_apply d huw hiw hsd hiv]
  exact isReal_add_sum _ _ (hx _) fun e _ => hu _

/-! ## The guarded inverse square root -/

/-- `y > 0 ? 1/√y : 0` of a real `y` is real: where `y > 0` it is the real `(√y)⁻¹`, elsewhere it is `0`. -/
theorem guarded_rsqrt_isReal {y : Ideal .f32} (hy : IsReal y) :
    IsReal (Scalar.select (FloatOps.cmpf .ogt y (Ideal.ofBits .f32 0x00000000#32))
      (FloatOps.hostUnary .rsqrt y) (Ideal.ofBits .f32 0x00000000#32)) := by
  by_cases h : 0 < y
  · rw [cmpf_ogt_zero_of_pos h, select_one, Ideal.hostUnary_rsqrt_def]
    obtain ⟨r, rfl⟩ := hy
    have hr : 0 < r := EReal.coe_pos.mp h
    rw [Ideal.rsqrt_coe, if_neg (not_lt.mpr hr.le), if_neg hr.ne']
    exact isReal_coe _
  · rw [cmpf_ogt_zero_of_not_pos h, select_zero, Ideal.ofBits_zero_f32]
    exact isReal_zero

/-! ## The dense transform -/

/-- the dense transform: a finite sum of products of reals -/
theorem dot_isReal (x0 : (⟨S100000x64, .f32⟩ : BufTy).Contents (Elt Ideal)) (x2 : (⟨S64x64, .f32⟩ : BufTy).Contents (Elt Ideal))
    (h0 : ∀ i, IsReal (x0 i)) (h2 : ∀ i, IsReal (x2 i)) : ∀ i, IsReal (val_main_v30 (F := Ideal) x0 x2 i) := by
  intro i
  rw [val_main_v30_apply]
  exact isReal_sum_univ _ fun k => (h0 _).mul (h2 _)

/-! ## The stages of the reference, bottom up -/

section Stages

variable (x0 : (⟨S100000x64, .f32⟩ : BufTy).Contents (Elt Ideal))
  (x1 : (⟨S2x1600000, .i32⟩ : BufTy).Contents (Elt Ideal))
  (x2 : (⟨S64x64, .f32⟩ : BufTy).Contents (Elt Ideal))

/-- The degree: zero plus a sum of ones. -/
theorem deg_isReal : ∀ i, IsReal (val_main_v10 (F := Ideal) x1 i) := by
  unfold val_main_v10
  refine scatterAdd_vec_isReal _ rfl rfl rfl rfl _ _ _ ?_ ?_
  · intro i
    rw [val_main_v8_apply, val_main_cst_0_apply]
    exact isReal_ofBits_f32 _ (by decide)
  · intro i
    rw [val_main_v7_apply, val_main_cst_apply]
    exact isReal_ofBits_f32 _ (by decide)

/-- The normaliser `deg > 0 ? 1/√deg : 0`. -/
theorem dinv_isReal : ∀ i, IsReal (val_main_v14 (F := Ideal) x1 i) := by
  intro i
  have hd := deg_isReal x1 i
  rw [val_main_v14_apply, val_main_v12_apply, val_main_v13_apply, val_main_v11_apply, val_main_cst_1_apply,
    val_main_call0_v1_apply, val_main_call0_v0_apply, val_main_cst_2_apply]
  generalize val_main_v10 (F := Ideal) x1 i = y at hd ⊢
  exact guarded_rsqrt_isReal hd

/-- The normaliser read at the edges' sources. -/
theorem v21_isReal : ∀ i, IsReal (val_main_v21 (F := Ideal) x1 i) := by
  unfold val_main_v21
  exact gather_vec_isReal (by omega) _ rfl rfl rfl rfl rfl rfl rfl _ _ (dinv_isReal x1)

/-- The normaliser read at the edges' destinations. -/
theorem v28_isReal : ∀ i, IsReal (val_main_v28 (F := Ideal) x1 i) := by
  unfold val_main_v28
  exact gather_vec_isReal (by omega) _ rfl rfl rfl rfl rfl rfl rfl _ _ (dinv_isReal x1)

/-- The edge weights, a product of two normalisers. -/
theorem norm_isReal : ∀ i, IsReal (val_main_v29 (F := Ideal) x1 i) := by
  intro i
  rw [val_main_v29_apply, Ideal.mulf_def]
  exact (v21_isReal x1 _).mul (v28_isReal x1 _)

/-- The edge weights repeated along the rows. -/
theorem v39_isReal : ∀ i, IsReal (val_main_v39 (F := Ideal) x1 i) := by
  intro i
  rw [val_main_v39_apply, val_main_v38_apply]
  exact norm_isReal x1 _

/-- The transformed rows read at the edges' sources. -/
theorem v37_isReal (h0 : ∀ i, IsReal (x0 i)) (h2 : ∀ i, IsReal (x2 i)) :
    ∀ i, IsReal (val_main_v37 (F := Ideal) x0 x1 x2 i) := by
  unfold val_main_v37
  exact gather_rows_isReal (by omega) _ rfl rfl rfl rfl rfl rfl rfl _ _ (dot_isReal x0 x2 h0 h2)

/-- The messages: a gathered row times its edge weight. -/
theorem msg_isReal (h0 : ∀ i, IsReal (x0 i)) (h2 : ∀ i, IsReal (x2 i)) :
    ∀ i, IsReal (val_main_v40 (F := Ideal) x0 x1 x2 i) := by
  intro i
  rw [val_main_v40_apply, Ideal.mulf_def]
  exact (v37_isReal x0 x1 x2 h0 h2 _).mul (v39_isReal x1 _)

/-- The aggregate: zero plus the sum of the messages that end at a node. -/
theorem agg_isReal (h0 : ∀ i, IsReal (x0 i)) (h2 : ∀ i, IsReal (x2 i)) :
    ∀ i, IsReal (val_main_v43 (F := Ideal) x0 x1 x2 i) := by
  unfold val_main_v43
  refine scatterAdd_rows_isReal _ rfl rfl rfl rfl _ _ _ ?_ (msg_isReal x0 x1 x2 h0 h2)
  intro i
  rw [val_main_v41_apply, val_main_cst_8_apply]
  exact isReal_ofBits_f32 _ (by decide)

end Stages

/-- the aggregate plus the bias -/
theorem v46_isReal (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 : (⟨S64, .f32⟩ : BufTy).Contents (Elt Ideal))
    (h0 : ∀ i, IsReal (x0 i)) (h2 : ∀ i, IsReal (x2 i)) (h3 : ∀ i, IsReal (x3 i)) :
    ∀ i, IsReal (val_main_v46 (F := Ideal) x0 x1 x2 x3 i) := by
  intro i
  rw [val_main_v46_apply, Ideal.addf_def]
  refine (agg_isReal x0 x1 x2 h0 h2 i).add ?_
  rw [val_main_v45_apply, val_main_v44_apply]
  exact h3 _

end Cert.AggFinite
-- ==== Proof.KernelValue.lean ====
/-
  The idealized kernel's result, element by element, and its equality with the reference's.

  Region 0 leaves the product x · W, which is the reference's `dot_general` (both are the sum over the 64 inner indices);
  so the host aggregation between regions 0 and 1 produces the reference's aggregate, and the matrix `v` = aggregate
  plus bias is one and the same on both sides. Region 1 leaves the column sums of `v` and of its squares over all
  100000 rows; the host stretch after it divides by the count, subtracts the squared mean and takes the inverse square
  root of that variance plus epsilon; region 2 leaves, at row r and column j, the deviation of v from the mean times
  that factor times the scale plus the shift, clamped at zero. The reference does the same with the variance taken as
  the mean of the squared deviations; on a matrix of real entries the two variances are one number, and `v` has real
  entries because x, W and b do.
-/
import proofs.«165885_j29437705847123_1_alg».proof.Proof.Boundaries
import proofs.«165885_j29437705847123_1_alg».proof.Proof.StatsRegion
import proofs.«165885_j29437705847123_1_alg».proof.Proof.MatmulRegion
import proofs.«165885_j29437705847123_1_alg».proof.Proof.NormRegion
import proofs.«165885_j29437705847123_1_alg».proof.Proof.Algebra
import proofs.«165885_j29437705847123_1_alg».proof.Proof.RefValue
import proofs.«165885_j29437705847123_1_alg».proof.Proof.AggFinite

noncomputable section

namespace Cert.KernelIdeal.KernelValue

open Cert.KernelIdeal Cert.KernelIdeal.Gen Cert.KernelIdeal.HostChain Cert.KernelIdeal.Boundaries
open Idealize.ShloMosaic Idealize.ShloMosaic.TcCoe Idealize.SL.Sem Idealize.ShloMosaic.ValueIdx
open Idealize.ShloMosaic.Pipeline (Dat)
open Cert.ReferenceIdeal.ReadP Cert.BatchStats Cert.Finite

variable (m : (ℓ : Loc nD τ sig) → Buf (Elt Ideal) ℓ) (ρ : Dev nD → PrngReg) (c : Dev nD)

/-- The matrix of aggregated values plus bias, as the reference's stage of the launch arrays. -/
abbrev vm : Mat := val_main_v46 (F := Ideal) (a0 m c) (a1 m c) (a2 m c) (a3 m c)

/-! ## Region 0 leaves the reference's product -/

/-- A matrix whose entry at row r, column j is the sum over k of X(r,k) · W(k,j) is the reference's `dot_general`. -/
theorem product_eq (X : S100000x64.Idx → EReal) (Wt : S64x64.Idx → EReal) (P : S100000x64.Idx → EReal)
    (hP : ∀ (r : Fin 100000) (j : Fin 64), P (ix2 r j) = ∑ k : Fin 64, X (ix2 r k) * Wt (ix2 k j)) :
    P = val_main_v30 (F := Ideal) X Wt := by
  funext i
  obtain ⟨r, j, rfl⟩ : ∃ (r : Fin 100000) (j : Fin 64), i = ix2 r j := ⟨i 0, i 1, eq_ix2 i⟩
  rw [hP, val_main_v30_apply]
  refine Finset.sum_congr rfl fun k _ => ?_
  have el : lidx_main_v30 (ix2 r j) k = ix2 r k := funext fun a => Fin.ext (by match a with | ⟨0, _⟩ => rfl | ⟨1, _⟩ => rfl)
  have er : ridx_main_v30 (ix2 r j) k = ix2 k j := funext fun a => Fin.ext (by match a with | ⟨0, _⟩ => rfl | ⟨1, _⟩ => rfl)
  rw [el, er]

theorem first_region : W4 m ρ c (Proc.devRef .tc main_v30) = val_main_v30 (F := Ideal) (a0 m c) (a2 m c) := by
  rw [w4_v30]
  exact product_eq _ _ _ fun r j => Cert.KernelIdeal.DenseRegions.matmul_final (V3 m ρ) c _ _
    (w3_arg m ρ c main_arg0 (by decide)) (w3_arg m ρ c main_arg2 (by decide)) r j

/-- So the aggregate entering region 1 is the reference's. -/
theorem agg_eq : W5 m ρ c (Proc.devRef .tc main_v43) = val_main_v43 (F := Ideal) (a0 m c) (a1 m c) (a2 m c) :=
  w5_v43 m ρ c (first_region m ρ c)

/-! ## The rows: a parameter vector reshaped to one row, and the matrix entry as aggregate plus bias -/

theorem row_apply (x : (⟨Cert.ReferenceIdeal.S64, .f32⟩ : BufTy).Contents (Elt Ideal)) (j : Fin 64) :
    (shapeCast S1x64 x shapeCasts_S64_S1x64 : S1x64.Idx → EReal) (ix2 0 j) = x (ix1 j) := by
  refine (shapeCast_addUnit_apply (n := 1) ![64] x shapeCasts_S64_S1x64 (ix2 0 j)).trans (congrArg x ?_)
  exact funext fun a => Fin.ext (by match a with | ⟨0, _⟩ => rfl)

theorem entry_eq (A : S100000x64.Idx → EReal) (hA : A = val_main_v43 (F := Ideal) (a0 m c) (a1 m c) (a2 m c)) (r : Fin 100000) (j : Fin 64) :
    A (ix2 r j) + (shapeCast S1x64 (a3 m c) shapeCasts_S64_S1x64 : S1x64.Idx → EReal) (ix2 0 j) = vm m c (ix2 r j) := by
  subst hA
  unfold vm
  rw [val_main_v46_apply, val_main_v45_apply, val_main_v44_apply, row_apply]
  generalize val_main_v43 (F := Ideal) (a0 m c) (a1 m c) (a2 m c) = A
  simp only [Ideal.addf_def]
  refine congrArg (A (ix2 r j) + ·) (congrArg (a3 m c) ?_)
  exact funext fun a => Fin.ext (by match a with | ⟨0, _⟩ => rfl)

/-! ## Region 1 leaves the column sums of the matrix and of its squares -/

/-- Termwise: aggregate plus bias row is the matrix entry, under the sum over the rows. -/
theorem sum_entries (A : S100000x64.Idx → EReal) (B : S1x64.Idx → EReal) (hA : A = val_main_v43 (F := Ideal) (a0 m c) (a1 m c) (a2 m c))
    (hB : B = shapeCast S1x64 (a3 m c) shapeCasts_S64_S1x64) (j : Fin 64) :
    (∑ r : Fin 100000, (A (ix2 r j) + B (ix2 0 j))) = ∑ r : Fin 100000, vm m c (ix2 r j) := by
  subst hB
  exact Finset.sum_congr rfl fun r _ => entry_eq m c A hA r j

theorem sumsq_entries (A : S100000x64.Idx → EReal) (B : S1x64.Idx → EReal) (hA : A = val_main_v43 (F := Ideal) (a0 m c) (a1 m c) (a2 m c))
    (hB : B = shapeCast S1x64 (a3 m c) shapeCasts_S64_S1x64) (j : Fin 64) :
    (∑ r : Fin 100000, (A (ix2 r j) + B (ix2 0 j)) * (A (ix2 r j) + B (ix2 0 j)))
      = ∑ r : Fin 100000, vm m c (ix2 r j) * vm m c (ix2 r j) := by
  subst hB
  exact Finset.sum_congr rfl fun r _ => by rw [entry_eq m c A hA r j]

theorem sum_row (j : Fin 64) : @Eq EReal (sumRow m ρ c (ix2 0 j)) (∑ r : Fin 100000, vm m c (ix2 r j)) :=
  ((congrFun (w6_v47_0 m ρ c) (ix2 0 j)).trans
    (Cert.KernelIdeal.StatsRegion.sum_final (V5 m ρ) c _ _ (agg_eq m ρ c) (w5_v44 m ρ c) j)).trans
    (sum_entries m c _ _ rfl rfl j)

theorem sumsq_row (j : Fin 64) : @Eq EReal (sumsqRow m ρ c (ix2 0 j)) (∑ r : Fin 100000, vm m c (ix2 r j) * vm m c (ix2 r j)) :=
  ((congrFun (w6_v47_1 m ρ c) (ix2 0 j)).trans
    (Cert.KernelIdeal.StatsRegion.sumsq_final (V5 m ρ) c _ _ (agg_eq m ρ c) (w5_v44 m ρ c) j)).trans
    (sumsq_entries m c _ _ rfl rfl j)

/-! ## The host stretch after it: the mean and the inverse standard deviation -/

theorem countRow_apply (i : S1x64.Idx) : (countRow (F := Ideal) : S1x64.Idx → EReal) i = cnt := rfl
theorem epsRow_apply (i : S1x64.Idx) : (epsRow (F := Ideal) : S1x64.Idx → EReal) i = eps := rfl

/-- The mean row the last host stretch computes, at column `j`. -/
theorem mean_row (j : Fin 64) :
    (Host.divf (sumRow m ρ c) (countRow (F := Ideal)) : FVec Ideal S1x64 .f32) (ix2 0 j) = mean (vm m c) j := by
  show FloatOps.hostDivf (sumRow m ρ c (ix2 0 j)) ((countRow (F := Ideal) : S1x64.Idx → EReal) (ix2 0 j)) = _
  rw [sum_row, countRow_apply]
  rfl

/-- The inverse standard deviation row the last host stretch computes, at column `j`. -/
theorem invstd_row (j : Fin 64) :
    (Host.rsqrt (addf (subf (Host.divf (sumsqRow m ρ c) (countRow (F := Ideal)))
        (mulf (Host.divf (sumRow m ρ c) (countRow (F := Ideal))) (Host.divf (sumRow m ρ c) (countRow (F := Ideal)))))
        (epsRow (F := Ideal))) : FVec Ideal S1x64 .f32) (ix2 0 j) = Ideal.rsqrt (varSq (vm m c) j + eps) := by
  show FloatOps.hostUnary .rsqrt (FloatOps.addf (FloatOps.subf
      (FloatOps.hostDivf (sumsqRow m ρ c (ix2 0 j)) ((countRow (F := Ideal) : S1x64.Idx → EReal) (ix2 0 j)))
      (FloatOps.mulf (FloatOps.hostDivf (sumRow m ρ c (ix2 0 j)) ((countRow (F := Ideal) : S1x64.Idx → EReal) (ix2 0 j)))
        (FloatOps.hostDivf (sumRow m ρ c (ix2 0 j)) ((countRow (F := Ideal) : S1x64.Idx → EReal) (ix2 0 j)))))
      ((epsRow (F := Ideal) : S1x64.Idx → EReal) (ix2 0 j))) = _
  rw [sum_row, sumsq_row, countRow_apply, epsRow_apply]
  rfl

/-! ## Region 2 leaves the normalized entry -/

theorem result_kernel (r : Fin 100000) (j : Fin 64) :
    (W8 m ρ c (Proc.devRef .tc main_v57) : S100000x64.Idx → EReal) (ix2 r j)
      = out (vm m c) (varSq (vm m c)) (Cert.ReferenceIdeal.RefValue.col (a4 m c)) (Cert.ReferenceIdeal.RefValue.col (a5 m c)) r j := by
  have h := Cert.KernelIdeal.DenseRegions.norm_final (V7 m ρ) c _ _ _ _ _ _
    ((w7_v43 m ρ c).trans (agg_eq m ρ c)) ((w7_v44 m ρ c).trans (w5_v44 m ρ c)) (w7_v49 m ρ c) (w7_v56 m ρ c)
    ((w7_v45 m ρ c).trans (w5_v45 m ρ c)) ((w7_v46 m ρ c).trans (w5_v46 m ρ c)) r j
  refine ((congrFun (w8_v57 m ρ c) (ix2 r j)).trans h).trans ?_
  rw [entry_eq m c _ rfl r j, mean_row, invstd_row, row_apply, row_apply]
  rfl

/-! ## The two results are one -/

/-- The kernel's result array is the reference's result stage of the same launch arrays, when x, W and b are real. -/
theorem result_eq (h0 : ∀ i, IsReal (a0 m c i)) (h2 : ∀ i, IsReal (a2 m c i)) (h3 : ∀ i, IsReal (a3 m c i)) :
    W8 m ρ c (Proc.devRef .tc main_v57)
      = val_main_v72 (F := Ideal) (a0 m c) (a1 m c) (a2 m c) (a3 m c) (a4 m c) (a5 m c) := by
  funext i
  obtain ⟨r, j, rfl⟩ : ∃ (r : Fin 100000) (j : Fin 64), i = ix2 r j := ⟨i 0, i 1, eq_ix2 i⟩
  rw [Cert.ReferenceIdeal.RefValue.result_ref]
  refine (result_kernel m ρ c r j).trans ?_
  exact out_varSq_eq (vm m c) (Cert.AggFinite.v46_isReal _ _ _ _ h0 h2 h3) _ _ r j

end Cert.KernelIdeal.KernelValue

end
-- ==== Proof.LibPreDecode.lean ====
/-
  A predicate that is a conjunction of "all entries of an array satisfy a comparison", read back.

  Such a predicate is a one-bit scalar built from three things: an entrywise comparison of two arrays, giving an
  array of one-bit words; a reduction of that array by "and" over all axes, from the word 1; and the "and" of several
  such scalars. If the scalar is 1 then every conjunct is 1 (a conjunction of one-bit words is 1 exactly when each
  word is), a reduction by "and" that came out 1 met only 1s, and a comparison word that is 1 says the comparison
  holds. Over the extended reals two comparisons matter here: "x > y" is the strict order, and "|x| < +infinity"
  says exactly that x is finite, the image of a real number (it excludes both infinities; |x| is max x (-x)).

  The statements are over an arbitrary array shape, an arbitrary float format whose compared pattern denotes +infinity
  (with the f32 and bf16 patterns as instances), and both ways a scalar is said to be 1: at its one index, or as the
  constant function. Nothing here mentions a particular program.
-/
import Idealize.ShloMosaic.PureOps.Ideal
import Idealize.ShloMosaic.PureOps.Ideal.Laws
import Idealize.ShloMosaic.Lib.ValueIdx
import Idealize.ShloMosaic.Lib.ReduceAll
import proofs.«165885_j29437705847123_1_alg».proof.Proof.LibFinite

noncomputable section

namespace Cert.PreDecodeLib

open Idealize.ShloMosaic Idealize.ShloMosaic.ValueIdx
open Cert.Finite

/-! ## The scalar shape -/

/-- The shape of a scalar: rank 0. -/
abbrev S0 : Shape := ⟨0, ![]⟩

/-- The scalar shape has one index. -/
instance subsingleton_S0_idx : Subsingleton S0.Idx := ⟨fun a b => funext fun d => d.elim0⟩

/-- A one-bit scalar that is the constant function 1 is 1 at its one index. -/
theorem at_ix0_of_eq_one {x : IVec S0 1} (h : x = fun _ => 1#1) : x ix0 = 1#1 := congrFun h ix0

/-- A one-bit scalar that is 1 at its one index is the constant function 1. -/
theorem eq_one_of_at_ix0 {x : IVec S0 1} (h : x ix0 = 1#1) : x = fun _ => 1#1 :=
  funext fun i => by rw [eq_ix0 i]; exact h

/-! ## One-bit words -/

/-- A one-bit word made from a decision is 1 exactly when the decision holds. -/
theorem ofBool_eq_one (b : Bool) : BitVec.ofBool b = 1#1 ↔ b = true := by cases b <;> decide

/-- The entrywise "and" of two arrays of one-bit words is 1 at an index exactly when both are 1 there. -/
theorem andi_eq_one_at {s : Shape} {x y : IVec s 1} {i : s.Idx} (h : andi x y i = 1#1) : x i = 1#1 ∧ y i = 1#1 :=
  IntOp.andi_eq_one.1 h

/-- The "and" of two one-bit scalars that is 1 at the scalar's index has both conjuncts 1 there. -/
theorem andi_ix0 {x y : IVec S0 1} (h : andi x y ix0 = 1#1) : x ix0 = 1#1 ∧ y ix0 = 1#1 :=
  andi_eq_one_at h

/-- The entrywise "and" of two arrays of one-bit words that is constantly 1 has both arrays constantly 1. -/
theorem andi_eq_one {s : Shape} {x y : IVec s 1} (h : andi x y = fun _ => 1#1) :
    x = (fun _ => 1#1) ∧ y = (fun _ => 1#1) :=
  ⟨funext fun i => (andi_eq_one_at (congrFun h i)).1, funext fun i => (andi_eq_one_at (congrFun h i)).2⟩

/-! ## Comparisons of extended reals, read back -/

/-- A comparison word "x > y" that is 1: x is strictly above y. -/
theorem lt_of_ogt {φ : FTy} {x y : Ideal φ} (h : FloatOps.cmpf .ogt x y = 1#1) : (y : EReal) < x := by
  have h2 : Ideal.cmp .ogt x y = 1#1 := h
  unfold Ideal.cmp at h2
  rw [ofBool_eq_one] at h2
  exact of_decide_eq_true h2

/-- A comparison word "x < y" that is 1: x is strictly below y. -/
theorem lt_of_olt {φ : FTy} {x y : Ideal φ} (h : FloatOps.cmpf .olt x y = 1#1) : (x : EReal) < y := by
  have h2 : Ideal.cmp .olt x y = 1#1 := h
  unfold Ideal.cmp at h2
  rw [ofBool_eq_one] at h2
  exact of_decide_eq_true h2

/-- Two arrays compared entry by entry by "greater than", the word at an index being 1: the inequality there. -/
theorem gt_of_ogt_at {φ : FTy} {s : Shape} (x y : FVec Ideal s φ) (j : s.Idx) (h : cmpf .ogt x y j = 1#1) :
    x j > y j :=
  lt_of_ogt h

/-- The f32 pattern `0x7F800000` denotes +infinity. -/
theorem ofBits_inf_f32 : Ideal.ofBits .f32 0x7F800000#32 = (⊤ : EReal) := by simp [Ideal.ofBits, Ideal.ieee]

/-- The bf16 pattern `0x7F80` denotes +infinity. -/
theorem ofBits_inf_bf16 : Ideal.ofBits .bf16 0x7F80#16 = (⊤ : EReal) := by simp [Ideal.ofBits, Ideal.ieee]

/-- An extended real whose absolute value max x (-x) lies strictly below +infinity is a real. -/
theorem isReal_of_abs_lt_top {x : EReal} (h : max x (-x) < ⊤) : IsReal x := by
  induction x using EReal.rec with
  | bot => simp at h
  | coe r => exact ⟨r, rfl⟩
  | top => simp at h

/-- The comparison word "|x| < b" that is 1, for a pattern b that denotes +infinity: x is a real. -/
theorem isReal_of_abs_lt {φ : FTy} (b : BitVec φ.bits) (hb : Ideal.ofBits φ b = (⊤ : EReal)) (x : Ideal φ)
    (h : FloatOps.cmpf .olt (FloatOps.hostAbsf x) (FloatOps.ofBits (F := Ideal) φ b) = 1#1) : IsReal x := by
  have h2 : (max (x : EReal) (-x)) < Ideal.ofBits φ b := lt_of_olt h
  rw [hb] at h2
  exact isReal_of_abs_lt_top h2

/-- The f32 case: the comparison word "|x| < 0x7F800000" that is 1 says x is a real. -/
theorem isReal_of_abs_lt_f32 (x : Ideal .f32)
    (h : FloatOps.cmpf .olt (FloatOps.hostAbsf x) (FloatOps.ofBits (F := Ideal) .f32 0x7F800000#32) = 1#1) :
    IsReal x :=
  isReal_of_abs_lt _ ofBits_inf_f32 x h

/-! ## Arrays -/

/-- Every entry of an array of extended reals is a real. -/
abbrev AllReal {φ : FTy} {s : Shape} (x : FVec Ideal s φ) : Prop := ∀ i, IsReal (x i)

/-- Every entry of an array (already in absolute value) compares strictly below the scalar pattern b broadcast to
    the array's shape: the array of comparison words is 1 at every index. -/
abbrev LtBcast {φ : FTy} {s : Shape} (b : BitVec φ.bits) (hb : S0.BroadcastsInDim s (![] : Fin 0 → Fin s.rank))
    (x : FVec Ideal s φ) : Prop :=
  ∀ i, cmpf .olt x (broadcastInDim s ![] hb (constant S0 φ b)) i = 1#1

/-- The f32 case with the pattern of +infinity. -/
abbrev AbsLtInf {s : Shape} (hb : S0.BroadcastsInDim s (![] : Fin 0 → Fin s.rank)) (x : FVec Ideal s .f32) : Prop :=
  LtBcast 0x7F800000#32 hb x

/-- An array whose absolute values all compare below a pattern that denotes +infinity has real entries. -/
theorem allReal_of_ltBcast {φ : FTy} {s : Shape} (b : BitVec φ.bits) (htop : Ideal.ofBits φ b = (⊤ : EReal))
    (x : FVec Ideal s φ) (hb : S0.BroadcastsInDim s (![] : Fin 0 → Fin s.rank)) (h : LtBcast b hb (Host.absf x)) :
    AllReal x :=
  fun i => isReal_of_abs_lt b htop (x i) (h i)

/-- The f32 case: an array whose absolute values all compare below +infinity has real entries. -/
theorem allReal_of_abs {s : Shape} (x : FVec Ideal s .f32) (hb : S0.BroadcastsInDim s (![] : Fin 0 → Fin s.rank))
    (h : AbsLtInf hb (Host.absf x)) : AllReal x :=
  allReal_of_ltBcast _ ofBits_inf_f32 x hb h

/-! ## The reduction by "and" -/

/-- A reduction by "and" over all axes that is 1 at the scalar's index: every entry of the reduced array is 1. -/
theorem all_of_reduce {s u : Shape} {axes : List (Fin s.rank)} (p : IVec s 1) (init : IVec u 1) (hr : s.ReducesTo axes S0)
    (hu : 0 < u.numel) (e : Host.reduce IntOp.andi p init hr hu ix0 = 1#1) (i : s.Idx) : p i = 1#1 :=
  Host.reduce_andi_all p init hr hu ix0 e i

/-- The same when the reduction is said to be the constant function 1. -/
theorem all_of_reduce_eq {s u : Shape} {axes : List (Fin s.rank)} (p : IVec s 1) (init : IVec u 1)
    (hr : s.ReducesTo axes S0) (hu : 0 < u.numel) (e : Host.reduce IntOp.andi p init hr hu = fun _ => 1#1) (i : s.Idx) :
    p i = 1#1 :=
  all_of_reduce p init hr hu (congrFun e ix0) i

/-- "All |x i| < b" came out 1, for a pattern b that denotes +infinity: every entry of x is a real. -/
theorem allReal_of_all {φ : FTy} {s u : Shape} {axes : List (Fin s.rank)} (b : BitVec φ.bits)
    (htop : Ideal.ofBits φ b = (⊤ : EReal)) (x : FVec Ideal s φ) (hb : S0.BroadcastsInDim s (![] : Fin 0 → Fin s.rank))
    (init : IVec u 1) (hr : s.ReducesTo axes S0) (hu : 0 < u.numel)
    (e : Host.reduce IntOp.andi (cmpf .olt (Host.absf x) (broadcastInDim s ![] hb (constant S0 φ b))) init hr hu ix0
      = 1#1) : AllReal x :=
  allReal_of_ltBcast b htop x hb (all_of_reduce _ _ hr hu e)

/-- The f32 case, the reduction started from the word 1, 1 at the scalar's index: every entry of x is a real. -/
theorem finite_of_all {s : Shape} {axes : List (Fin s.rank)} (x : FVec Ideal s .f32)
    (hb : S0.BroadcastsInDim s (![] : Fin 0 → Fin s.rank)) (hr : s.ReducesTo axes S0) (hu : 0 < S0.numel)
    (e : Host.reduce IntOp.andi (cmpf .olt (Host.absf x) (broadcastInDim s ![] hb (constant S0 .f32 0x7F800000#32)))
      (constantI S0 1 1#1) hr hu ix0 = 1#1) : AllReal x :=
  allReal_of_all _ ofBits_inf_f32 x hb _ hr hu e

/-- The same when the reduction is said to be the constant function 1. -/
theorem finite_of_all_eq {s : Shape} {axes : List (Fin s.rank)} (x : FVec Ideal s .f32)
    (hb : S0.BroadcastsInDim s (![] : Fin 0 → Fin s.rank)) (hr : s.ReducesTo axes S0) (hu : 0 < S0.numel)
    (e : Host.reduce IntOp.andi (cmpf .olt (Host.absf x) (broadcastInDim s ![] hb (constant S0 .f32 0x7F800000#32)))
      (constantI S0 1 1#1) hr hu = fun _ => 1#1) : AllReal x :=
  finite_of_all x hb hr hu (congrFun e ix0)

/-- "All x j > y j" came out 1 at the scalar's index: x lies strictly above y at every index. -/
theorem gt_of_all {φ : FTy} {s u : Shape} {axes : List (Fin s.rank)} (x y : FVec Ideal s φ) (init : IVec u 1)
    (hr : s.ReducesTo axes S0) (hu : 0 < u.numel)
    (e : Host.reduce IntOp.andi (cmpf .ogt x y) init hr hu ix0 = 1#1) (j : s.Idx) : x j > y j :=
  gt_of_ogt_at x y j (all_of_reduce _ _ hr hu e j)

/-- The same when the reduction is said to be the constant function 1. -/
theorem gt_of_all_eq {φ : FTy} {s u : Shape} {axes : List (Fin s.rank)} (x y : FVec Ideal s φ) (init : IVec u 1)
    (hr : s.ReducesTo axes S0) (hu : 0 < u.numel)
    (e : Host.reduce IntOp.andi (cmpf .ogt x y) init hr hu = fun _ => 1#1) (j : s.Idx) : x j > y j :=
  gt_of_all x y init hr hu (congrFun e ix0) j

end Cert.PreDecodeLib

end
-- ==== Proof.PreReal.lean ====
/-
  The precondition "every input is finite", read back.

  The precondition is the one-bit scalar all(|x| < +inf) and all(|W| < +inf) and all(|b| < +inf) and
  all(|gamma| < +inf) and all(|beta| < +inf), said to be 1. A conjunction of one-bit words that is 1 has every
  conjunct 1; a reduction by "and" that came out 1 met only 1s; and |v| < +inf for an extended real v says that v is
  a real number. So each of the five float arguments is entrywise a real number.
-/
import proofs.«165885_j29437705847123_1_alg».proof.Defs
import proofs.«165885_j29437705847123_1_alg».proof.Proof.LibFinite
import proofs.«165885_j29437705847123_1_alg».proof.Proof.LibPreDecode
import Idealize.ShloMosaic.Lib.ReduceAll
import Idealize.ShloMosaic.Lib.ValueIdx

noncomputable section

open Idealize.ShloMosaic Idealize.SL.Sem Idealize.ShloMosaic.ValueIdx

namespace Cert.PreReal

open Cert.Finite Cert.PreDecodeLib

/-- The predicate over five arbitrary float arrays of the arguments' shapes (the integer edge list does not enter it):
    if it is the constant 1, every entry of each of the five is a real number. -/
theorem fn_real [Cert.Pre_finite_inputs.Facts]
    (a0 : FVec Ideal Cert.Pre_finite_inputs.S100000x64 .f32) (a1 : IVec Cert.Pre_finite_inputs.S2x1600000 32)
    (a2 : FVec Ideal Cert.Pre_finite_inputs.S64x64 .f32) (a3 a4 a5 : FVec Ideal Cert.Pre_finite_inputs.S64 .f32)
    (h : Cert.Pre_finite_inputs.fn (F := Ideal) a0 a1 a2 a3 a4 a5 = fun _ => 1#1) :
    (∀ i, IsReal (a0 i)) ∧ (∀ i, IsReal (a2 i)) ∧ (∀ i, IsReal (a3 i)) ∧ (∀ i, IsReal (a4 i)) ∧ (∀ i, IsReal (a5 i)) := by
  have h1 := congrFun h ix0
  unfold Cert.Pre_finite_inputs.fn Cert.Pre_finite_inputs.fn_part1 at h1
  dsimp only at h1
  obtain ⟨h4, e5⟩ := andi_ix0 h1
  obtain ⟨h3, e4⟩ := andi_ix0 h4
  obtain ⟨h2, e3⟩ := andi_ix0 h3
  obtain ⟨e1, e2⟩ := andi_ix0 h2
  exact ⟨finite_of_all a0 _ _ _ e1, finite_of_all a2 _ _ _ e2, finite_of_all a3 _ _ _ e3, finite_of_all a4 _ _ _ e4,
    finite_of_all a5 _ _ _ e5⟩

/-- The precondition of the idealized kernel makes x, W, the bias, gamma and beta entrywise real, on every device. -/
theorem args_real [hPre : Cert.Pre_finite_inputs.Facts]
    (m : (ℓ : Loc Cert.KernelIdeal.nD Cert.KernelIdeal.τ Cert.KernelIdeal.sig) → Buf (Elt Ideal) ℓ) (hpre : Cert.Pre_KernelIdeal m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg2) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg4) i))
    ∧ (∀ i, IsReal (m ((c.tc : Thread Cert.KernelIdeal.nD Cert.KernelIdeal.τ).loc Cert.KernelIdeal.main_arg5) i)) :=
  fn_real _ _ _ _ _ _ (hpre c)

end Cert.PreReal
-- ==== Proof.lean ====
/-
  The certificate of a graph convolution with batch normalization and ReLU: a Pallas kernel in three pipelined regions
  (the dense transform x · W in row blocks; the column sums of the aggregated values and of their squares accumulated
  over the row blocks; the normalization block by block) around the host's gather / scale / scatter-add message
  passing, against the plain jnp reference.

  Frames: the word-level kernel's and the idealized kernel's are the launch of @main's eight segments; the reference
  is a straight line of host operations, and its frame is its run with the result dropped.
  Preserves: the idealization rewrote nothing.
  Algebraic: at the ideal reading both programs end with one array. The bf16 matmul into a zero accumulator is the
  reference's dot_general (a sum over the 64 inner indices), so the aggregated matrix v is the same on both sides; the
  kernel's block-accumulated column sums are the sums over all rows (addition of extended reals is commutative and
  associative); the kernel's variance, mean of squares minus squared mean, is the reference's mean of squared
  deviations because v has real entries — x, W and b are finite by the precondition, and sums and products of reals,
  and the inverse square root of a positive degree, are real; everything after the variance is the same expression.
-/
import proofs.«165885_j29437705847123_1_alg».proof.Defs
import proofs.«165885_j29437705847123_1_alg».proof.Proof.Gen.Kernel
import proofs.«165885_j29437705847123_1_alg».proof.Proof.Gen.Kernel.Skeleton
import proofs.«165885_j29437705847123_1_alg».proof.Proof.Gen.Kernel.Launch
import proofs.«165885_j29437705847123_1_alg».proof.Proof.Gen.Kernel.Points
import proofs.«165885_j29437705847123_1_alg».proof.Proof.Gen.Kernel.Frame
import proofs.«165885_j29437705847123_1_alg».proof.Proof.Gen.KernelIdeal
import proofs.«165885_j29437705847123_1_alg».proof.Proof.Gen.KernelIdeal.Skeleton
import proofs.«165885_j29437705847123_1_alg».proof.Proof.Gen.KernelIdeal.Launch
import proofs.«165885_j29437705847123_1_alg».proof.Proof.Gen.KernelIdeal.Points
import proofs.«165885_j29437705847123_1_alg».proof.Proof.Gen.KernelIdeal.Frame
import proofs.«165885_j29437705847123_1_alg».proof.Proof.Gen.ReferenceIdeal
import proofs.«165885_j29437705847123_1_alg».proof.Proof.Gen.Pre_finite_inputs
import proofs.«165885_j29437705847123_1_alg».proof.Proof.RefRunP
import proofs.«165885_j29437705847123_1_alg».proof.Proof.RefReadP
import Idealize.ShloMosaic.Adequacy
import Idealize.ShloMosaic.Init

import proofs.«165885_j29437705847123_1_alg».proof.Proof.KernelRun
import proofs.«165885_j29437705847123_1_alg».proof.Proof.KernelValue
import proofs.«165885_j29437705847123_1_alg».proof.Proof.PreReal

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Both idealized programs, from memories agreeing on the arguments, end with the kernel's last-boundary contents of
    its result array: the kernel by its run, the reference because its result stage of the same arrays is that array. -/
theorem algebraic : Cert.algebraic_KernelIdeal_ReferenceIdeal := by
  intro m ρ m' ρ' hpre hagree
  refine ⟨fun c => Cert.KernelIdeal.Gen.W8 m ρ c (Proc.devRef .tc Cert.KernelIdeal.main_v57),
    Cert.KernelIdeal.Run.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h2, h3, -, -⟩ := Cert.PreReal.args_real m hpre c
  rw [Cert.ReferenceIdeal.ReadP.val_main_v72_eq, (hagree c).1, (hagree c).2.1, (hagree c).2.2.1, (hagree c).2.2.2.1,
    (hagree c).2.2.2.2.1, (hagree c).2.2.2.2.2]
  exact (Cert.KernelIdeal.KernelValue.result_eq m ρ c h0 h2 h3).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
